-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v193_1)) (v1 : (c : Dev Cert.KernelIdeal.nD) → Buf (Elt Ideal) ((c.tc : Thread Cert.KernelIdeal.nD Cert.KernelIdeal.τ).loc Cert.KernelIdeal.main_v193_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193_1) = v0 c
          ∧ r.2.mem ((c.tc : Thread Cert.KernelIdeal.nD Cert.KernelIdeal.τ).loc Cert.KernelIdeal.main_v193_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_v240) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x131 : Shape := ⟨2, ![100000, 131]⟩
abbrev S2x3200000 : Shape := ⟨2, ![2, 3200000]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S5x16x16 : Shape := ⟨3, ![5, 16, 16]⟩
abbrev S5x16 : Shape := ⟨2, ![5, 16]⟩
abbrev S16x2 : Shape := ⟨2, ![16, 2]⟩
abbrev S2 : Shape := ⟨1, ![2]⟩
abbrev S_ : Shape := ⟨0, ![]⟩

class Facts : Prop where
  bcast_S_S100000x131 : S_.BroadcastsInDim S100000x131 (![] : Fin 0 → Fin S100000x131.rank)
  reducesTo_S100000x131_S_d0_1 : S100000x131.ReducesTo [0, 1] S_
  h_S_ : 0 < S_.numel
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S5x16x16 : S_.BroadcastsInDim S5x16x16 (![] : Fin 0 → Fin S5x16x16.rank)
  reducesTo_S5x16x16_S_d0_1_2 : S5x16x16.ReducesTo [0, 1, 2] S_
  bcast_S_S5x16 : S_.BroadcastsInDim S5x16 (![] : Fin 0 → Fin S5x16.rank)
  reducesTo_S5x16_S_d0_1 : S5x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S16x2 .f32) (main_arg13 : FVec F S2 .f32) (main_v48 : IVec S_ 1) (main_v49 : FVec F S5x16 .f32) (main_v50 : FVec F S5x16 .f32) : IVec S_ 1 :=
  let main_v51 : IVec S5x16 1 := cmpf .olt main_v49 main_v50
  let main_c_19 : IVec S_ 1 := constantI S_ 1 1#1
  let main_v52 : IVec S_ 1 := (fun x v => Host.reduce IntOp.andi x v reducesTo_S5x16_S_d0_1 h_S_) main_v51 main_c_19
  let main_v53 : IVec S_ 1 := andi main_v48 main_v52
  let main_v54 : FVec F S16x2 .f32 := Host.absf main_arg12
  let main_cst_20 : FVec F S_ .f32 := constant S_ .f32 0x7F800000#32
  let main_v55 : FVec F S16x2 .f32 := broadcastInDim S16x2 ![] bcast_S_S16x2 main_cst_20
  let main_v56 : IVec S16x2 1 := cmpf .olt main_v54 main_v55
  let main_c_21 : IVec S_ 1 := constantI S_ 1 1#1
  let main_v57 : IVec S_ 1 := (fun x v => Host.reduce IntOp.andi x v reducesTo_S16x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S16x16 .f32) (main_arg9 : FVec F S16 .f32) (main_arg10 : FVec F S5x16x16 .f32) (main_arg11 : FVec F S5x16 .f32) (main_arg12 : FVec F S16x2 .f32) (main_arg13 : FVec F S2 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S5x16x16 .f32 := Host.absf main_arg10
  let main_cst_16 : FVec F S_ .f32 := constant S_ .f32 0x7F800000#32
  let main_v45 : FVec F S5x16x16 .f32 := broadcastInDim S5x16x16 ![] bcast_S_S5x16x16 main_cst_16
  let main_v46 : IVec S5x16x16 1 := cmpf .olt main_v44 main_v45
  let main_c_17 : IVec S_ 1 := constantI S_ 1 1#1
  let main_v47 : IVec S_ 1 := (fun x v => Host.reduce IntOp.andi x v reducesTo_S5x16x16_S_d0_1_2 h_S_) main_v46 main_c_17
  let main_v48 : IVec S_ 1 := andi main_v43 main_v47
  let main_v49 : FVec F S5x16 .f32 := Host.absf main_arg11
  let main_cst_18 : FVec F S_ .f32 := constant S_ .f32 0x7F800000#32
  let main_v50 : FVec F S5x16 .f32 := broadcastInDim S5x16 ![] bcast_S_S5x16 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S16x16 .f32) (main_arg9 : FVec F S16 .f32) (main_arg10 : FVec F S5x16x16 .f32) (main_arg11 : FVec F S5x16 .f32) (main_arg12 : FVec F S16x2 .f32) (main_arg13 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x131 .f32) (main_arg1 : IVec S2x3200000 32) (main_arg2 : FVec F S131x64 .f32) (main_arg3 : FVec F S64 .f32) (main_arg4 : FVec F S64x32 .f32) (main_arg5 : FVec F S32 .f32) (main_arg6 : FVec F S32x16 .f32) (main_arg7 : FVec F S16 .f32) (main_arg8 : FVec F S16x16 .f32) (main_arg9 : FVec F S16 .f32) (main_arg10 : FVec F S5x16x16 .f32) (main_arg11 : FVec F S5x16 .f32) (main_arg12 : FVec F S16x2 .f32) (main_arg13 : FVec F S2 .f32) : IVec S_ 1 :=
  let main_v0 : FVec F S100000x131 .f32 := Host.absf main_arg0
  let main_cst : FVec F S_ .f32 := constant S_ .f32 0x7F800000#32
  let main_v1 : FVec F S100000x131 .f32 := broadcastInDim S100000x131 ![] bcast_S_S100000x131 main_cst
  let main_v2 : IVec S100000x131 1 := cmpf .olt main_v0 main_v1
  let main_c : IVec S_ 1 := constantI S_ 1 1#1
  let main_v3 : IVec S_ 1 := (fun x v => Host.reduce IntOp.andi x v reducesTo_S100000x131_S_d0_1 h_S_) main_v2 main_c
  let main_v4 : FVec F S131x64 .f32 := Host.absf main_arg2
  let main_cst_0 : FVec F S_ .f32 := constant S_ .f32 0x7F800000#32
  let main_v5 : FVec F S131x64 .f32 := broadcastInDim S131x64 ![] bcast_S_S131x64 main_cst_0
  let main_v6 : IVec S131x64 1 := cmpf .olt main_v4 main_v5
  let main_c_1 : IVec S_ 1 := constantI S_ 1 1#1
  let main_v7 : IVec S_ 1 := (fun x v => Host.reduce IntOp.andi x v reducesTo_S131x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x131 : Shape := ⟨2, ![100000, 131]⟩
abbrev S2x3200000 : Shape := ⟨2, ![2, 3200000]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S5x16x16 : Shape := ⟨3, ![5, 16, 16]⟩
abbrev S5x16 : Shape := ⟨2, ![5, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x64 : Shape := ⟨2, ![1, 64]⟩
abbrev S1x32 : Shape := ⟨2, ![1, 32]⟩
abbrev S1x16 : Shape := ⟨2, ![1, 16]⟩
abbrev S5x1x16 : Shape := ⟨3, ![5, 1, 16]⟩
abbrev S1x2 : Shape := ⟨2, ![1, 2]⟩
abbrev S1x16x16 : Shape := ⟨3, ![1, 16, 16]⟩
abbrev S1x1x16 : Shape := ⟨3, ![1, 1, 16]⟩
abbrev S100000x16 : Shape := ⟨2, ![100000, 16]⟩
abbrev S10000x131 : Shape := ⟨2, ![10000, 131]⟩
abbrev S10000x16 : Shape := ⟨2, ![10000, 16]⟩
abbrev S10000x64 : Shape := ⟨2, ![10000, 64]⟩
abbrev S10000x32 : Shape := ⟨2, ![10000, 32]⟩
abbrev S3300000x16 : Shape := ⟨2, ![3300000, 16]⟩
abbrev S100000x2 : Shape := ⟨2, ![100000, 2]⟩
abbrev S10000x2 : Shape := ⟨2, ![10000, 2]⟩

abbrev nBuf : Space → Nat
  | .hbm => 245
  | .vmem => 74
  | .smem => 0
  | _ => 0

abbrev hbmTy0_0 (i : Nat) : BufTy := match i % 128 with
  | 0 => ⟨S100000x131, .f32⟩
  | 1 => ⟨S2x3200000, .i32⟩
  | 2 => ⟨S131x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x16, .f32⟩
  | 9 => ⟨S16, .f32⟩
  | 10 => ⟨S5x16x16, .f32⟩
  | 11 => ⟨S5x16, .f32⟩
  | 12 => ⟨S16x2, .f32⟩
  | 13 => ⟨S2, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S1x64, .f32⟩
  | 48 => ⟨S1x32, .f32⟩
  | 49 => ⟨S1x16, .f32⟩
  | 50 => ⟨S1x16, .f32⟩
  | 51 => ⟨S5x1x16, .f32⟩
  | 52 => ⟨S1x2, .f32⟩
  | 53 => ⟨S1x16x16, .f32⟩
  | 54 => ⟨S16x16, .f32⟩
  | 55 => ⟨S1x16x16, .f32⟩
  | 56 => ⟨S16x16, .f32⟩
  | 57 => ⟨S1x16x16, .f32⟩
  | 58 => ⟨S16x16, .f32⟩
  | 59 => ⟨S1x16x16, .f32⟩
  | 60 => ⟨S16x16, .f32⟩
  | 61 => ⟨S1x16x16, .f32⟩
  | 62 => ⟨S16x16, .f32⟩
  | 63 => ⟨S1x1x16, .f32⟩
  | 64 => ⟨S1x16, .f32⟩
  | 65 => ⟨S1x1x16, .f32⟩
  | 66 => ⟨S1x16, .f32⟩
  | 67 => ⟨S1x1x16, .f32⟩
  | 68 => ⟨S1x16, .f32⟩
  | 69 => ⟨S1x1x16, .f32⟩
  | 70 => ⟨S1x16, .f32⟩
  | 71 => ⟨S1x1x16, .f32⟩
  | 72 => ⟨S1x16, .f32⟩
  | 73 => ⟨S100000x16, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x16, .f32⟩
  | 83 => ⟨S3300000x1, .f32⟩
  | 84 => ⟨S3300000x16, .f32⟩
  | 85 => ⟨S3300000x16, .f32⟩
  | 86 => ⟨S_, .f32⟩
  | 87 => ⟨S100000x16, .f32⟩
  | 88 => ⟨S3300000x1, .i32⟩
  | 89 => ⟨S100000x16, .f32⟩
  | 90 => ⟨S100000x16, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000x16, .f32⟩
  | 100 => ⟨S3300000x1, .f32⟩
  | 101 => ⟨S3300000x16, .f32⟩
  | 102 => ⟨S3300000x16, .f32⟩
  | 103 => ⟨S_, .f32⟩
  | 104 => ⟨S100000x16, .f32⟩
  | 105 => ⟨S3300000x1, .i32⟩
  | 106 => ⟨S100000x16, .f32⟩
  | 107 => ⟨S100000x16, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x16, .f32⟩
  | 117 => ⟨S3300000x1, .f32⟩
  | 118 => ⟨S3300000x16, .f32⟩
  | 119 => ⟨S3300000x16, .f32⟩
  | 120 => ⟨S_, .f32⟩
  | 121 => ⟨S100000x16, .f32⟩
  | 122 => ⟨S3300000x1, .i32⟩
  | 123 => ⟨S100000x16, .f32⟩
  | 124 => ⟨S100000x16, .f32⟩
  | 125 => ⟨S_, .i32⟩
  | 126 => ⟨S3300000, .i32⟩
  | 127 => ⟨S3300000, .i1⟩
  | _ => ⟨S100000x131, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x16, .f32⟩
  | 6 => ⟨S3300000x1, .f32⟩
  | 7 => ⟨S3300000x16, .f32⟩
  | 8 => ⟨S3300000x16, .f32⟩
  | 9 => ⟨S_, .f32⟩
  | 10 => ⟨S100000x16, .f32⟩
  | 11 => ⟨S3300000x1, .i32⟩
  | 12 => ⟨S100000x16, .f32⟩
  | 13 => ⟨S100000x16, .f32⟩
  | 14 => ⟨S_, .i32⟩
  | 15 => ⟨S3300000, .i32⟩
  | 16 => ⟨S3300000, .i1⟩
  | 17 => ⟨S_, .i32⟩
  | 18 => ⟨S3300000, .i32⟩
  | 19 => ⟨S3300000, .i32⟩
  | 20 => ⟨S3300000, .i32⟩
  | 21 => ⟨S3300000x1, .i32⟩
  | 22 => ⟨S3300000x16, .f32⟩
  | 23 => ⟨S3300000x1, .f32⟩
  | 24 => ⟨S3300000x16, .f32⟩
  | 25 => ⟨S3300000x16, .f32⟩
  | 26 => ⟨S_, .f32⟩
  | 27 => ⟨S100000x16, .f32⟩
  | 28 => ⟨S3300000x1, .i32⟩
  | 29 => ⟨S100000x16, .f32⟩
  | 30 => ⟨S100000x16, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000x16, .f32⟩
  | 40 => ⟨S3300000x1, .f32⟩
  | 41 => ⟨S3300000x16, .f32⟩
  | 42 => ⟨S3300000x16, .f32⟩
  | 43 => ⟨S_, .f32⟩
  | 44 => ⟨S100000x16, .f32⟩
  | 45 => ⟨S3300000x1, .i32⟩
  | 46 => ⟨S100000x16, .f32⟩
  | 47 => ⟨S100000x16, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x1, .f32⟩
  | 58 => ⟨S3300000x16, .f32⟩
  | 59 => ⟨S3300000x16, .f32⟩
  | 60 => ⟨S_, .f32⟩
  | 61 => ⟨S100000x16, .f32⟩
  | 62 => ⟨S3300000x1, .i32⟩
  | 63 => ⟨S100000x16, .f32⟩
  | 64 => ⟨S100000x16, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x16, .f32⟩
  | 74 => ⟨S3300000x1, .f32⟩
  | 75 => ⟨S3300000x16, .f32⟩
  | 76 => ⟨S3300000x16, .f32⟩
  | 77 => ⟨S_, .f32⟩
  | 78 => ⟨S100000x16, .f32⟩
  | 79 => ⟨S3300000x1, .i32⟩
  | 80 => ⟨S100000x16, .f32⟩
  | 81 => ⟨S100000x16, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x16, .f32⟩
  | 91 => ⟨S3300000x1, .f32⟩
  | 92 => ⟨S3300000x16, .f32⟩
  | 93 => ⟨S3300000x16, .f32⟩
  | 94 => ⟨S_, .f32⟩
  | 95 => ⟨S100000x16, .f32⟩
  | 96 => ⟨S3300000x1, .i32⟩
  | 97 => ⟨S100000x16, .f32⟩
  | 98 => ⟨S100000x16, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x16, .f32⟩
  | 108 => ⟨S3300000x1, .f32⟩
  | 109 => ⟨S3300000x16, .f32⟩
  | 110 => ⟨S3300000x16, .f32⟩
  | 111 => ⟨S_, .f32⟩
  | 112 => ⟨S100000x16, .f32⟩
  | 113 => ⟨S3300000x1, .i32⟩
  | 114 => ⟨S100000x16, .f32⟩
  | 115 => ⟨S100000x16, .f32⟩
  | 116 => ⟨S100000x2, .f32⟩
  | _ => ⟨S100000x131, .f32⟩

abbrev hbmTy (i : Nat) : BufTy := match i / 128 with
  | 0 => hbmTy0_0 i
  | 1 => hbmTy0_1 i
  | _ => ⟨S100000x131, .f32⟩

abbrev bufTy : (tb : Table) → Fin (tcTables nBuf tb) → BufTy
  | .hbm, ⟨i, _⟩ => hbmTy i
  | .local _ .vmem, ⟨0, _⟩ => ⟨S10000x131, .f32⟩
  | .local _ .vmem, ⟨1, _⟩ => ⟨S10000x131, .f32⟩
  | .local _ .vmem, ⟨2, _⟩ => ⟨S131x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S1x16, .f32⟩
  | .local _ .vmem, ⟨20, _⟩ => ⟨S16x16, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S1x16, .f32⟩
  | .local _ .vmem, ⟨26, _⟩ => ⟨S16x16, .f32⟩
  | .local _ .vmem, ⟨27, _⟩ => ⟨S10000x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S1x16, .f32⟩
  | .local _ .vmem, ⟨32, _⟩ => ⟨S16x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S1x16, .f32⟩
  | .local _ .vmem, ⟨38, _⟩ => ⟨S16x16, .f32⟩
  | .local _ .vmem, ⟨39, _⟩ => ⟨S10000x16, .f32⟩
  | .local _ .vmem, ⟨40, _⟩ => ⟨S10000x16, .f32⟩
  | .local _ .vmem, ⟨41, _⟩ => ⟨S10000x16, .f32⟩
  | .local _ .vmem, ⟨42, _⟩ => ⟨S10000x16, .f32⟩
  | .local _ .vmem, ⟨43, _⟩ => ⟨S1x16, .f32⟩
  | .local _ .vmem, ⟨44, _⟩ => ⟨S16x16, .f32⟩
  | .local _ .vmem, ⟨45, _⟩ => ⟨S10000x16, .f32⟩
  | .local _ .vmem, ⟨46, _⟩ => ⟨S10000x16, .f32⟩
  | .local _ .vmem, ⟨47, _⟩ => ⟨S10000x16, .f32⟩
  | .local _ .vmem, ⟨48, _⟩ => ⟨S10000x16, .f32⟩
  | .local _ .vmem, ⟨49, _⟩ => ⟨S1x16, .f32⟩
  | .local _ .vmem, ⟨50, _⟩ => ⟨S16x16, .f32⟩
  | .local _ .vmem, ⟨51, _⟩ => ⟨S10000x16, .f32⟩
  | .local _ .vmem, ⟨52, _⟩ => ⟨S10000x16, .f32⟩
  | .local _ .vmem, ⟨53, _⟩ => ⟨S10000x16, .f32⟩
  | .local _ .vmem, ⟨54, _⟩ => ⟨S10000x16, .f32⟩
  | .local _ .vmem, ⟨55, _⟩ => ⟨S1x16, .f32⟩
  | .local _ .vmem, ⟨56, _⟩ => ⟨S16x16, .f32⟩
  | .local _ .vmem, ⟨57, _⟩ => ⟨S10000x16, .f32⟩
  | .local _ .vmem, ⟨58, _⟩ => ⟨S10000x16, .f32⟩
  | .local _ .vmem, ⟨59, _⟩ => ⟨S10000x16, .f32⟩
  | .local _ .vmem, ⟨60, _⟩ => ⟨S10000x16, .f32⟩
  | .local _ .vmem, ⟨61, _⟩ => ⟨S1x16, .f32⟩
  | .local _ .vmem, ⟨62, _⟩ => ⟨S16x16, .f32⟩
  | .local _ .vmem, ⟨63, _⟩ => ⟨S10000x16, .f32⟩
  | .local _ .vmem, ⟨64, _⟩ => ⟨S10000x16, .f32⟩
  | .local _ .vmem, ⟨65, _⟩ => ⟨S10000x16, .f32⟩
  | .local _ .vmem, ⟨66, _⟩ => ⟨S10000x16, .f32⟩
  | .local _ .vmem, ⟨67, _⟩ => ⟨S1x16, .f32⟩
  | .local _ .vmem, ⟨68, _⟩ => ⟨S16x2, .f32⟩
  | .local _ .vmem, ⟨69, _⟩ => ⟨S1x2, .f32⟩
  | .local _ .vmem, ⟨70, _⟩ => ⟨S10000x16, .f32⟩
  | .local _ .vmem, ⟨71, _⟩ => ⟨S10000x16, .f32⟩
  | .local _ .vmem, ⟨72, _⟩ => ⟨S10000x2, .f32⟩
  | .local _ .vmem, ⟨73, _⟩ => ⟨S10000x2, .f32⟩
  | _, _ => ⟨S100000x131, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_4 : Ref sig .tc := ⟨.hbm, 74, rfl⟩
abbrev main_v54 : Ref sig .tc := ⟨.hbm, 75, rfl⟩
abbrev main_v55 : Ref sig .tc := ⟨.hbm, 76, rfl⟩
abbrev main_c_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_7 : Ref sig .tc := ⟨.hbm, 91, rfl⟩
abbrev main_v68 : Ref sig .tc := ⟨.hbm, 92, rfl⟩
abbrev main_v69 : Ref sig .tc := ⟨.hbm, 93, rfl⟩
abbrev main_c_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_c_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_12 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_13 : Ref sig .tc := ⟨.hbm, 125, rfl⟩
abbrev main_v96 : Ref sig .tc := ⟨.hbm, 126, rfl⟩
abbrev main_v97 : Ref sig .tc := ⟨.hbm, 127, rfl⟩
abbrev main_c_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_16 : Ref sig .tc := ⟨.hbm, 142, rfl⟩
abbrev main_v110 : Ref sig .tc := ⟨.hbm, 143, rfl⟩
abbrev main_v111 : Ref sig .tc := ⟨.hbm, 144, rfl⟩
abbrev main_c_17 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_18 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_19 : Ref sig .tc := ⟨.hbm, 159, rfl⟩
abbrev main_v124 : Ref sig .tc := ⟨.hbm, 160, rfl⟩
abbrev main_v125 : Ref sig .tc := ⟨.hbm, 161, rfl⟩
abbrev main_c_20 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_21 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_c_22 : Ref sig .tc := ⟨.hbm, 176, rfl⟩
abbrev main_v138 : Ref sig .tc := ⟨.hbm, 177, rfl⟩
abbrev main_v139 : Ref sig .tc := ⟨.hbm, 178, rfl⟩
abbrev main_c_23 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_24 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_c_25 : Ref sig .tc := ⟨.hbm, 193, rfl⟩
abbrev main_v152 : Ref sig .tc := ⟨.hbm, 194, rfl⟩
abbrev main_v153 : Ref sig .tc := ⟨.hbm, 195, rfl⟩
abbrev main_c_26 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_27 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_28 : Ref sig .tc := ⟨.hbm, 210, rfl⟩
abbrev main_v166 : Ref sig .tc := ⟨.hbm, 211, rfl⟩
abbrev main_v167 : Ref sig .tc := ⟨.hbm, 212, rfl⟩
abbrev main_c_29 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_30 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_c_31 : Ref sig .tc := ⟨.hbm, 227, rfl⟩
abbrev main_v180 : Ref sig .tc := ⟨.hbm, 228, rfl⟩
abbrev main_v181 : Ref sig .tc := ⟨.hbm, 229, rfl⟩
abbrev main_c_32 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_33 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193_0 : Ref sig .tc := ⟨.hbm, 243, rfl⟩
abbrev main_v193_1 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg3_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg3_1 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg3_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg3_0 : Ref sig .tc := ⟨.vmem, 69, rfl⟩
abbrev cc10_stg4_0 : Ref sig .tc := ⟨.vmem, 70, rfl⟩
abbrev cc10_stg4_1 : Ref sig .tc := ⟨.vmem, 71, rfl⟩
abbrev cc10_stg5_0 : Ref sig .tc := ⟨.vmem, 72, rfl⟩
abbrev cc10_stg5_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem3_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem3_0 : DmaSem sig := 51
abbrev cc7_sem3_1 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem3_0 : DmaSem sig := 57
abbrev cc8_sem3_1 : DmaSem sig := 58
abbrev cc9_sem0_0 : DmaSem sig := 59
abbrev cc9_sem0_1 : DmaSem sig := 60
abbrev cc9_sem1_0 : DmaSem sig := 61
abbrev cc9_sem2_0 : DmaSem sig := 62
abbrev cc9_sem3_0 : DmaSem sig := 63
abbrev cc9_sem3_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem3_0 : DmaSem sig := 69
abbrev cc10_sem4_0 : DmaSem sig := 70
abbrev cc10_sem4_1 : DmaSem sig := 71
abbrev cc10_sem5_0 : DmaSem sig := 72
abbrev cc10_sem5_1 : DmaSem sig := 73

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x131 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S131x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S16x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S16x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S16x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S16x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S10000x16 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S10000x2 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S64_S1x64 : S64.ShapeCasts S1x64
  shapeCasts_S32_S1x32 : S32.ShapeCasts S1x32
  shapeCasts_S16_S1x16 : S16.ShapeCasts S1x16
  shapeCasts_S5x16_S5x1x16 : S5x16.ShapeCasts S5x1x16
  shapeCasts_S2_S1x2 : S2.ShapeCasts S1x2
  slices_S5x16x16_S1x16x16_0_0_0 : S5x16x16.Slices ![0, 0, 0] S1x16x16
  shapeCasts_S1x16x16_S16x16 : S1x16x16.ShapeCasts S16x16
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  slices_S5x1x16_S1x1x16_0_0_0 : S5x1x16.Slices ![0, 0, 0] S1x1x16
  shapeCasts_S1x1x16_S1x16 : S1x1x16.ShapeCasts S1x16
  slices_S5x1x16_S1x1x16_1_0_0 : S5x1x16.Slices ![1, 0, 0] S1x1x16
  slices_S5x1x16_S1x1x16_2_0_0 : S5x1x16.Slices ![2, 0, 0] S1x1x16
  slices_S5x1x16_S1x1x16_3_0_0 : S5x1x16.Slices ![3, 0, 0] S1x1x16
  slices_S5x1x16_S1x1x16_4_0_0 : S5x1x16.Slices ![4, 0, 0] S1x1x16
  inb_S10000x131_S10000x131_0_0 : ∀ a, (![0, 0] : Fin 2 → Nat) a + S10000x131.size a ≤ S10000x131.size a
  h_S10000x131 : 0 < S10000x131.numel
  bitsLt_bf16_f32 : FTy.bits .bf16 < FTy.bits .f32
  inb_S131x64_S131x64_0_0 : ∀ a, (![0, 0] : Fin 2 → Nat) a + S131x64.size a ≤ S131x64.size a
  h_S131x64 : 0 < S131x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  shapeCasts_S16x16_S16x16 : S16x16.ShapeCasts S16x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x131_S131x64_S10000x64_1_0_0_1_n_n_wf : DotDims.WF S10000x131 S131x64 S10000x64 [1] [0] [0] [1] [] []
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x16_S10000x16_1_0_0_1_n_n_wf : DotDims.WF S10000x16 S16x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x131.size a ≤ S100000x131.size a
  hwx0_0 : ∀ i : grid0.Coords, EltTy.bits .f32 = 32 ∨ (Rect.block (s := S100000x131) S10000x131.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S131x64.size a ≤ S131x64.size a
  hwx0_1 : ∀ i : grid0.Coords, EltTy.bits .f32 = 32 ∨ (Rect.block (s := S131x64) S131x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S32x16.size a
  hwx0_5 : ∀ i : grid0.Coords, EltTy.bits .f32 = 32 ∨ (Rect.block (s := S32x16) S32x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x16.size a ≤ S100000x16.size a
  hwx0_8 : ∀ i : grid0.Coords, EltTy.bits .f32 = 32 ∨ (Rect.block (s := S100000x16) S10000x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x16.size a ≤ S1x16.size a
  hwx4_1 : ∀ i : grid4.Coords, EltTy.bits .f32 = 32 ∨ (Rect.block (s := S1x16) S1x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x16.size a ≤ S16x16.size a
  hwx4_2 : ∀ i : grid4.Coords, EltTy.bits .f32 = 32 ∨ (Rect.block (s := S16x16) S16x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x16.size a ≤ S16x16.size a
  hwx5_2 : ∀ i : grid5.Coords, EltTy.bits .f32 = 32 ∨ (Rect.block (s := S16x16) S16x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x16.size a ≤ S100000x16.size a
  hwx5_3 : ∀ i : grid5.Coords, EltTy.bits .f32 = 32 ∨ (Rect.block (s := S100000x16) S10000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S100000x16.size a
  hwx6_0 : ∀ i : grid6.Coords, EltTy.bits .f32 = 32 ∨ (Rect.block (s := S100000x16) S10000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16.size a ≤ S1x16.size a
  hwx6_1 : ∀ i : grid6.Coords, EltTy.bits .f32 = 32 ∨ (Rect.block (s := S1x16) S1x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x16.size a ≤ S16x16.size a
  hwx6_2 : ∀ i : grid6.Coords, EltTy.bits .f32 = 32 ∨ (Rect.block (s := S16x16) S16x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x16.size a ≤ S100000x16.size a
  hwx6_3 : ∀ i : grid6.Coords, EltTy.bits .f32 = 32 ∨ (Rect.block (s := S100000x16) S10000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S100000x16.size a
  hwx7_0 : ∀ i : grid7.Coords, EltTy.bits .f32 = 32 ∨ (Rect.block (s := S100000x16) S10000x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x16.size a ≤ S1x16.size a
  hwx7_1 : ∀ i : grid7.Coords, EltTy.bits .f32 = 32 ∨ (Rect.block (s := S1x16) S1x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x16.size a ≤ S16x16.size a
  hwx7_2 : ∀ i : grid7.Coords, EltTy.bits .f32 = 32 ∨ (Rect.block (s := S16x16) S16x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x16.size a ≤ S100000x16.size a
  hwx7_3 : ∀ i : grid7.Coords, EltTy.bits .f32 = 32 ∨ (Rect.block (s := S100000x16) S10000x16.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x16.size a ≤ S100000x16.size a
  hwx8_0 : ∀ i : grid8.Coords, EltTy.bits .f32 = 32 ∨ (Rect.block (s := S100000x16) S10000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x16.size a ≤ S1x16.size a
  hwx8_1 : ∀ i : grid8.Coords, EltTy.bits .f32 = 32 ∨ (Rect.block (s := S1x16) S1x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S16x16.size a ≤ S16x16.size a
  hwx8_2 : ∀ i : grid8.Coords, EltTy.bits .f32 = 32 ∨ (Rect.block (s := S16x16) S16x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x16.size a ≤ S100000x16.size a
  hwx8_3 : ∀ i : grid8.Coords, EltTy.bits .f32 = 32 ∨ (Rect.block (s := S100000x16) S10000x16.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x16.size a ≤ S100000x16.size a
  hwx9_0 : ∀ i : grid9.Coords, EltTy.bits .f32 = 32 ∨ (Rect.block (s := S100000x16) S10000x16.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x16.size a ≤ S1x16.size a
  hwx9_1 : ∀ i : grid9.Coords, EltTy.bits .f32 = 32 ∨ (Rect.block (s := S1x16) S1x16.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S16x16.size a ≤ S16x16.size a
  hwx9_2 : ∀ i : grid9.Coords, EltTy.bits .f32 = 32 ∨ (Rect.block (s := S16x16) S16x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x16.size a ≤ S100000x16.size a
  hwx9_3 : ∀ i : grid9.Coords, EltTy.bits .f32 = 32 ∨ (Rect.block (s := S100000x16) S10000x16.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x16.size a ≤ S100000x16.size a
  hwx10_0 : ∀ i : grid10.Coords, EltTy.bits .f32 = 32 ∨ (Rect.block (s := S100000x16) S10000x16.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x16.size a ≤ S1x16.size a
  hwx10_1 : ∀ i : grid10.Coords, EltTy.bits .f32 = 32 ∨ (Rect.block (s := S1x16) S1x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S16x2.size a ≤ S16x2.size a
  hwx10_2 : ∀ i : grid10.Coords, EltTy.bits .f32 = 32 ∨ (Rect.block (s := S16x2) S16x2.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x2.size a ≤ S1x2.size a
  hwx10_3 : ∀ i : grid10.Coords, EltTy.bits .f32 = 32 ∨ (Rect.block (s := S1x2) S1x2.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S10000x16.size a ≤ S100000x16.size a
  hwx10_4 : ∀ i : grid10.Coords, EltTy.bits .f32 = 32 ∨ (Rect.block (s := S100000x16) S10000x16.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x2.size a ≤ S100000x2.size a
  hwx10_5 : ∀ i : grid10.Coords, EltTy.bits .f32 = 32 ∨ (Rect.block (s := S100000x2) S10000x2.size (cc10_transform_5 i) (hinb10_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x131_S131x64_S10000x64_1_0_0_1_n_n : DotDims S10000x131 S131x64 S10000x64 where
  lhsContracting := [1]
  rhsContracting := [0]
  lhsNonContracting := [0]
  rhsNonContracting := [1]
  lhsBatch := []
  rhsBatch := []
  wf := dot_S10000x131_S131x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_arg0) S10000x131.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S131x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S10000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v66) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v80) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v94) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v108) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S16x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v109) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v122) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v34) S16x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S10000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v136) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S1x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v36) S16x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v137) S10000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v150) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v46) S1x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v38) S16x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v151) S10000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v164) S10000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v48) S1x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v40) S16x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v165) S10000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v178) S10000x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v50) S1x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v42) S16x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v179) S10000x16.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v192) S10000x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v52) S1x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg12) S16x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v32) S1x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v193_0) S10000x16.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v193_1) S10000x2.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x131 : Shape := ⟨2, ![100000, 131]⟩
abbrev S2x3200000 : Shape := ⟨2, ![2, 3200000]⟩
abbrev S131x64 : Shape := ⟨2, ![131, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S5x16x16 : Shape := ⟨3, ![5, 16, 16]⟩
abbrev S5x16 : Shape := ⟨2, ![5, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S3300000x16 : Shape := ⟨2, ![3300000, 16]⟩
abbrev S1x16x16 : Shape := ⟨3, ![1, 16, 16]⟩
abbrev S100000x2 : Shape := ⟨2, ![100000, 2]⟩
abbrev S1x2 : Shape := ⟨2, ![1, 2]⟩

abbrev nBuf : Space → Nat
  | .hbm => 295
  | .vmem => 0
  | .smem => 0
  | _ => 0

abbrev hbmTy0_0 (i : Nat) : BufTy := match i % 128 with
  | 0 => ⟨S100000x131, .f32⟩
  | 1 => ⟨S2x3200000, .i32⟩
  | 2 => ⟨S131x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x16, .f32⟩
  | 9 => ⟨S16, .f32⟩
  | 10 => ⟨S5x16x16, .f32⟩
  | 11 => ⟨S5x16, .f32⟩
  | 12 => ⟨S16x2, .f32⟩
  | 13 => ⟨S2, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S100000x64, .f32⟩
  | 48 => ⟨S1x64, .f32⟩
  | 49 => ⟨S100000x64, .f32⟩
  | 50 => ⟨S100000x64, .f32⟩
  | 51 => ⟨S100000x64, .f32⟩
  | 52 => ⟨S100000x32, .f32⟩
  | 53 => ⟨S1x32, .f32⟩
  | 54 => ⟨S100000x32, .f32⟩
  | 55 => ⟨S100000x32, .f32⟩
  | 56 => ⟨S100000x32, .f32⟩
  | 57 => ⟨S100000x16, .f32⟩
  | 58 => ⟨S1x16, .f32⟩
  | 59 => ⟨S100000x16, .f32⟩
  | 60 => ⟨S100000x16, .f32⟩
  | 61 => ⟨S100000x16, .f32⟩
  | 62 => ⟨S_, .i32⟩
  | 63 => ⟨S3300000, .i32⟩
  | 64 => ⟨S3300000, .i1⟩
  | 65 => ⟨S_, .i32⟩
  | 66 => ⟨S3300000, .i32⟩
  | 67 => ⟨S3300000, .i32⟩
  | 68 => ⟨S3300000, .i32⟩
  | 69 => ⟨S3300000x1, .i32⟩
  | 70 => ⟨S3300000x16, .f32⟩
  | 71 => ⟨S3300000x1, .f32⟩
  | 72 => ⟨S3300000x16, .f32⟩
  | 73 => ⟨S3300000x16, .f32⟩
  | 74 => ⟨S_, .f32⟩
  | 75 => ⟨S100000x16, .f32⟩
  | 76 => ⟨S3300000x1, .i32⟩
  | 77 => ⟨S100000x16, .f32⟩
  | 78 => ⟨S1x16, .f32⟩
  | 79 => ⟨S100000x16, .f32⟩
  | 80 => ⟨S100000x16, .f32⟩
  | 81 => ⟨S100000x16, .f32⟩
  | 82 => ⟨S100000x16, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x16, .f32⟩
  | 92 => ⟨S3300000x1, .f32⟩
  | 93 => ⟨S3300000x16, .f32⟩
  | 94 => ⟨S3300000x16, .f32⟩
  | 95 => ⟨S_, .f32⟩
  | 96 => ⟨S100000x16, .f32⟩
  | 97 => ⟨S3300000x1, .i32⟩
  | 98 => ⟨S100000x16, .f32⟩
  | 99 => ⟨S1x16, .f32⟩
  | 100 => ⟨S100000x16, .f32⟩
  | 101 => ⟨S100000x16, .f32⟩
  | 102 => ⟨S100000x16, .f32⟩
  | 103 => ⟨S100000x16, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x16, .f32⟩
  | 113 => ⟨S3300000x1, .f32⟩
  | 114 => ⟨S3300000x16, .f32⟩
  | 115 => ⟨S3300000x16, .f32⟩
  | 116 => ⟨S_, .f32⟩
  | 117 => ⟨S100000x16, .f32⟩
  | 118 => ⟨S3300000x1, .i32⟩
  | 119 => ⟨S100000x16, .f32⟩
  | 120 => ⟨S1x16, .f32⟩
  | 121 => ⟨S100000x16, .f32⟩
  | 122 => ⟨S100000x16, .f32⟩
  | 123 => ⟨S100000x16, .f32⟩
  | 124 => ⟨S100000x16, .f32⟩
  | 125 => ⟨S_, .i32⟩
  | 126 => ⟨S3300000, .i32⟩
  | 127 => ⟨S3300000, .i1⟩
  | _ => ⟨S100000x131, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x16, .f32⟩
  | 6 => ⟨S3300000x1, .f32⟩
  | 7 => ⟨S3300000x16, .f32⟩
  | 8 => ⟨S3300000x16, .f32⟩
  | 9 => ⟨S_, .f32⟩
  | 10 => ⟨S100000x16, .f32⟩
  | 11 => ⟨S3300000x1, .i32⟩
  | 12 => ⟨S100000x16, .f32⟩
  | 13 => ⟨S1x16, .f32⟩
  | 14 => ⟨S100000x16, .f32⟩
  | 15 => ⟨S100000x16, .f32⟩
  | 16 => ⟨S100000x16, .f32⟩
  | 17 => ⟨S100000x16, .f32⟩
  | 18 => ⟨S_, .i32⟩
  | 19 => ⟨S3300000, .i32⟩
  | 20 => ⟨S3300000, .i1⟩
  | 21 => ⟨S_, .i32⟩
  | 22 => ⟨S3300000, .i32⟩
  | 23 => ⟨S3300000, .i32⟩
  | 24 => ⟨S3300000, .i32⟩
  | 25 => ⟨S3300000x1, .i32⟩
  | 26 => ⟨S3300000x16, .f32⟩
  | 27 => ⟨S3300000x1, .f32⟩
  | 28 => ⟨S3300000x16, .f32⟩
  | 29 => ⟨S3300000x16, .f32⟩
  | 30 => ⟨S_, .f32⟩
  | 31 => ⟨S100000x16, .f32⟩
  | 32 => ⟨S3300000x1, .i32⟩
  | 33 => ⟨S100000x16, .f32⟩
  | 34 => ⟨S1x16, .f32⟩
  | 35 => ⟨S100000x16, .f32⟩
  | 36 => ⟨S100000x16, .f32⟩
  | 37 => ⟨S100000x16, .f32⟩
  | 38 => ⟨S1x16x16, .f32⟩
  | 39 => ⟨S16x16, .f32⟩
  | 40 => ⟨S1x16, .f32⟩
  | 41 => ⟨S16, .f32⟩
  | 42 => ⟨S100000x16, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x16, .f32⟩
  | 52 => ⟨S3300000x1, .f32⟩
  | 53 => ⟨S3300000x16, .f32⟩
  | 54 => ⟨S3300000x16, .f32⟩
  | 55 => ⟨S_, .f32⟩
  | 56 => ⟨S100000x16, .f32⟩
  | 57 => ⟨S3300000x1, .i32⟩
  | 58 => ⟨S100000x16, .f32⟩
  | 59 => ⟨S1x16, .f32⟩
  | 60 => ⟨S100000x16, .f32⟩
  | 61 => ⟨S100000x16, .f32⟩
  | 62 => ⟨S100000x16, .f32⟩
  | 63 => ⟨S1x16x16, .f32⟩
  | 64 => ⟨S16x16, .f32⟩
  | 65 => ⟨S1x16, .f32⟩
  | 66 => ⟨S16, .f32⟩
  | 67 => ⟨S100000x16, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x16, .f32⟩
  | 77 => ⟨S3300000x1, .f32⟩
  | 78 => ⟨S3300000x16, .f32⟩
  | 79 => ⟨S3300000x16, .f32⟩
  | 80 => ⟨S_, .f32⟩
  | 81 => ⟨S100000x16, .f32⟩
  | 82 => ⟨S3300000x1, .i32⟩
  | 83 => ⟨S100000x16, .f32⟩
  | 84 => ⟨S1x16, .f32⟩
  | 85 => ⟨S100000x16, .f32⟩
  | 86 => ⟨S100000x16, .f32⟩
  | 87 => ⟨S100000x16, .f32⟩
  | 88 => ⟨S1x16x16, .f32⟩
  | 89 => ⟨S16x16, .f32⟩
  | 90 => ⟨S1x16, .f32⟩
  | 91 => ⟨S16, .f32⟩
  | 92 => ⟨S100000x16, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x16, .f32⟩
  | 102 => ⟨S3300000x1, .f32⟩
  | 103 => ⟨S3300000x16, .f32⟩
  | 104 => ⟨S3300000x16, .f32⟩
  | 105 => ⟨S_, .f32⟩
  | 106 => ⟨S100000x16, .f32⟩
  | 107 => ⟨S3300000x1, .i32⟩
  | 108 => ⟨S100000x16, .f32⟩
  | 109 => ⟨S1x16, .f32⟩
  | 110 => ⟨S100000x16, .f32⟩
  | 111 => ⟨S100000x16, .f32⟩
  | 112 => ⟨S100000x16, .f32⟩
  | 113 => ⟨S1x16x16, .f32⟩
  | 114 => ⟨S16x16, .f32⟩
  | 115 => ⟨S1x16, .f32⟩
  | 116 => ⟨S16, .f32⟩
  | 117 => ⟨S100000x16, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x16, .f32⟩
  | 127 => ⟨S3300000x1, .f32⟩
  | _ => ⟨S100000x131, .f32⟩

abbrev hbmTy0_2 (i : Nat) : BufTy := match i % 128 with
  | 0 => ⟨S3300000x16, .f32⟩
  | 1 => ⟨S3300000x16, .f32⟩
  | 2 => ⟨S_, .f32⟩
  | 3 => ⟨S100000x16, .f32⟩
  | 4 => ⟨S3300000x1, .i32⟩
  | 5 => ⟨S100000x16, .f32⟩
  | 6 => ⟨S1x16, .f32⟩
  | 7 => ⟨S100000x16, .f32⟩
  | 8 => ⟨S100000x16, .f32⟩
  | 9 => ⟨S100000x16, .f32⟩
  | 10 => ⟨S1x16x16, .f32⟩
  | 11 => ⟨S16x16, .f32⟩
  | 12 => ⟨S1x16, .f32⟩
  | 13 => ⟨S16, .f32⟩
  | 14 => ⟨S100000x16, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S3300000x16, .f32⟩
  | 24 => ⟨S3300000x1, .f32⟩
  | 25 => ⟨S3300000x16, .f32⟩
  | 26 => ⟨S3300000x16, .f32⟩
  | 27 => ⟨S_, .f32⟩
  | 28 => ⟨S100000x16, .f32⟩
  | 29 => ⟨S3300000x1, .i32⟩
  | 30 => ⟨S100000x16, .f32⟩
  | 31 => ⟨S1x16, .f32⟩
  | 32 => ⟨S100000x16, .f32⟩
  | 33 => ⟨S100000x16, .f32⟩
  | 34 => ⟨S100000x16, .f32⟩
  | 35 => ⟨S100000x2, .f32⟩
  | 36 => ⟨S1x2, .f32⟩
  | 37 => ⟨S100000x2, .f32⟩
  | 38 => ⟨S100000x2, .f32⟩
  | _ => ⟨S100000x131, .f32⟩

abbrev hbmTy (i : Nat) : BufTy := match i / 128 with
  | 0 => hbmTy0_0 i
  | 1 => hbmTy0_1 i
  | 2 => hbmTy0_2 i
  | _ => ⟨S100000x131, .f32⟩

abbrev bufTy : (tb : Table) → Fin (tcTables nBuf tb) → BufTy
  | .hbm, ⟨i, _⟩ => hbmTy i
  | _, _ => ⟨S100000x131, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_c_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_10 : Ref sig .tc := ⟨.hbm, 104, rfl⟩
abbrev main_v78 : Ref sig .tc := ⟨.hbm, 105, rfl⟩
abbrev main_v79 : Ref sig .tc := ⟨.hbm, 106, rfl⟩
abbrev main_c_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_13 : Ref sig .tc := ⟨.hbm, 125, rfl⟩
abbrev main_v96 : Ref sig .tc := ⟨.hbm, 126, rfl⟩
abbrev main_v97 : Ref sig .tc := ⟨.hbm, 127, rfl⟩
abbrev main_c_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_16 : Ref sig .tc := ⟨.hbm, 146, rfl⟩
abbrev main_v114 : Ref sig .tc := ⟨.hbm, 147, rfl⟩
abbrev main_v115 : Ref sig .tc := ⟨.hbm, 148, rfl⟩
abbrev main_c_17 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_18 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_19 : Ref sig .tc := ⟨.hbm, 171, rfl⟩
abbrev main_v136 : Ref sig .tc := ⟨.hbm, 172, rfl⟩
abbrev main_v137 : Ref sig .tc := ⟨.hbm, 173, rfl⟩
abbrev main_c_20 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_21 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_c_22 : Ref sig .tc := ⟨.hbm, 196, rfl⟩
abbrev main_v158 : Ref sig .tc := ⟨.hbm, 197, rfl⟩
abbrev main_v159 : Ref sig .tc := ⟨.hbm, 198, rfl⟩
abbrev main_c_23 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_24 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_25 : Ref sig .tc := ⟨.hbm, 221, rfl⟩
abbrev main_v180 : Ref sig .tc := ⟨.hbm, 222, rfl⟩
abbrev main_v181 : Ref sig .tc := ⟨.hbm, 223, rfl⟩
abbrev main_c_26 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_27 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_c_28 : Ref sig .tc := ⟨.hbm, 246, rfl⟩
abbrev main_v202 : Ref sig .tc := ⟨.hbm, 247, rfl⟩
abbrev main_v203 : Ref sig .tc := ⟨.hbm, 248, rfl⟩
abbrev main_c_29 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_30 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_c_31 : Ref sig .tc := ⟨.hbm, 271, rfl⟩
abbrev main_v224 : Ref sig .tc := ⟨.hbm, 272, rfl⟩
abbrev main_v225 : Ref sig .tc := ⟨.hbm, 273, rfl⟩
abbrev main_c_32 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_cst_33 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  slices_S5x16x16_S1x16x16_0_0_0 : S5x16x16.Slices ![0, 0, 0] S1x16x16
  shapeCasts_S1x16x16_S16x16 : S1x16x16.ShapeCasts S16x16
  slices_S5x16_S1x16_0_0 : S5x16.Slices ![0, 0] S1x16
  shapeCasts_S1x16_S16 : S1x16.ShapeCasts S16
  slices_S5x16x16_S1x16x16_1_0_0 : S5x16x16.Slices ![1, 0, 0] S1x16x16
  slices_S5x16_S1x16_1_0 : S5x16.Slices ![1, 0] S1x16
  slices_S5x16x16_S1x16x16_2_0_0 : S5x16x16.Slices ![2, 0, 0] S1x16x16
  slices_S5x16_S1x16_2_0 : S5x16.Slices ![2, 0] S1x16
  slices_S5x16x16_S1x16x16_3_0_0 : S5x16x16.Slices ![3, 0, 0] S1x16x16
  slices_S5x16_S1x16_3_0 : S5x16.Slices ![3, 0] S1x16
  slices_S5x16x16_S1x16x16_4_0_0 : S5x16x16.Slices ![4, 0, 0] S1x16x16
  slices_S5x16_S1x16_4_0 : S5x16.Slices ![4, 0] S1x16
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x131_S131x64_S100000x64_1_0_0_1_n_n_wf : DotDims.WF S100000x131 S131x64 S100000x64 [1] [0] [0] [1] [] []
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x16_S100000x16_1_0_0_1_n_n_wf : DotDims.WF S100000x16 S16x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x131_S131x64_S100000x64_1_0_0_1_n_n : DotDims S100000x131 S131x64 S100000x64 where
  lhsContracting := [1]
  rhsContracting := [0]
  lhsNonContracting := [0]
  rhsNonContracting := [1]
  lhsBatch := []
  rhsBatch := []
  wf := dot_S100000x131_S131x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KRun.lean ====
/-
  The program's run with its two result arrays named: the launch of its twenty-two segments (eleven stretches of host
  operations, eleven kernel regions) ends with every unscoped buffer at the contents the last boundary records, and the
  two results are read there.
-/
import proofs.«114803_j55138790146121_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the two result arrays at what the last
    region's write-backs leave and the fourteen argument arrays as launched. -/
theorem run_results : θ_run defs (onTc (τ := τ) (main (F := F))) ⟨m, fun _ => 0, ρ⟩ (fun r => ∀ c : Dev nD,
      r.2.mem ((c.tc : Thread nD τ).loc main_v193_1) = W22 m ρ c (Proc.devRef .tc main_v193_1)
      ∧ r.2.mem ((c.tc : Thread nD τ).loc main_v193_0) = W22 m ρ c (Proc.devRef .tc main_v193_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v193_1 (by decide)),
       h c _ (mem_uc main_v193_0 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.KernelIdeal.KRun

end
-- ==== Proof.Spec.lean ====
/-
  The network both programs compute, stage by stage, as whole-array functions on the extended reals.

  A graph network on 100000 nodes with 3300000 edges (3200000 given ones and one loop per node). Node features pass
  through a three-layer perceptron, then through ten rounds of "multiply by a 16×16 weight matrix, send each node's row
  along every edge scaled by the edge's weight, add up what arrives at each node, add a bias row, take the hyperbolic
  tangent", and a last affine map to two columns. Each stage is written here once, in the host's spelling, with every
  bias given as a one-row matrix; the two programs differ only in where they cut this chain into pieces and in how they
  lay a bias vector out as a row.
-/
import proofs.«114803_j55138790146121_2_alg».proof.ReferenceIdeal
import proofs.«114803_j55138790146121_2_alg».proof.Proof.Gen.ReferenceIdeal
import Idealize.ShloMosaic.PureOps.Ideal

noncomputable section

namespace Cert.Spec

open Idealize.ShloMosaic Cert.ReferenceIdeal Cert.ReferenceIdeal.Gen

/-- Node features, 16 columns. -/
abbrev M16 := FVec Ideal S100000x16 .f32
/-- One index per edge. -/
abbrev EdgeIdx := IVec S3300000 32

/-- One round of message passing: row `src e` of `H` (a negative index wrapped by 100000), scaled by `norm e`, is added
    into row `dst e` of a zero matrix, for every edge `e`. -/
def aggregate (src dst : EdgeIdx) (norm : FVec Ideal S3300000 .f32) (H : M16) : M16 :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 dst)
    (mulf (Host.gather gather_S100000x16_S3300000x1_S3300000x16_1_0_n_n_0_1_116 H
        (broadcastInDim S3300000x1 ![0] bcast_S3300000_S3300000x1_0
          (select (cmpi .slt src (broadcastInDim S3300000 ![] bcast_S_S3300000 (constantI S_ 32 0#32)))
            (addi src (broadcastInDim S3300000 ![] bcast_S_S3300000 (constantI S_ 32 100000#32))) src)))
      (broadcastInDim S3300000x16 ![0, 1] bcast_S3300000x1_S3300000x16_0_1
        (broadcastInDim S3300000x1 ![0] bcast_S3300000_S3300000x1_0 norm)))

/-- The perceptron and the first weight product: ((tanh (tanh (x·W1 + r1)·W2 + r2))·W3 + r3)·Wc. -/
def mlp (x : FVec Ideal S100000x131 .f32) (W1 : FVec Ideal S131x64 .f32) (r1 : FVec Ideal S1x64 .f32)
    (W2 : FVec Ideal S64x32 .f32) (r2 : FVec Ideal S1x32 .f32) (W3 : FVec Ideal S32x16 .f32) (r3 : FVec Ideal S1x16 .f32)
    (Wc : FVec Ideal S16x16 .f32) : M16 :=
  Host.dotGeneral dot_S100000x16_S16x16_S100000x16_1_0_0_1_n_n none
    (addf (Host.dotGeneral dot_S100000x32_S32x16_S100000x16_1_0_0_1_n_n none
        (Host.tanh (addf (Host.dotGeneral dot_S100000x64_S64x32_S100000x32_1_0_0_1_n_n none
            (Host.tanh (addf (Host.dotGeneral dot_S100000x131_S131x64_S100000x64_1_0_0_1_n_n none x W1)
              (broadcastInDim S100000x64 ![0, 1] bcast_S1x64_S100000x64_0_1 r1))) W2)
          (broadcastInDim S100000x32 ![0, 1] bcast_S1x32_S100000x32_0_1 r2))) W3)
      (broadcastInDim S100000x16 ![0, 1] bcast_S1x16_S100000x16_0_1 r3)) Wc

/-- What a round's sums become before the next round: tanh (A + r) · W. -/
def stage (A : M16) (r : FVec Ideal S1x16 .f32) (W : FVec Ideal S16x16 .f32) : M16 :=
  Host.dotGeneral dot_S100000x16_S16x16_S100000x16_1_0_0_1_n_n none
    (Host.tanh (addf A (broadcastInDim S100000x16 ![0, 1] bcast_S1x16_S100000x16_0_1 r))) W

/-- The last round's node features: tanh (A + r). -/
def lastH (A : M16) (r : FVec Ideal S1x16 .f32) : M16 :=
  Host.tanh (addf A (broadcastInDim S100000x16 ![0, 1] bcast_S1x16_S100000x16_0_1 r))

/-- The two output columns: h · Wcls + rc. -/
def lastOut (h : M16) (Wcls : FVec Ideal S16x2 .f32) (rc : FVec Ideal S1x2 .f32) : FVec Ideal S100000x2 .f32 :=
  addf (Host.dotGeneral dot_S100000x16_S16x2_S100000x2_1_0_0_1_n_n none h Wcls)
    (broadcastInDim S100000x2 ![0, 1] bcast_S1x2_S100000x2_0_1 rc)

end Cert.Spec

end
-- ==== Proof.Net.lean ====
/-
  The whole network as one function of its parameters: the perceptron, ten rounds of message passing, the last affine
  map. Every bias enters as a one-row matrix and every weight as a matrix, so the same function serves for any way of
  cutting a bias vector or a stack of weight matrices into those pieces.
-/
import proofs.«114803_j55138790146121_2_alg».proof.Proof.Spec

noncomputable section

namespace Cert.Net

open Idealize.ShloMosaic Cert.ReferenceIdeal Cert.Spec

/-- The node features after the last round: five rounds with the weights `Wc` and the bias row `rc`, then five with the
    weights `G k` (each applied BEFORE its round's sums) and the bias rows `g k`. -/
def netH (src dst : EdgeIdx) (norm : FVec Ideal S3300000 .f32)
    (x : FVec Ideal S100000x131 .f32) (W1 : FVec Ideal S131x64 .f32) (r1 : FVec Ideal S1x64 .f32)
    (W2 : FVec Ideal S64x32 .f32) (r2 : FVec Ideal S1x32 .f32) (W3 : FVec Ideal S32x16 .f32) (r3 : FVec Ideal S1x16 .f32)
    (Wc : FVec Ideal S16x16 .f32) (rc : FVec Ideal S1x16 .f32)
    (G0 G1 G2 G3 G4 : FVec Ideal S16x16 .f32) (g0 g1 g2 g3 g4 : FVec Ideal S1x16 .f32) : M16 :=
  lastH (aggregate src dst norm
    (stage (aggregate src dst norm
    (stage (aggregate src dst norm
    (stage (aggregate src dst norm
    (stage (aggregate src dst norm
    (stage (aggregate src dst norm
    (stage (aggregate src dst norm
    (stage (aggregate src dst norm
    (stage (aggregate src dst norm
    (stage (aggregate src dst norm
      (mlp x W1 r1 W2 r2 W3 r3 Wc))
      rc Wc)) rc Wc)) rc Wc)) rc Wc)) rc G0)) g0 G1)) g1 G2)) g2 G3)) g3 G4)) g4

/-- The network's two outputs' first: the last node features through the last affine map. -/
def netOut (h : M16) (Wcls : FVec Ideal S16x2 .f32) (rcls : FVec Ideal S1x2 .f32) : FVec Ideal S100000x2 .f32 :=
  lastOut h Wcls rcls

end Cert.Net

end
-- ==== Proof.Chain.lean ====
/-
  The kernel program's two results, read through its twenty-two segments.

  The program alternates stretches of host operations with kernel regions. The first stretch computes every parameter
  of the network (the edge lists, the edge weights, the bias rows, the five weight matrices); no later segment writes
  any of them, so each is found unchanged wherever it is read. Stretch K (K = 1 … 10) is one round of message passing
  over the previous region's output; region K turns the round's sums into the next round's input (region 0 is the
  perceptron, region 10 the last affine map). Given what each region leaves in its output array as a whole-array
  function of the arrays it found, the results are the network's function of the parameters.
-/
import proofs.«114803_j55138790146121_2_alg».proof.Proof.Gen.KernelIdeal.Frame
import proofs.«114803_j55138790146121_2_alg».proof.Proof.Net

set_option maxRecDepth 16384

noncomputable section

namespace Cert.KernelIdeal.Chain

open Idealize.ShloMosaic Idealize.ShloMosaic.TcCoe Idealize.SL.Sem
open Cert.KernelIdeal Cert.KernelIdeal.Gen
open Idealize.ShloMosaic.Pipeline (Dat Cfg Window)

/-- Every buffer written after the program's first stretch of host operations: by the ten later stretches and by the
    eleven regions. A buffer outside this list holds, at every later boundary, what it held after the first stretch. -/
abbrev Written : List (Ref sig .tc) := [main_c_4, main_v54, main_v55, main_c_5, main_v56, main_v57, main_v58, main_v59, main_v60, main_v61, main_v62, main_v63, main_cst_6, main_v64, main_v65, main_v66, main_c_7, main_v68, main_v69, main_c_8, main_v70, main_v71, main_v72, main_v73, main_v74, main_v75, main_v76, main_v77, main_cst_9, main_v78, main_v79, main_v80, main_c_10, main_v82, main_v83, main_c_11, main_v84, main_v85, main_v86, main_v87, main_v88, main_v89, main_v90, main_v91, main_cst_12, main_v92, main_v93, main_v94, main_c_13, main_v96, main_v97, main_c_14, main_v98, main_v99, main_v100, main_v101, main_v102, main_v103, main_v104, main_v105, main_cst_15, main_v106, main_v107, main_v108, main_c_16, main_v110, main_v111, main_c_17, main_v112, main_v113, main_v114, main_v115, main_v116, main_v117, main_v118, main_v119, main_cst_18, main_v120, main_v121, main_v122, main_c_19, main_v124, main_v125, main_c_20, main_v126, main_v127, main_v128, main_v129, main_v130, main_v131, main_v132, main_v133, main_cst_21, main_v134, main_v135, main_v136, main_c_22, main_v138, main_v139, main_c_23, main_v140, main_v141, main_v142, main_v143, main_v144, main_v145, main_v146, main_v147, main_cst_24, main_v148, main_v149, main_v150, main_c_25, main_v152, main_v153, main_c_26, main_v154, main_v155, main_v156, main_v157, main_v158, main_v159, main_v160, main_v161, main_cst_27, main_v162, main_v163, main_v164, main_c_28, main_v166, main_v167, main_c_29, main_v168, main_v169, main_v170, main_v171, main_v172, main_v173, main_v174, main_v175, main_cst_30, main_v176, main_v177, main_v178, main_c_31, main_v180, main_v181, main_c_32, main_v182, main_v183, main_v184, main_v185, main_v186, main_v187, main_v188, main_v189, main_cst_33, main_v190, main_v191, main_v192, main_v53, main_v67, main_v81, main_v95, main_v109, main_v123, main_v137, main_v151, main_v165, main_v179, main_v193_0, main_v193_1]

/-- What each region leaves in its output array, as a whole-array function of the arrays it found on entry. -/
structure RegionFacts : Prop where
  r0 : ∀ (V : (c : Dev nD) → (b : Ref sig .tc) → Buf (Elt Ideal) ((c : Thread nD τ).loc b)) (c : Dev nD),
    (dat0 (F := Ideal) V c).arrAt 8 cfg0.N = Cert.Spec.mlp (V c main_arg0) (V c main_arg2) (V c main_v27) (V c main_arg4) (V c main_v28) (V c main_arg6) (V c main_v29) (V c main_arg8)
  r1 : ∀ (V : (c : Dev nD) → (b : Ref sig .tc) → Buf (Elt Ideal) ((c : Thread nD τ).loc b)) (c : Dev nD),
    (dat1 (F := Ideal) V c).arrAt 3 cfg1.N = Cert.Spec.stage (V c main_v66) (V c main_v30) (V c main_arg8)
  r2 : ∀ (V : (c : Dev nD) → (b : Ref sig .tc) → Buf (Elt Ideal) ((c : Thread nD τ).loc b)) (c : Dev nD),
    (dat2 (F := Ideal) V c).arrAt 3 cfg2.N = Cert.Spec.stage (V c main_v80) (V c main_v30) (V c main_arg8)
  r3 : ∀ (V : (c : Dev nD) → (b : Ref sig .tc) → Buf (Elt Ideal) ((c : Thread nD τ).loc b)) (c : Dev nD),
    (dat3 (F := Ideal) V c).arrAt 3 cfg3.N = Cert.Spec.stage (V c main_v94) (V c main_v30) (V c main_arg8)
  r4 : ∀ (V : (c : Dev nD) → (b : Ref sig .tc) → Buf (Elt Ideal) ((c : Thread nD τ).loc b)) (c : Dev nD),
    (dat4 (F := Ideal) V c).arrAt 3 cfg4.N = Cert.Spec.stage (V c main_v108) (V c main_v30) (V c main_arg8)
  r5 : ∀ (V : (c : Dev nD) → (b : Ref sig .tc) → Buf (Elt Ideal) ((c : Thread nD τ).loc b)) (c : Dev nD),
    (dat5 (F := Ideal) V c).arrAt 3 cfg5.N = Cert.Spec.stage (V c main_v122) (V c main_v30) (V c main_v34)
  r6 : ∀ (V : (c : Dev nD) → (b : Ref sig .tc) → Buf (Elt Ideal) ((c : Thread nD τ).loc b)) (c : Dev nD),
    (dat6 (F := Ideal) V c).arrAt 3 cfg6.N = Cert.Spec.stage (V c main_v136) (V c main_v44) (V c main_v36)
  r7 : ∀ (V : (c : Dev nD) → (b : Ref sig .tc) → Buf (Elt Ideal) ((c : Thread nD τ).loc b)) (c : Dev nD),
    (dat7 (F := Ideal) V c).arrAt 3 cfg7.N = Cert.Spec.stage (V c main_v150) (V c main_v46) (V c main_v38)
  r8 : ∀ (V : (c : Dev nD) → (b : Ref sig .tc) → Buf (Elt Ideal) ((c : Thread nD τ).loc b)) (c : Dev nD),
    (dat8 (F := Ideal) V c).arrAt 3 cfg8.N = Cert.Spec.stage (V c main_v164) (V c main_v48) (V c main_v40)
  r9 : ∀ (V : (c : Dev nD) → (b : Ref sig .tc) → Buf (Elt Ideal) ((c : Thread nD τ).loc b)) (c : Dev nD),
    (dat9 (F := Ideal) V c).arrAt 3 cfg9.N = Cert.Spec.stage (V c main_v178) (V c main_v50) (V c main_v42)
  r10h : ∀ (V : (c : Dev nD) → (b : Ref sig .tc) → Buf (Elt Ideal) ((c : Thread nD τ).loc b)) (c : Dev nD),
    (dat10 (F := Ideal) V c).arrAt 4 cfg10.N = Cert.Spec.lastH (V c main_v192) (V c main_v52)
  r10o : ∀ (V : (c : Dev nD) → (b : Ref sig .tc) → Buf (Elt Ideal) ((c : Thread nD τ).loc b)) (c : Dev nD),
    (dat10 (F := Ideal) V c).arrAt 5 cfg10.N = Cert.Spec.lastOut (Cert.Spec.lastH (V c main_v192) (V c main_v52)) (V c main_arg12) (V c main_v32)

variable (m : (ℓ : Loc nD τ sig) → Buf (Elt Ideal) ℓ) (ρ : Dev nD → PrngReg) (c : Dev nD)

/-! ## A buffer no later segment writes is found as the first stretch left it -/

theorem host1_writes : (hostOps1 : List (HloOp τ sig (Elt Ideal))).Forall fun op => op.writes ⊆ (Written.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host1_keep (b : Ref sig .tc) (hb : b ∉ Written) : W3 m ρ c (Proc.devRef .tc b) = W2 m ρ c (Proc.devRef .tc b) :=
  StableHlo.after_of_writes_sub hostOps1 _ host1_writes hb

theorem host2_writes : (hostOps2 : List (HloOp τ sig (Elt Ideal))).Forall fun op => op.writes ⊆ (Written.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host2_keep (b : Ref sig .tc) (hb : b ∉ Written) : W5 m ρ c (Proc.devRef .tc b) = W4 m ρ c (Proc.devRef .tc b) :=
  StableHlo.after_of_writes_sub hostOps2 _ host2_writes hb

theorem host3_writes : (hostOps3 : List (HloOp τ sig (Elt Ideal))).Forall fun op => op.writes ⊆ (Written.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host3_keep (b : Ref sig .tc) (hb : b ∉ Written) : W7 m ρ c (Proc.devRef .tc b) = W6 m ρ c (Proc.devRef .tc b) :=
  StableHlo.after_of_writes_sub hostOps3 _ host3_writes hb

theorem host4_writes : (hostOps4 : List (HloOp τ sig (Elt Ideal))).Forall fun op => op.writes ⊆ (Written.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host4_keep (b : Ref sig .tc) (hb : b ∉ Written) : W9 m ρ c (Proc.devRef .tc b) = W8 m ρ c (Proc.devRef .tc b) :=
  StableHlo.after_of_writes_sub hostOps4 _ host4_writes hb

theorem host5_writes : (hostOps5 : List (HloOp τ sig (Elt Ideal))).Forall fun op => op.writes ⊆ (Written.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host5_keep (b : Ref sig .tc) (hb : b ∉ Written) : W11 m ρ c (Proc.devRef .tc b) = W10 m ρ c (Proc.devRef .tc b) :=
  StableHlo.after_of_writes_sub hostOps5 _ host5_writes hb

theorem host6_writes : (hostOps6 : List (HloOp τ sig (Elt Ideal))).Forall fun op => op.writes ⊆ (Written.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host6_keep (b : Ref sig .tc) (hb : b ∉ Written) : W13 m ρ c (Proc.devRef .tc b) = W12 m ρ c (Proc.devRef .tc b) :=
  StableHlo.after_of_writes_sub hostOps6 _ host6_writes hb

theorem host7_writes : (hostOps7 : List (HloOp τ sig (Elt Ideal))).Forall fun op => op.writes ⊆ (Written.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host7_keep (b : Ref sig .tc) (hb : b ∉ Written) : W15 m ρ c (Proc.devRef .tc b) = W14 m ρ c (Proc.devRef .tc b) :=
  StableHlo.after_of_writes_sub hostOps7 _ host7_writes hb

theorem host8_writes : (hostOps8 : List (HloOp τ sig (Elt Ideal))).Forall fun op => op.writes ⊆ (Written.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host8_keep (b : Ref sig .tc) (hb : b ∉ Written) : W17 m ρ c (Proc.devRef .tc b) = W16 m ρ c (Proc.devRef .tc b) :=
  StableHlo.after_of_writes_sub hostOps8 _ host8_writes hb

theorem host9_writes : (hostOps9 : List (HloOp τ sig (Elt Ideal))).Forall fun op => op.writes ⊆ (Written.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host9_keep (b : Ref sig .tc) (hb : b ∉ Written) : W19 m ρ c (Proc.devRef .tc b) = W18 m ρ c (Proc.devRef .tc b) :=
  StableHlo.after_of_writes_sub hostOps9 _ host9_writes hb

theorem host10_writes : (hostOps10 : List (HloOp τ sig (Elt Ideal))).Forall fun op => op.writes ⊆ (Written.map (Proc.devRef (τ := τ) .tc)).toFinset := by
  simp only [hostOps10, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))

theorem host10_keep (b : Ref sig .tc) (hb : b ∉ Written) : W21 m ρ c (Proc.devRef .tc b) = W20 m ρ c (Proc.devRef .tc b) :=
  StableHlo.after_of_writes_sub hostOps10 _ host10_writes hb

theorem reg0_keep (b : Ref sig .tc) (hb : b ∉ Written) : W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact (W2_arr m ρ c 4).trans (((dat0 (V1 m ρ) c).arrAt_in 4 rfl _).trans (A_eq0 (V1 m ρ) c 4))
    · exact (W2_arr m ρ c 5).trans (((dat0 (V1 m ρ) c).arrAt_in 5 rfl _).trans (A_eq0 (V1 m ρ) c 5))
    · exact (W2_arr m ρ c 6).trans (((dat0 (V1 m ρ) c).arrAt_in 6 rfl _).trans (A_eq0 (V1 m ρ) c 6))
    · exact (W2_arr m ρ c 7).trans (((dat0 (V1 m ρ) c).arrAt_in 7 rfl _).trans (A_eq0 (V1 m ρ) c 7))
    · exact absurd (by decide) hb

theorem reg1_keep (b : Ref sig .tc) (hb : b ∉ Written) : W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact absurd (by decide) hb

theorem reg2_keep (b : Ref sig .tc) (hb : b ∉ Written) : W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact absurd (by decide) hb

theorem reg3_keep (b : Ref sig .tc) (hb : b ∉ Written) : W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact absurd (by decide) hb

theorem reg4_keep (b : Ref sig .tc) (hb : b ∉ Written) : W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    fin_cases w
    · exact (W10_arr m ρ c 0).trans (((dat4 (V9 m ρ) c).arrAt_in 0 rfl _).trans (A_eq4 (V9 m ρ) c 0))
    · exact (W10_arr m ρ c 1).trans (((dat4 (V9 m ρ) c).arrAt_in 1 rfl _).trans (A_eq4 (V9 m ρ) c 1))
    · exact (W10_arr m ρ c 2).trans (((dat4 (V9 m ρ) c).arrAt_in 2 rfl _).trans (A_eq4 (V9 m ρ) c 2))
    · exact absurd (by decide) hb

theorem reg5_keep (b : Ref sig .tc) (hb : b ∉ Written) : W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    fin_cases w
    · exact (W12_arr m ρ c 0).trans (((dat5 (V11 m ρ) c).arrAt_in 0 rfl _).trans (A_eq5 (V11 m ρ) c 0))
    · exact (W12_arr m ρ c 1).trans (((dat5 (V11 m ρ) c).arrAt_in 1 rfl _).trans (A_eq5 (V11 m ρ) c 1))
    · exact (W12_arr m ρ c 2).trans (((dat5 (V11 m ρ) c).arrAt_in 2 rfl _).trans (A_eq5 (V11 m ρ) c 2))
    · exact absurd (by decide) hb

theorem reg6_keep (b : Ref sig .tc) (hb : b ∉ Written) : W14 m ρ c (Proc.devRef .tc b) = W13 m ρ c (Proc.devRef .tc b) := by
  by_cases h : ∀ w, Pipeline.arrRef spec6 w ≠ b
  · exact W14_of_ne m ρ c b h
  · push Not at h
    obtain ⟨w, rfl⟩ := h
    fin_cases w
    · exact (W14_arr m ρ c 0).trans (((dat6 (V13 m ρ) c).arrAt_in 0 rfl _).trans (A_eq6 (V13 m ρ) c 0))
    · exact (W14_arr m ρ c 1).trans (((dat6 (V13 m ρ) c).arrAt_in 1 rfl _).trans (A_eq6 (V13 m ρ) c 1))
    · exact (W14_arr m ρ c 2).trans (((dat6 (V13 m ρ) c).arrAt_in 2 rfl _).trans (A_eq6 (V13 m ρ) c 2))
    · exact absurd (by decide) hb

theorem reg7_keep (b : Ref sig .tc) (hb : b ∉ Written) : W16 m ρ c (Proc.devRef .tc b) = W15 m ρ c (Proc.devRef .tc b) := by
  by_cases h : ∀ w, Pipeline.arrRef spec7 w ≠ b
  · exact W16_of_ne m ρ c b h
  · push Not at h
    obtain ⟨w, rfl⟩ := h
    fin_cases w
    · exact (W16_arr m ρ c 0).trans (((dat7 (V15 m ρ) c).arrAt_in 0 rfl _).trans (A_eq7 (V15 m ρ) c 0))
    · exact (W16_arr m ρ c 1).trans (((dat7 (V15 m ρ) c).arrAt_in 1 rfl _).trans (A_eq7 (V15 m ρ) c 1))
    · exact (W16_arr m ρ c 2).trans (((dat7 (V15 m ρ) c).arrAt_in 2 rfl _).trans (A_eq7 (V15 m ρ) c 2))
    · exact absurd (by decide) hb

theorem reg8_keep (b : Ref sig .tc) (hb : b ∉ Written) : W18 m ρ c (Proc.devRef .tc b) = W17 m ρ c (Proc.devRef .tc b) := by
  by_cases h : ∀ w, Pipeline.arrRef spec8 w ≠ b
  · exact W18_of_ne m ρ c b h
  · push Not at h
    obtain ⟨w, rfl⟩ := h
    fin_cases w
    · exact (W18_arr m ρ c 0).trans (((dat8 (V17 m ρ) c).arrAt_in 0 rfl _).trans (A_eq8 (V17 m ρ) c 0))
    · exact (W18_arr m ρ c 1).trans (((dat8 (V17 m ρ) c).arrAt_in 1 rfl _).trans (A_eq8 (V17 m ρ) c 1))
    · exact (W18_arr m ρ c 2).trans (((dat8 (V17 m ρ) c).arrAt_in 2 rfl _).trans (A_eq8 (V17 m ρ) c 2))
    · exact absurd (by decide) hb

theorem reg9_keep (b : Ref sig .tc) (hb : b ∉ Written) : W20 m ρ c (Proc.devRef .tc b) = W19 m ρ c (Proc.devRef .tc b) := by
  by_cases h : ∀ w, Pipeline.arrRef spec9 w ≠ b
  · exact W20_of_ne m ρ c b h
  · push Not at h
    obtain ⟨w, rfl⟩ := h
    fin_cases w
    · exact (W20_arr m ρ c 0).trans (((dat9 (V19 m ρ) c).arrAt_in 0 rfl _).trans (A_eq9 (V19 m ρ) c 0))
    · exact (W20_arr m ρ c 1).trans (((dat9 (V19 m ρ) c).arrAt_in 1 rfl _).trans (A_eq9 (V19 m ρ) c 1))
    · exact (W20_arr m ρ c 2).trans (((dat9 (V19 m ρ) c).arrAt_in 2 rfl _).trans (A_eq9 (V19 m ρ) c 2))
    · exact absurd (by decide) hb

theorem reg10_keep (b : Ref sig .tc) (hb : b ∉ Written) : W22 m ρ c (Proc.devRef .tc b) = W21 m ρ c (Proc.devRef .tc b) := by
  by_cases h : ∀ w, Pipeline.arrRef spec10 w ≠ b
  · exact W22_of_ne m ρ c b h
  · push Not at h
    obtain ⟨w, rfl⟩ := h
    fin_cases w
    · exact (W22_arr m ρ c 0).trans (((dat10 (V21 m ρ) c).arrAt_in 0 rfl _).trans (A_eq10 (V21 m ρ) c 0))
    · exact (W22_arr m ρ c 1).trans (((dat10 (V21 m ρ) c).arrAt_in 1 rfl _).trans (A_eq10 (V21 m ρ) c 1))
    · exact (W22_arr m ρ c 2).trans (((dat10 (V21 m ρ) c).arrAt_in 2 rfl _).trans (A_eq10 (V21 m ρ) c 2))
    · exact (W22_arr m ρ c 3).trans (((dat10 (V21 m ρ) c).arrAt_in 3 rfl _).trans (A_eq10 (V21 m ρ) c 3))
    · exact absurd (by decide) hb
    · exact absurd (by decide) hb

theorem stay2 (b : Ref sig .tc) (hb : b ∉ Written) : W2 m ρ c (Proc.devRef .tc b) = W1 m ρ c (Proc.devRef .tc b) := reg0_keep m ρ c b hb
theorem stay3 (b : Ref sig .tc) (hb : b ∉ Written) : W3 m ρ c (Proc.devRef .tc b) = W1 m ρ c (Proc.devRef .tc b) := (host1_keep m ρ c b hb).trans (stay2 m ρ c b hb)
theorem stay4 (b : Ref sig .tc) (hb : b ∉ Written) : W4 m ρ c (Proc.devRef .tc b) = W1 m ρ c (Proc.devRef .tc b) := (reg1_keep m ρ c b hb).trans (stay3 m ρ c b hb)
theorem stay5 (b : Ref sig .tc) (hb : b ∉ Written) : W5 m ρ c (Proc.devRef .tc b) = W1 m ρ c (Proc.devRef .tc b) := (host2_keep m ρ c b hb).trans (stay4 m ρ c b hb)
theorem stay6 (b : Ref sig .tc) (hb : b ∉ Written) : W6 m ρ c (Proc.devRef .tc b) = W1 m ρ c (Proc.devRef .tc b) := (reg2_keep m ρ c b hb).trans (stay5 m ρ c b hb)
theorem stay7 (b : Ref sig .tc) (hb : b ∉ Written) : W7 m ρ c (Proc.devRef .tc b) = W1 m ρ c (Proc.devRef .tc b) := (host3_keep m ρ c b hb).trans (stay6 m ρ c b hb)
theorem stay8 (b : Ref sig .tc) (hb : b ∉ Written) : W8 m ρ c (Proc.devRef .tc b) = W1 m ρ c (Proc.devRef .tc b) := (reg3_keep m ρ c b hb).trans (stay7 m ρ c b hb)
theorem stay9 (b : Ref sig .tc) (hb : b ∉ Written) : W9 m ρ c (Proc.devRef .tc b) = W1 m ρ c (Proc.devRef .tc b) := (host4_keep m ρ c b hb).trans (stay8 m ρ c b hb)
theorem stay10 (b : Ref sig .tc) (hb : b ∉ Written) : W10 m ρ c (Proc.devRef .tc b) = W1 m ρ c (Proc.devRef .tc b) := (reg4_keep m ρ c b hb).trans (stay9 m ρ c b hb)
theorem stay11 (b : Ref sig .tc) (hb : b ∉ Written) : W11 m ρ c (Proc.devRef .tc b) = W1 m ρ c (Proc.devRef .tc b) := (host5_keep m ρ c b hb).trans (stay10 m ρ c b hb)
theorem stay12 (b : Ref sig .tc) (hb : b ∉ Written) : W12 m ρ c (Proc.devRef .tc b) = W1 m ρ c (Proc.devRef .tc b) := (reg5_keep m ρ c b hb).trans (stay11 m ρ c b hb)
theorem stay13 (b : Ref sig .tc) (hb : b ∉ Written) : W13 m ρ c (Proc.devRef .tc b) = W1 m ρ c (Proc.devRef .tc b) := (host6_keep m ρ c b hb).trans (stay12 m ρ c b hb)
theorem stay14 (b : Ref sig .tc) (hb : b ∉ Written) : W14 m ρ c (Proc.devRef .tc b) = W1 m ρ c (Proc.devRef .tc b) := (reg6_keep m ρ c b hb).trans (stay13 m ρ c b hb)
theorem stay15 (b : Ref sig .tc) (hb : b ∉ Written) : W15 m ρ c (Proc.devRef .tc b) = W1 m ρ c (Proc.devRef .tc b) := (host7_keep m ρ c b hb).trans (stay14 m ρ c b hb)
theorem stay16 (b : Ref sig .tc) (hb : b ∉ Written) : W16 m ρ c (Proc.devRef .tc b) = W1 m ρ c (Proc.devRef .tc b) := (reg7_keep m ρ c b hb).trans (stay15 m ρ c b hb)
theorem stay17 (b : Ref sig .tc) (hb : b ∉ Written) : W17 m ρ c (Proc.devRef .tc b) = W1 m ρ c (Proc.devRef .tc b) := (host8_keep m ρ c b hb).trans (stay16 m ρ c b hb)
theorem stay18 (b : Ref sig .tc) (hb : b ∉ Written) : W18 m ρ c (Proc.devRef .tc b) = W1 m ρ c (Proc.devRef .tc b) := (reg8_keep m ρ c b hb).trans (stay17 m ρ c b hb)
theorem stay19 (b : Ref sig .tc) (hb : b ∉ Written) : W19 m ρ c (Proc.devRef .tc b) = W1 m ρ c (Proc.devRef .tc b) := (host9_keep m ρ c b hb).trans (stay18 m ρ c b hb)
theorem stay20 (b : Ref sig .tc) (hb : b ∉ Written) : W20 m ρ c (Proc.devRef .tc b) = W1 m ρ c (Proc.devRef .tc b) := (reg9_keep m ρ c b hb).trans (stay19 m ρ c b hb)
theorem stay21 (b : Ref sig .tc) (hb : b ∉ Written) : W21 m ρ c (Proc.devRef .tc b) = W1 m ρ c (Proc.devRef .tc b) := (host10_keep m ρ c b hb).trans (stay20 m ρ c b hb)

/-! ## The rounds of message passing and what the regions make of them -/

/-- The perceptron's output times the first weights: region 0's array. -/
def h0 : Cert.Spec.M16 := Cert.Spec.mlp (W1 m ρ c (Proc.devRef .tc main_arg0)) (W1 m ρ c (Proc.devRef .tc main_arg2)) (W1 m ρ c (Proc.devRef .tc main_v27)) (W1 m ρ c (Proc.devRef .tc main_arg4)) (W1 m ρ c (Proc.devRef .tc main_v28)) (W1 m ρ c (Proc.devRef .tc main_arg6)) (W1 m ρ c (Proc.devRef .tc main_v29)) (W1 m ρ c (Proc.devRef .tc main_arg8))
/-- Round 1's sums at each node. -/
def a1 : Cert.Spec.M16 := Cert.Spec.aggregate (W1 m ρ c (Proc.devRef .tc main_v3)) (W1 m ρ c (Proc.devRef .tc main_v6)) (W1 m ρ c (Proc.devRef .tc main_v26)) (h0 m ρ c)
/-- Region 1's array: the next round's input. -/
def h1 : Cert.Spec.M16 := Cert.Spec.stage (a1 m ρ c) (W1 m ρ c (Proc.devRef .tc main_v30)) (W1 m ρ c (Proc.devRef .tc main_arg8))
/-- Round 2's sums at each node. -/
def a2 : Cert.Spec.M16 := Cert.Spec.aggregate (W1 m ρ c (Proc.devRef .tc main_v3)) (W1 m ρ c (Proc.devRef .tc main_v6)) (W1 m ρ c (Proc.devRef .tc main_v26)) (h1 m ρ c)
/-- Region 2's array: the next round's input. -/
def h2 : Cert.Spec.M16 := Cert.Spec.stage (a2 m ρ c) (W1 m ρ c (Proc.devRef .tc main_v30)) (W1 m ρ c (Proc.devRef .tc main_arg8))
/-- Round 3's sums at each node. -/
def a3 : Cert.Spec.M16 := Cert.Spec.aggregate (W1 m ρ c (Proc.devRef .tc main_v3)) (W1 m ρ c (Proc.devRef .tc main_v6)) (W1 m ρ c (Proc.devRef .tc main_v26)) (h2 m ρ c)
/-- Region 3's array: the next round's input. -/
def h3 : Cert.Spec.M16 := Cert.Spec.stage (a3 m ρ c) (W1 m ρ c (Proc.devRef .tc main_v30)) (W1 m ρ c (Proc.devRef .tc main_arg8))
/-- Round 4's sums at each node. -/
def a4 : Cert.Spec.M16 := Cert.Spec.aggregate (W1 m ρ c (Proc.devRef .tc main_v3)) (W1 m ρ c (Proc.devRef .tc main_v6)) (W1 m ρ c (Proc.devRef .tc main_v26)) (h3 m ρ c)
/-- Region 4's array: the next round's input. -/
def h4 : Cert.Spec.M16 := Cert.Spec.stage (a4 m ρ c) (W1 m ρ c (Proc.devRef .tc main_v30)) (W1 m ρ c (Proc.devRef .tc main_arg8))
/-- Round 5's sums at each node. -/
def a5 : Cert.Spec.M16 := Cert.Spec.aggregate (W1 m ρ c (Proc.devRef .tc main_v3)) (W1 m ρ c (Proc.devRef .tc main_v6)) (W1 m ρ c (Proc.devRef .tc main_v26)) (h4 m ρ c)
/-- Region 5's array: the next round's input. -/
def h5 : Cert.Spec.M16 := Cert.Spec.stage (a5 m ρ c) (W1 m ρ c (Proc.devRef .tc main_v30)) (W1 m ρ c (Proc.devRef .tc main_v34))
/-- Round 6's sums at each node. -/
def a6 : Cert.Spec.M16 := Cert.Spec.aggregate (W1 m ρ c (Proc.devRef .tc main_v3)) (W1 m ρ c (Proc.devRef .tc main_v6)) (W1 m ρ c (Proc.devRef .tc main_v26)) (h5 m ρ c)
/-- Region 6's array: the next round's input. -/
def h6 : Cert.Spec.M16 := Cert.Spec.stage (a6 m ρ c) (W1 m ρ c (Proc.devRef .tc main_v44)) (W1 m ρ c (Proc.devRef .tc main_v36))
/-- Round 7's sums at each node. -/
def a7 : Cert.Spec.M16 := Cert.Spec.aggregate (W1 m ρ c (Proc.devRef .tc main_v3)) (W1 m ρ c (Proc.devRef .tc main_v6)) (W1 m ρ c (Proc.devRef .tc main_v26)) (h6 m ρ c)
/-- Region 7's array: the next round's input. -/
def h7 : Cert.Spec.M16 := Cert.Spec.stage (a7 m ρ c) (W1 m ρ c (Proc.devRef .tc main_v46)) (W1 m ρ c (Proc.devRef .tc main_v38))
/-- Round 8's sums at each node. -/
def a8 : Cert.Spec.M16 := Cert.Spec.aggregate (W1 m ρ c (Proc.devRef .tc main_v3)) (W1 m ρ c (Proc.devRef .tc main_v6)) (W1 m ρ c (Proc.devRef .tc main_v26)) (h7 m ρ c)
/-- Region 8's array: the next round's input. -/
def h8 : Cert.Spec.M16 := Cert.Spec.stage (a8 m ρ c) (W1 m ρ c (Proc.devRef .tc main_v48)) (W1 m ρ c (Proc.devRef .tc main_v40))
/-- Round 9's sums at each node. -/
def a9 : Cert.Spec.M16 := Cert.Spec.aggregate (W1 m ρ c (Proc.devRef .tc main_v3)) (W1 m ρ c (Proc.devRef .tc main_v6)) (W1 m ρ c (Proc.devRef .tc main_v26)) (h8 m ρ c)
/-- Region 9's array: the next round's input. -/
def h9 : Cert.Spec.M16 := Cert.Spec.stage (a9 m ρ c) (W1 m ρ c (Proc.devRef .tc main_v50)) (W1 m ρ c (Proc.devRef .tc main_v42))
/-- Round 10's sums at each node. -/
def a10 : Cert.Spec.M16 := Cert.Spec.aggregate (W1 m ρ c (Proc.devRef .tc main_v3)) (W1 m ρ c (Proc.devRef .tc main_v6)) (W1 m ρ c (Proc.devRef .tc main_v26)) (h9 m ρ c)

variable (R : RegionFacts)
include R

theorem H0 : W2 m ρ c (Proc.devRef .tc main_v53) = h0 m ρ c := (W2_arr m ρ c 8).trans (R.r0 (V1 m ρ) c)

set_option maxHeartbeats 2000000 in
theorem A1 : W3 m ρ c (Proc.devRef .tc main_v66) = a1 m ρ c := by
  have e : W3 m ρ c (Proc.devRef .tc main_v66) = Cert.Spec.aggregate (W2 m ρ c (Proc.devRef .tc main_v3)) (W2 m ρ c (Proc.devRef .tc main_v6)) (W2 m ρ c (Proc.devRef .tc main_v26)) (W2 m ρ c (Proc.devRef .tc main_v53)) := by
    show StableHlo.after hostOps1 (W2 m ρ c) (Proc.devRef .tc main_v66) = _
    simp only [hostOps1]
    after_results_simp
    rfl
  rw [e, stay2 m ρ c main_v3 (by decide), stay2 m ρ c main_v6 (by decide), stay2 m ρ c main_v26 (by decide), H0 m ρ c R]
  rfl

theorem H1 : W4 m ρ c (Proc.devRef .tc main_v67) = h1 m ρ c := by
  have e : W4 m ρ c (Proc.devRef .tc main_v67) = Cert.Spec.stage (W3 m ρ c (Proc.devRef .tc main_v66)) (W3 m ρ c (Proc.devRef .tc main_v30)) (W3 m ρ c (Proc.devRef .tc main_arg8)) :=
    (W4_arr m ρ c 3).trans (R.r1 (V3 m ρ) c)
  rw [e, A1 m ρ c R, stay3 m ρ c main_v30 (by decide), stay3 m ρ c main_arg8 (by decide)]
  rfl

set_option maxHeartbeats 2000000 in
theorem A2 : W5 m ρ c (Proc.devRef .tc main_v80) = a2 m ρ c := by
  have e : W5 m ρ c (Proc.devRef .tc main_v80) = Cert.Spec.aggregate (W4 m ρ c (Proc.devRef .tc main_v3)) (W4 m ρ c (Proc.devRef .tc main_v6)) (W4 m ρ c (Proc.devRef .tc main_v26)) (W4 m ρ c (Proc.devRef .tc main_v67)) := by
    show StableHlo.after hostOps2 (W4 m ρ c) (Proc.devRef .tc main_v80) = _
    simp only [hostOps2]
    after_results_simp
    rfl
  rw [e, stay4 m ρ c main_v3 (by decide), stay4 m ρ c main_v6 (by decide), stay4 m ρ c main_v26 (by decide), H1 m ρ c R]
  rfl

theorem H2 : W6 m ρ c (Proc.devRef .tc main_v81) = h2 m ρ c := by
  have e : W6 m ρ c (Proc.devRef .tc main_v81) = Cert.Spec.stage (W5 m ρ c (Proc.devRef .tc main_v80)) (W5 m ρ c (Proc.devRef .tc main_v30)) (W5 m ρ c (Proc.devRef .tc main_arg8)) :=
    (W6_arr m ρ c 3).trans (R.r2 (V5 m ρ) c)
  rw [e, A2 m ρ c R, stay5 m ρ c main_v30 (by decide), stay5 m ρ c main_arg8 (by decide)]
  rfl

set_option maxHeartbeats 2000000 in
theorem A3 : W7 m ρ c (Proc.devRef .tc main_v94) = a3 m ρ c := by
  have e : W7 m ρ c (Proc.devRef .tc main_v94) = Cert.Spec.aggregate (W6 m ρ c (Proc.devRef .tc main_v3)) (W6 m ρ c (Proc.devRef .tc main_v6)) (W6 m ρ c (Proc.devRef .tc main_v26)) (W6 m ρ c (Proc.devRef .tc main_v81)) := by
    show StableHlo.after hostOps3 (W6 m ρ c) (Proc.devRef .tc main_v94) = _
    simp only [hostOps3]
    after_results_simp
    rfl
  rw [e, stay6 m ρ c main_v3 (by decide), stay6 m ρ c main_v6 (by decide), stay6 m ρ c main_v26 (by decide), H2 m ρ c R]
  rfl

theorem H3 : W8 m ρ c (Proc.devRef .tc main_v95) = h3 m ρ c := by
  have e : W8 m ρ c (Proc.devRef .tc main_v95) = Cert.Spec.stage (W7 m ρ c (Proc.devRef .tc main_v94)) (W7 m ρ c (Proc.devRef .tc main_v30)) (W7 m ρ c (Proc.devRef .tc main_arg8)) :=
    (W8_arr m ρ c 3).trans (R.r3 (V7 m ρ) c)
  rw [e, A3 m ρ c R, stay7 m ρ c main_v30 (by decide), stay7 m ρ c main_arg8 (by decide)]
  rfl

set_option maxHeartbeats 2000000 in
theorem A4 : W9 m ρ c (Proc.devRef .tc main_v108) = a4 m ρ c := by
  have e : W9 m ρ c (Proc.devRef .tc main_v108) = Cert.Spec.aggregate (W8 m ρ c (Proc.devRef .tc main_v3)) (W8 m ρ c (Proc.devRef .tc main_v6)) (W8 m ρ c (Proc.devRef .tc main_v26)) (W8 m ρ c (Proc.devRef .tc main_v95)) := by
    show StableHlo.after hostOps4 (W8 m ρ c) (Proc.devRef .tc main_v108) = _
    simp only [hostOps4]
    after_results_simp
    rfl
  rw [e, stay8 m ρ c main_v3 (by decide), stay8 m ρ c main_v6 (by decide), stay8 m ρ c main_v26 (by decide), H3 m ρ c R]
  rfl

theorem H4 : W10 m ρ c (Proc.devRef .tc main_v109) = h4 m ρ c := by
  have e : W10 m ρ c (Proc.devRef .tc main_v109) = Cert.Spec.stage (W9 m ρ c (Proc.devRef .tc main_v108)) (W9 m ρ c (Proc.devRef .tc main_v30)) (W9 m ρ c (Proc.devRef .tc main_arg8)) :=
    (W10_arr m ρ c 3).trans (R.r4 (V9 m ρ) c)
  rw [e, A4 m ρ c R, stay9 m ρ c main_v30 (by decide), stay9 m ρ c main_arg8 (by decide)]
  rfl

set_option maxHeartbeats 2000000 in
theorem A5 : W11 m ρ c (Proc.devRef .tc main_v122) = a5 m ρ c := by
  have e : W11 m ρ c (Proc.devRef .tc main_v122) = Cert.Spec.aggregate (W10 m ρ c (Proc.devRef .tc main_v3)) (W10 m ρ c (Proc.devRef .tc main_v6)) (W10 m ρ c (Proc.devRef .tc main_v26)) (W10 m ρ c (Proc.devRef .tc main_v109)) := by
    show StableHlo.after hostOps5 (W10 m ρ c) (Proc.devRef .tc main_v122) = _
    simp only [hostOps5]
    after_results_simp
    rfl
  rw [e, stay10 m ρ c main_v3 (by decide), stay10 m ρ c main_v6 (by decide), stay10 m ρ c main_v26 (by decide), H4 m ρ c R]
  rfl

theorem H5 : W12 m ρ c (Proc.devRef .tc main_v123) = h5 m ρ c := by
  have e : W12 m ρ c (Proc.devRef .tc main_v123) = Cert.Spec.stage (W11 m ρ c (Proc.devRef .tc main_v122)) (W11 m ρ c (Proc.devRef .tc main_v30)) (W11 m ρ c (Proc.devRef .tc main_v34)) :=
    (W12_arr m ρ c 3).trans (R.r5 (V11 m ρ) c)
  rw [e, A5 m ρ c R, stay11 m ρ c main_v30 (by decide), stay11 m ρ c main_v34 (by decide)]
  rfl

set_option maxHeartbeats 2000000 in
theorem A6 : W13 m ρ c (Proc.devRef .tc main_v136) = a6 m ρ c := by
  have e : W13 m ρ c (Proc.devRef .tc main_v136) = Cert.Spec.aggregate (W12 m ρ c (Proc.devRef .tc main_v3)) (W12 m ρ c (Proc.devRef .tc main_v6)) (W12 m ρ c (Proc.devRef .tc main_v26)) (W12 m ρ c (Proc.devRef .tc main_v123)) := by
    show StableHlo.after hostOps6 (W12 m ρ c) (Proc.devRef .tc main_v136) = _
    simp only [hostOps6]
    after_results_simp
    rfl
  rw [e, stay12 m ρ c main_v3 (by decide), stay12 m ρ c main_v6 (by decide), stay12 m ρ c main_v26 (by decide), H5 m ρ c R]
  rfl

theorem H6 : W14 m ρ c (Proc.devRef .tc main_v137) = h6 m ρ c := by
  have e : W14 m ρ c (Proc.devRef .tc main_v137) = Cert.Spec.stage (W13 m ρ c (Proc.devRef .tc main_v136)) (W13 m ρ c (Proc.devRef .tc main_v44)) (W13 m ρ c (Proc.devRef .tc main_v36)) :=
    (W14_arr m ρ c 3).trans (R.r6 (V13 m ρ) c)
  rw [e, A6 m ρ c R, stay13 m ρ c main_v44 (by decide), stay13 m ρ c main_v36 (by decide)]
  rfl

set_option maxHeartbeats 2000000 in
theorem A7 : W15 m ρ c (Proc.devRef .tc main_v150) = a7 m ρ c := by
  have e : W15 m ρ c (Proc.devRef .tc main_v150) = Cert.Spec.aggregate (W14 m ρ c (Proc.devRef .tc main_v3)) (W14 m ρ c (Proc.devRef .tc main_v6)) (W14 m ρ c (Proc.devRef .tc main_v26)) (W14 m ρ c (Proc.devRef .tc main_v137)) := by
    show StableHlo.after hostOps7 (W14 m ρ c) (Proc.devRef .tc main_v150) = _
    simp only [hostOps7]
    after_results_simp
    rfl
  rw [e, stay14 m ρ c main_v3 (by decide), stay14 m ρ c main_v6 (by decide), stay14 m ρ c main_v26 (by decide), H6 m ρ c R]
  rfl

theorem H7 : W16 m ρ c (Proc.devRef .tc main_v151) = h7 m ρ c := by
  have e : W16 m ρ c (Proc.devRef .tc main_v151) = Cert.Spec.stage (W15 m ρ c (Proc.devRef .tc main_v150)) (W15 m ρ c (Proc.devRef .tc main_v46)) (W15 m ρ c (Proc.devRef .tc main_v38)) :=
    (W16_arr m ρ c 3).trans (R.r7 (V15 m ρ) c)
  rw [e, A7 m ρ c R, stay15 m ρ c main_v46 (by decide), stay15 m ρ c main_v38 (by decide)]
  rfl

set_option maxHeartbeats 2000000 in
theorem A8 : W17 m ρ c (Proc.devRef .tc main_v164) = a8 m ρ c := by
  have e : W17 m ρ c (Proc.devRef .tc main_v164) = Cert.Spec.aggregate (W16 m ρ c (Proc.devRef .tc main_v3)) (W16 m ρ c (Proc.devRef .tc main_v6)) (W16 m ρ c (Proc.devRef .tc main_v26)) (W16 m ρ c (Proc.devRef .tc main_v151)) := by
    show StableHlo.after hostOps8 (W16 m ρ c) (Proc.devRef .tc main_v164) = _
    simp only [hostOps8]
    after_results_simp
    rfl
  rw [e, stay16 m ρ c main_v3 (by decide), stay16 m ρ c main_v6 (by decide), stay16 m ρ c main_v26 (by decide), H7 m ρ c R]
  rfl

theorem H8 : W18 m ρ c (Proc.devRef .tc main_v165) = h8 m ρ c := by
  have e : W18 m ρ c (Proc.devRef .tc main_v165) = Cert.Spec.stage (W17 m ρ c (Proc.devRef .tc main_v164)) (W17 m ρ c (Proc.devRef .tc main_v48)) (W17 m ρ c (Proc.devRef .tc main_v40)) :=
    (W18_arr m ρ c 3).trans (R.r8 (V17 m ρ) c)
  rw [e, A8 m ρ c R, stay17 m ρ c main_v48 (by decide), stay17 m ρ c main_v40 (by decide)]
  rfl

set_option maxHeartbeats 2000000 in
theorem A9 : W19 m ρ c (Proc.devRef .tc main_v178) = a9 m ρ c := by
  have e : W19 m ρ c (Proc.devRef .tc main_v178) = Cert.Spec.aggregate (W18 m ρ c (Proc.devRef .tc main_v3)) (W18 m ρ c (Proc.devRef .tc main_v6)) (W18 m ρ c (Proc.devRef .tc main_v26)) (W18 m ρ c (Proc.devRef .tc main_v165)) := by
    show StableHlo.after hostOps9 (W18 m ρ c) (Proc.devRef .tc main_v178) = _
    simp only [hostOps9]
    after_results_simp
    rfl
  rw [e, stay18 m ρ c main_v3 (by decide), stay18 m ρ c main_v6 (by decide), stay18 m ρ c main_v26 (by decide), H8 m ρ c R]
  rfl

theorem H9 : W20 m ρ c (Proc.devRef .tc main_v179) = h9 m ρ c := by
  have e : W20 m ρ c (Proc.devRef .tc main_v179) = Cert.Spec.stage (W19 m ρ c (Proc.devRef .tc main_v178)) (W19 m ρ c (Proc.devRef .tc main_v50)) (W19 m ρ c (Proc.devRef .tc main_v42)) :=
    (W20_arr m ρ c 3).trans (R.r9 (V19 m ρ) c)
  rw [e, A9 m ρ c R, stay19 m ρ c main_v50 (by decide), stay19 m ρ c main_v42 (by decide)]
  rfl

set_option maxHeartbeats 2000000 in
theorem A10 : W21 m ρ c (Proc.devRef .tc main_v192) = a10 m ρ c := by
  have e : W21 m ρ c (Proc.devRef .tc main_v192) = Cert.Spec.aggregate (W20 m ρ c (Proc.devRef .tc main_v3)) (W20 m ρ c (Proc.devRef .tc main_v6)) (W20 m ρ c (Proc.devRef .tc main_v26)) (W20 m ρ c (Proc.devRef .tc main_v179)) := by
    show StableHlo.after hostOps10 (W20 m ρ c) (Proc.devRef .tc main_v192) = _
    simp only [hostOps10]
    after_results_simp
    rfl
  rw [e, stay20 m ρ c main_v3 (by decide), stay20 m ρ c main_v6 (by decide), stay20 m ρ c main_v26 (by decide), H9 m ρ c R]
  rfl

/-- The last region's first output: the node features after the tenth round. -/
theorem Hlast : W22 m ρ c (Proc.devRef .tc main_v193_0) = Cert.Spec.lastH (a10 m ρ c) (W1 m ρ c (Proc.devRef .tc main_v52)) := by
  have e : W22 m ρ c (Proc.devRef .tc main_v193_0) = Cert.Spec.lastH (W21 m ρ c (Proc.devRef .tc main_v192)) (W21 m ρ c (Proc.devRef .tc main_v52)) :=
    (W22_arr m ρ c 4).trans (R.r10h (V21 m ρ) c)
  rw [e, A10 m ρ c R, stay21 m ρ c main_v52 (by decide)]

/-- The last region's second output: those features through the last affine map. -/
theorem Olast : W22 m ρ c (Proc.devRef .tc main_v193_1) = Cert.Spec.lastOut (Cert.Spec.lastH (a10 m ρ c) (W1 m ρ c (Proc.devRef .tc main_v52))) (W1 m ρ c (Proc.devRef .tc main_arg12)) (W1 m ρ c (Proc.devRef .tc main_v32)) := by
  have e : W22 m ρ c (Proc.devRef .tc main_v193_1) = Cert.Spec.lastOut (Cert.Spec.lastH (W21 m ρ c (Proc.devRef .tc main_v192)) (W21 m ρ c (Proc.devRef .tc main_v52))) (W21 m ρ c (Proc.devRef .tc main_arg12)) (W21 m ρ c (Proc.devRef .tc main_v32)) :=
    (W22_arr m ρ c 5).trans (R.r10o (V21 m ρ) c)
  rw [e, A10 m ρ c R, stay21 m ρ c main_v52 (by decide), stay21 m ρ c main_arg12 (by decide), stay21 m ρ c main_v32 (by decide)]

/-- The node features the program returns are the network's function of the parameters its first stretch computed. -/
theorem kernel_h : W22 m ρ c (Proc.devRef .tc main_v193_0) = Cert.Net.netH (W1 m ρ c (Proc.devRef .tc main_v3)) (W1 m ρ c (Proc.devRef .tc main_v6)) (W1 m ρ c (Proc.devRef .tc main_v26)) (W1 m ρ c (Proc.devRef .tc main_arg0)) (W1 m ρ c (Proc.devRef .tc main_arg2)) (W1 m ρ c (Proc.devRef .tc main_v27)) (W1 m ρ c (Proc.devRef .tc main_arg4)) (W1 m ρ c (Proc.devRef .tc main_v28)) (W1 m ρ c (Proc.devRef .tc main_arg6)) (W1 m ρ c (Proc.devRef .tc main_v29)) (W1 m ρ c (Proc.devRef .tc main_arg8)) (W1 m ρ c (Proc.devRef .tc main_v30)) (W1 m ρ c (Proc.devRef .tc main_v34)) (W1 m ρ c (Proc.devRef .tc main_v36)) (W1 m ρ c (Proc.devRef .tc main_v38)) (W1 m ρ c (Proc.devRef .tc main_v40)) (W1 m ρ c (Proc.devRef .tc main_v42)) (W1 m ρ c (Proc.devRef .tc main_v44)) (W1 m ρ c (Proc.devRef .tc main_v46)) (W1 m ρ c (Proc.devRef .tc main_v48)) (W1 m ρ c (Proc.devRef .tc main_v50)) (W1 m ρ c (Proc.devRef .tc main_v52)) :=
  (Hlast m ρ c R).trans rfl

/-- The two output columns the program returns. -/
theorem kernel_out : W22 m ρ c (Proc.devRef .tc main_v193_1) = Cert.Net.netOut (W22 m ρ c (Proc.devRef .tc main_v193_0)) (W1 m ρ c (Proc.devRef .tc main_arg12)) (W1 m ρ c (Proc.devRef .tc main_v32)) := by
  rw [Olast m ρ c R, Hlast m ρ c R]
  rfl

end Cert.KernelIdeal.Chain

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowwise.lean ====
/-
  Row-wise array code on a block of rows, at the extended reals.

  Much array code treats the rows of a matrix independently: row r of the result is a function of row r of the operand
  (and of small parameter arrays) alone. A dense layer x·W + b, a pointwise map, a sum along each row and a
  concatenation of columns are all of this kind. For such code, running it on a BLOCK of rows of X — any selection of
  rows, given by a map `row` from the block's row numbers to the matrix's — gives the same block of rows of the result of
  running it on the whole of X. This file states that, operation by operation, for a kernel's spelling of each
  operation on the block against the host's spelling on the whole matrix, as the closure of one relation: `RowsOf row A X`
  says entry (a, b) of the block A is entry (row a, b) of X. Nothing of real arithmetic is used beyond 0 + x = x, so
  every statement holds at the infinities too. Generic in the extents and the float formats.
-/
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws
import proofs.«114803_j55138790146121_2_alg».proof.Proof.LibRowBlockDot
import proofs.«114803_j55138790146121_2_alg».proof.Proof.LibHostReads
import proofs.«114803_j55138790146121_2_alg».proof.Proof.LibKeepdims

noncomputable section

open scoped BigOperators

namespace Cert.LibRowwise

open Idealize.ShloMosaic Idealize.ShloMosaic.ValueIdx

variable {m M n : Nat} {φ ψ : FTy}

/-- Entry (a, b) of the block `A` is entry (`row a`, b) of `X`: the block holds the rows `row` of `X`. -/
def RowsOf (row : Fin m → Fin M) (A : FVec Ideal ⟨2, ![m, n]⟩ φ) (X : FVec Ideal ⟨2, ![M, n]⟩ ψ) : Prop :=
  ∀ (a : Fin m) (b : Fin n), A (ix2 a b) = X (ix2 (row a) b)

/-- Entry a of the vector `u` is entry `row a` of `U`: one number per row, the same selection of rows. -/
def RowsOf1 (row : Fin m → Fin M) (u : FVec Ideal ⟨1, ![m]⟩ φ) (U : FVec Ideal ⟨1, ![M]⟩ ψ) : Prop :=
  ∀ a : Fin m, u (ix1 a) = U (ix1 (row a))

/-- A change of float format is the identity on the extended reals: the narrowed block still holds the rows. -/
theorem RowsOf.truncf {row : Fin m → Fin M} {A : FVec Ideal ⟨2, ![m, n]⟩ φ} {X : FVec Ideal ⟨2, ![M, n]⟩ ψ} {χ : FTy}
    (h : RowsOf row A X) (hb : χ.bits < φ.bits) : RowsOf row (truncf χ A hb) X :=
  fun a b => h a b

/-- A dense layer: the block's product with the weights into the zero accumulator plus the bias laid along every row,
    against the host's product of the whole matrix plus the bias broadcast to one row and then down the rows. The
    weights and the bias agree entry by entry; the two products' dimension records are the plain ones. -/
theorem RowsOf.dense {K N : Nat} {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨1, ![N]⟩ .f32} (hb : ∀ q, bk (ix1 q) = bh (ix1 q)) (hN : N ≠ 1)
    (h1 : (⟨1, ![N]⟩ : Shape).ShapeCasts ⟨2, ![1, N]⟩) (h2 : (⟨2, ![1, N]⟩ : Shape).Broadcasts ⟨2, ![m, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    RowsOf row
      (addf (matmul D prec A B (constant (F := Ideal) ⟨2, ![m, N]⟩ .f32 0x00000000#32))
        (broadcastTo ⟨2, ![m, N]⟩ (shapeCast ⟨2, ![1, N]⟩ bk h1) h2))
      (addf (Host.dotGeneral D' prec' X W)
        (broadcastInDim ⟨2, ![M, N]⟩ ![0, 1] g2 (broadcastInDim ⟨2, ![1, N]⟩ ![1] g1 bh))) := by
  subst hD hD'
  intro a b
  rw [addf_apply, addf_apply,
    Cert.LibRowBlockDot.matmul_rowBlock_apply prec prec' X W A B row hA hB a b,
    broadcastTo_1b_ab_apply, shapeCast_a_1a_apply, Cert.LibHostReads.rowBias_apply hN g1 g2 bh (row a) b, hb b]

/-- The leaky rectifier x ↦ (x ≥ z ? x : c·x), the kernel's with its two scalars broadcast, the host's with the two
    scalars as rank-0 constants broadcast to the matrix (the slope through an identity conversion). -/
theorem RowsOf.leaky {row : Fin m → Fin M} {A : FVec Ideal ⟨2, ![m, n]⟩ .f32} {X : FVec Ideal ⟨2, ![M, n]⟩ .f32}
    (h : RowsOf row A X) (z c : BitVec 32)
    (g : (⟨0, ![]⟩ : Shape).BroadcastsInDim ⟨2, ![M, n]⟩ ![]) :
    RowsOf row
      (select (cmpf .oge A (broadcast ⟨2, ![m, n]⟩ (Scalar.ofBits (F := Ideal) .f32 z))) A
        (mulf (broadcast ⟨2, ![m, n]⟩ (Scalar.ofBits (F := Ideal) .f32 c)) A))
      (select (cmpf .oge X (broadcastInDim ⟨2, ![M, n]⟩ ![] g (constant (F := Ideal) ⟨0, ![]⟩ .f32 z))) X
        (mulf (broadcastInDim ⟨2, ![M, n]⟩ ![] g (id (constant (F := Ideal) ⟨0, ![]⟩ .f32 c))) X)) := by
  intro a b
  rw [select_apply, select_apply, cmpf_apply, cmpf_apply, mulf_apply, mulf_apply, broadcast_apply, broadcast_apply,
    Cert.LibHostReads.splat_apply, Cert.LibHostReads.splat_apply, h a b]
  rfl

/-- The hyperbolic tangent, entry by entry: the kernel's and the host's are one function of an extended real. -/
theorem RowsOf.tanh {row : Fin m → Fin M} {A : FVec Ideal ⟨2, ![m, n]⟩ φ} {X : FVec Ideal ⟨2, ![M, n]⟩ φ}
    (h : RowsOf row A X) : RowsOf row (tanh A) (Host.tanh X) :=
  fun a b => congrArg Ideal.tanh (h a b)

/-- The exponential, entry by entry: the kernel's and the host's are one function of an extended real. -/
theorem RowsOf.exp {row : Fin m → Fin M} {A : FVec Ideal ⟨2, ![m, n]⟩ φ} {X : FVec Ideal ⟨2, ![M, n]⟩ φ}
    (h : RowsOf row A X) : RowsOf row (exp A) (Host.exp X) :=
  fun a b => congrArg Ideal.exp (h a b)

/-- A product, entry by entry. -/
theorem RowsOf.mulf {row : Fin m → Fin M} {A B : FVec Ideal ⟨2, ![m, n]⟩ φ} {X Y : FVec Ideal ⟨2, ![M, n]⟩ φ}
    (hA : RowsOf row A X) (hB : RowsOf row B Y) : RowsOf row (mulf A B) (mulf X Y) :=
  fun a b => congrArg₂ (· * ·) (hA a b) (hB a b)

/-- A sum, entry by entry. -/
theorem RowsOf.addf {row : Fin m → Fin M} {A B : FVec Ideal ⟨2, ![m, n]⟩ φ} {X Y : FVec Ideal ⟨2, ![M, n]⟩ φ}
    (hA : RowsOf row A X) (hB : RowsOf row B Y) : RowsOf row (addf A B) (addf X Y) :=
  fun a b => congrArg₂ (· + ·) (hA a b) (hB a b)

/-- The columns from `o` on, `k` of them: the same cut of the block and of the matrix. -/
theorem RowsOf.cols {k : Nat} {row : Fin m → Fin M} {A : FVec Ideal ⟨2, ![m, n]⟩ φ} {X : FVec Ideal ⟨2, ![M, n]⟩ ψ}
    (h : RowsOf row A X) (o : Nat)
    (hs : (⟨2, ![m, n]⟩ : Shape).Slices ![0, o] ⟨2, ![m, k]⟩) (hs' : (⟨2, ![M, n]⟩ : Shape).Slices ![0, o] ⟨2, ![M, k]⟩) :
    RowsOf row (extractStridedSlice ⟨2, ![m, k]⟩ ![0, o] A hs) (extractStridedSlice ⟨2, ![M, k]⟩ ![0, o] X hs') := by
  intro a b
  rw [slice2_axis1_eq o A hs a b, slice2_axis1_eq o X hs' (row a) b]
  exact h a _

/-- The sum along each row: the kernel's lane reduction from the neutral accumulator against the host's reduction
    from an initial value that is zero. -/
theorem RowsOf.rowSum {row : Fin m → Fin M} {A : FVec Ideal ⟨2, ![m, n]⟩ φ} {X : FVec Ideal ⟨2, ![M, n]⟩ φ}
    (h : RowsOf row A X) (acc : BitVec φ.bits)
    (hr : (⟨2, ![m, n]⟩ : Shape).Reduces [(1 : Fin 2)] ⟨1, ![m]⟩) (hφ : FKind.Formats φ) (hacc : acc = FKind.add.neutral φ hφ)
    {u : Shape} (init : u.Idx → Ideal φ) (hr' : (⟨2, ![M, n]⟩ : Shape).ReducesTo [(1 : Fin 2)] ⟨1, ![M]⟩)
    (hR : (⟨2, ![M, n]⟩ : Shape).Reduces [(1 : Fin 2)] ⟨1, ![M]⟩) (hu : 0 < u.numel)
    (h0 : init (Shape.Idx.first hu) = 0) :
    RowsOf1 row (multiReduction .add [(1 : Fin 2)] ⟨1, ![m]⟩ A acc hr hφ hacc) (Host.reduceAdd X init hr' hu) := by
  intro a
  rw [multiReduction_add_row A acc hr hφ hacc a]
  show _ = Ideal.hostReduceAdd hr' X (init (Shape.Idx.first hu)) (ix1 (row a))
  rw [Ideal.hostReduceAdd_single hr' hR, h0, zero_add]
  exact Finset.sum_congr rfl fun k _ => by rw [lift_row hR (row a) k]; exact h a k

/-- A sum of two per-row vectors, entry by entry. -/
theorem RowsOf1.addf {row : Fin m → Fin M} {u v : FVec Ideal ⟨1, ![m]⟩ φ} {U V : FVec Ideal ⟨1, ![M]⟩ φ}
    (hu : RowsOf1 row u U) (hv : RowsOf1 row v V) : RowsOf1 row (addf u v) (addf U V) :=
  fun a => congrArg₂ (· + ·) (hu a) (hv a)

/-- A scalar laid along the rows: the kernel's broadcast of a scalar word against the host's rank-0 constant
    broadcast to the vector. -/
theorem RowsOf1.splat (row : Fin m → Fin M) (z : BitVec 32) (g : (⟨0, ![]⟩ : Shape).BroadcastsInDim ⟨1, ![M]⟩ ![]) :
    RowsOf1 row (broadcast ⟨1, ![m]⟩ (Scalar.ofBits (F := Ideal) .f32 z))
      (broadcastInDim ⟨1, ![M]⟩ ![] g (constant (F := Ideal) ⟨0, ![]⟩ .f32 z)) := by
  intro a
  rw [broadcast_apply, Cert.LibHostReads.splat_apply]
  rfl

/-- Two blocks set side by side along the columns: the concatenation of the blocks holds the rows of the
    concatenation of the matrices. -/
theorem RowsOf.concat {n₁ n₂ : Nat} {row : Fin m → Fin M}
    {A₁ : FVec Ideal ⟨2, ![m, n₁]⟩ φ} {X₁ : FVec Ideal ⟨2, ![M, n₁]⟩ φ} (h₁ : RowsOf row A₁ X₁)
    {A₂ : FVec Ideal ⟨2, ![m, n₂]⟩ φ} {X₂ : FVec Ideal ⟨2, ![M, n₂]⟩ φ} (h₂ : RowsOf row A₂ X₂)
    (hc : Shape.Concatenates [(⟨2, ![m, n₁]⟩ : Shape), ⟨2, ![m, n₂]⟩] ⟨2, ![m, n]⟩ (1 : Fin 2))
    (hc' : Shape.Concatenates [(⟨2, ![M, n₁]⟩ : Shape), ⟨2, ![M, n₂]⟩] ⟨2, ![M, n]⟩ (1 : Fin 2)) :
    RowsOf row (concatenate ⟨2, ![m, n]⟩ (1 : Fin 2) [⟨⟨2, ![m, n₁]⟩, A₁⟩, ⟨⟨2, ![m, n₂]⟩, A₂⟩] hc)
      (concatenate ⟨2, ![M, n]⟩ (1 : Fin 2) [⟨⟨2, ![M, n₁]⟩, X₁⟩, ⟨⟨2, ![M, n₂]⟩, X₂⟩] hc') := by
  intro a b
  by_cases hb : b.val < n₁
  · rw [concatenate_pair_apply_left (1 : Fin 2) A₁ A₂ hc (ix2 a b) rfl (ix2 a ⟨b.val, hb⟩)
        (fun c => by match c with | ⟨0, _⟩ => rfl | ⟨1, _⟩ => rfl),
      concatenate_pair_apply_left (1 : Fin 2) X₁ X₂ hc' (ix2 (row a) b) rfl (ix2 (row a) ⟨b.val, hb⟩)
        (fun c => by match c with | ⟨0, _⟩ => rfl | ⟨1, _⟩ => rfl)]
    exact h₁ a _
  · have hn : n₁ + n₂ = n := by have e := hc.2.2; simpa using e
    have hb2 : b.val - n₁ < n₂ := by have := b.isLt; omega
    rw [concatenate_pair_apply_right (1 : Fin 2) A₁ A₂ hc (ix2 a b) rfl rfl (ix2 a ⟨b.val - n₁, hb2⟩)
        (fun c hne => by match c with | ⟨0, _⟩ => rfl | ⟨1, _⟩ => exact absurd rfl hne)
        (by show b.val - n₁ + n₁ = b.val; omega),
      concatenate_pair_apply_right (1 : Fin 2) X₁ X₂ hc' (ix2 (row a) b) rfl rfl (ix2 (row a) ⟨b.val - n₁, hb2⟩)
        (fun c hne => by match c with | ⟨0, _⟩ => rfl | ⟨1, _⟩ => exact absurd rfl hne)
        (by show b.val - n₁ + n₁ = b.val; omega)]
    exact h₂ a _

end Cert.LibRowwise

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpBlock.lean ====
/-
  A perceptron layer whose bias is held as a one-row matrix, on a block of rows, at the extended reals.

  A dense layer X·W + B with the bias B of shape [1,N] treats the rows of X independently: row r of the result depends
  on row r of X alone. So a tiled program that runs the layer on a block of rows of X (any selection of rows, given by
  a map `row` from the block's row numbers to the matrix's) gets that block of rows of the host's layer on the whole
  of X. This file states that for the three forms such a program prints — the product alone, the product plus the bias
  row, and a bias row added to a block that is already there — against the host's spelling with the row broadcast down
  the rows, as closure lemmas of the relation `RowsOf row A X` (entry (a, b) of the block A is entry (row a, b) of X).
  Nothing of real arithmetic is used beyond 0 + x = x, so every statement holds at the infinities too. Generic in the
  extents and the operand formats.
-/
import proofs.«114803_j55138790146121_2_alg».proof.Proof.LibRowwise
import proofs.«114803_j55138790146121_2_alg».proof.Proof.LibBiasRows

noncomputable section

namespace Cert.LibMlpBlock

open Idealize.ShloMosaic Idealize.ShloMosaic.ValueIdx Cert.LibRowwise

variable {m M K N : Nat}

/-- A one-row matrix passed through an identity cast and laid along the `m` rows of a block reads, at (p, q), the
    row's entry q. -/
theorem rowDown_apply (B : FVec Ideal ⟨2, ![1, N]⟩ .f32)
    (hs : (⟨2, ![1, N]⟩ : Shape).ShapeCasts ⟨2, ![1, N]⟩) (hbc : (⟨2, ![1, N]⟩ : Shape).Broadcasts ⟨2, ![m, N]⟩)
    (p : Fin m) (q : Fin N) :
    broadcastTo ⟨2, ![m, N]⟩ (shapeCast ⟨2, ![1, N]⟩ B hs) hbc (ix2 p q) = B (ix2 (0 : Fin 1) q) := by
  rw [broadcastTo_1b_ab_apply, shapeCast_self]

/-- A block that holds rows of X, read at a block index `j` against a matrix index `i` whose row is the row that
    `j`'s row stands for and whose column is `j`'s. -/
theorem RowsOf.entry {n : Nat} {φ ψ : FTy} {row : Fin m → Fin M}
    {A : FVec Ideal ⟨2, ![m, n]⟩ φ} {X : FVec Ideal ⟨2, ![M, n]⟩ ψ} (h : RowsOf row A X)
    (j : (⟨2, ![m, n]⟩ : Shape).Idx) (i : (⟨2, ![M, n]⟩ : Shape).Idx)
    (h0 : (i 0).val = (row (j 0)).val) (h1 : (i 1).val = (j 1).val) : A j = X i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact h (j 0) (j 1)

/-- The product alone: the block's product with the weights into the zero accumulator holds the rows of the host's
    product of the whole matrix. The weights agree entry by entry; the two dimension records are the plain ones. -/
theorem RowsOf.product {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b)) :
    RowsOf row (matmul D prec A B (constant (F := Ideal) ⟨2, ![m, N]⟩ .f32 0x00000000#32))
      (Host.dotGeneral D' prec' X W) := by
  subst hD hD'
  intro a b
  exact Cert.LibRowBlockDot.matmul_rowBlock_apply prec prec' X W A B row hA hB a b

/-- A bias row added to a block that holds rows of X, through the identity casts and the row broadcast a tiled
    program prints, holds the same rows of the host's X plus the row broadcast down the rows. -/
theorem RowsOf.biasRow {row : Fin m → Fin M}
    {A : FVec Ideal ⟨2, ![m, N]⟩ .f32} {X : FVec Ideal ⟨2, ![M, N]⟩ .f32} (hA : RowsOf row A X)
    {bk bh : FVec Ideal ⟨2, ![1, N]⟩ .f32} (hb : ∀ q, bk (ix2 (0 : Fin 1) q) = bh (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row (addf (shapeCast ⟨2, ![m, N]⟩ A hs) (broadcastTo ⟨2, ![m, N]⟩ (shapeCast ⟨2, ![1, N]⟩ bk hs') hbc))
      (addf X (broadcastInDim ⟨2, ![M, N]⟩ ![0, 1] g bh)) := by
  intro a b
  rw [addf_apply, addf_apply, shapeCast_self, rowDown_apply, Cert.LibBiasRows.rowBcast_apply, hA a b, hb b]

/-- A dense layer with the bias as a one-row matrix: the block's product into the zero accumulator plus the row laid
    along every row of the block, against the host's product of the whole matrix plus the row broadcast down the rows. -/
theorem RowsOf.denseRow {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨2, ![1, N]⟩ .f32} (hb : ∀ q, bk (ix2 (0 : Fin 1) q) = bh (ix2 (0 : Fin 1) q))
    (hs' : (⟨2, ![1, N]⟩ : Shape).ShapeCasts ⟨2, ![1, N]⟩) (hbc : (⟨2, ![1, N]⟩ : Shape).Broadcasts ⟨2, ![m, N]⟩)
    (g : (⟨2, ![1, N]⟩ : Shape).BroadcastsInDim ⟨2, ![M, N]⟩ (![0, 1] : Fin 2 → Fin 2)) :
    RowsOf row
      (addf (matmul D prec A B (constant (F := Ideal) ⟨2, ![m, N]⟩ .f32 0x00000000#32))
        (broadcastTo ⟨2, ![m, N]⟩ (shapeCast ⟨2, ![1, N]⟩ bk hs') hbc))
      (addf (Host.dotGeneral D' prec' X W) (broadcastInDim ⟨2, ![M, N]⟩ ![0, 1] g bh)) := by
  intro a b
  rw [addf_apply, addf_apply, RowsOf.product D hD D' hD' prec prec' hA hB a b, rowDown_apply,
    Cert.LibBiasRows.rowBcast_apply, hb b]

end Cert.LibMlpBlock

end
-- ==== Proof.Region0.lean ====
/-
  The first region of the tiled program: from the node inputs x (100000 rows of 131), three weight matrices with their
  bias rows and the first round's weight matrix Wc it leaves ((tanh (tanh (x·W1 + r1)·W2 + r2))·W3 + r3)·Wc.

  The region runs over ten blocks of 10000 rows. At block t its body sees rows 10000·t … 10000·t + 9999 of x and the
  whole of every parameter, and stores the four products (operands narrowed, which changes nothing on the extended
  reals), the three bias rows and the two hyperbolic tangents applied to that block. Each layer is row-wise: entry
  (a, b) of its result depends on row a of its operand alone, so the stored block's entry (a, b) is entry
  (10000·t + a, b) of the same chain applied to the whole of x. Each block is written back where it came from, the ten
  blocks tile the 100000 rows (row ρ lies in block ρ / 10000), and so the array ends holding the whole-array function
  `Spec.mlp`.
-/
import proofs.«114803_j55138790146121_2_alg».proof.Proof.Gen.KernelIdeal.Frame
import proofs.«114803_j55138790146121_2_alg».proof.Proof.Net
import proofs.«114803_j55138790146121_2_alg».proof.Proof.LibMlpBlock

set_option maxRecDepth 16384
noncomputable section
namespace Cert.KernelIdeal.RegionVal
open Idealize.ShloMosaic Idealize.ShloMosaic.TcCoe Idealize.SL.Sem
open Idealize.ShloMosaic.ValueIdx
open Cert.KernelIdeal Cert.KernelIdeal.Gen
open Idealize.ShloMosaic.Pipeline (Dat Cfg Window)
open Cert.LibRowwise Cert.LibMlpBlock

/-- The perceptron and the first weight product on a block of rows: the body's stored value, of a block holding the
    rows `row` of the node inputs and of the whole weight matrices and bias rows, holds the same rows of
    ((tanh (tanh (x·W1 + r1)·W2 + r2))·W3 + r3)·Wc. -/
theorem mlp_rows (row : Fin 10000 → Fin 100000)
    (A : FVec Ideal S10000x131 .f32) (w1 : FVec Ideal S131x64 .f32) (b1 : FVec Ideal S1x64 .f32)
    (w2 : FVec Ideal S64x32 .f32) (b2 : FVec Ideal S1x32 .f32) (w3 : FVec Ideal S32x16 .f32) (b3 : FVec Ideal S1x16 .f32)
    (wc : FVec Ideal S16x16 .f32)
    (X : FVec Ideal S100000x131 .f32) (W1 : FVec Ideal S131x64 .f32) (r1 : FVec Ideal S1x64 .f32)
    (W2 : FVec Ideal S64x32 .f32) (r2 : FVec Ideal S1x32 .f32) (W3 : FVec Ideal S32x16 .f32) (r3 : FVec Ideal S1x16 .f32)
    (Wc : FVec Ideal S16x16 .f32)
    (hA : RowsOf (φ := .f32) (ψ := .f32) row A X)
    (hW1 : ∀ k q, w1 (ix2 k q) = W1 (ix2 k q)) (hb1 : ∀ q, b1 (ix2 (0 : Fin 1) q) = r1 (ix2 (0 : Fin 1) q))
    (hW2 : ∀ k q, w2 (ix2 k q) = W2 (ix2 k q)) (hb2 : ∀ q, b2 (ix2 (0 : Fin 1) q) = r2 (ix2 (0 : Fin 1) q))
    (hW3 : ∀ k q, w3 (ix2 k q) = W3 (ix2 k q)) (hb3 : ∀ q, b3 (ix2 (0 : Fin 1) q) = r3 (ix2 (0 : Fin 1) q))
    (hWc : ∀ k q, wc (ix2 k q) = Wc (ix2 k q)) :
    RowsOf (φ := .f32) (ψ := .f32) row (k0_pay1 (F := Ideal) A w1 b1 w2 b2 w3 b3 wc)
      (Cert.Spec.mlp X W1 r1 W2 r2 W3 r3 Wc) := by
  unfold k0_pay1 Cert.Spec.mlp
  refine RowsOf.product _ rfl _ rfl none none (RowsOf.truncf ?_ _) hWc
  refine RowsOf.denseRow _ rfl _ rfl none none (RowsOf.truncf ?_ _) hW3 hb3 _ _ _
  refine RowsOf.tanh ?_
  refine RowsOf.denseRow _ rfl _ rfl none none (RowsOf.truncf ?_ _) hW2 hb2 _ _ _
  refine RowsOf.tanh ?_
  exact RowsOf.denseRow _ rfl _ rfl none none (hA.truncf _) hW1 hb1 _ _ _

variable (V : (c : Dev nD) → (b : Ref sig .tc) → Buf (Elt Ideal) ((c : Thread nD τ).loc b))

theorem hz0 : (![0, 0] : Fin 2 → Nat) = fun _ => 0 := funext fun a => by fin_cases a <;> rfl

/-- The printed index maps of the two row-tiled windows over the grid: block row = the grid point, block column 0. -/
theorem idx_rows0 : ∀ t : Fin cfg0.N,
    win0_0.index t (0 : Fin 2) = win0_8.index t (0 : Fin 2) ∧ win0_0.index t (1 : Fin 2) = 0
    ∧ win0_8.index t (1 : Fin 2) = 0 ∧ win0_8.index t (0 : Fin 2) ≤ 9 :=
  (by decide +kernel : ∀ t : Fin grid0.N, _)

/-- The printed index maps of the seven parameter windows over the grid: every one sits at block (0, 0). -/
theorem idx_small0 : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every one of the ten row blocks is some point's. -/
theorem idx_onto0 : ∀ q : Fin 10, ∃ t : Fin cfg0.N, win0_8.index t (0 : Fin 2) = q.val :=
  (by decide +kernel : ∀ q : Fin 10, ∃ t : Fin grid0.N, win0_8.index t (0 : Fin 2) = q.val)

/-- The rows of the whole array that point `t`'s block holds: 10000 rows from 10000 × the block's row index. -/
def rows0 (t : Fin cfg0.N) (a : Fin 10000) : Fin 100000 :=
  ⟨win0_8.index t (0 : Fin 2) * 10000 + a.val, by
    have := (idx_rows0 t).2.2.2; have := a.isLt; omega⟩

/-- The tiled input's block at point `t` holds the rows `rows0 t` of the node inputs. -/
theorem blk0_0 (c : Dev nD) (t : Fin cfg0.N) :
    RowsOf (φ := .f32) (ψ := .f32) (rows0 t) (iblk0 (F := Ideal) V c 0 t) (V c main_arg0) := by
  intro a b
  obtain ⟨e0, e1, -⟩ := idx_rows0 t
  show V c main_arg0 (((cfg0.win 0).blk t).view.emb (ix2 a b)) = V c main_arg0 (ix2 (rows0 t a) b)
  refine congrArg _ (funext fun ax => Fin.ext ?_)
  match ax with
  | ⟨0, _⟩ => show win0_0.index t (0 : Fin 2) * 10000 + 1 * a.val = win0_8.index t (0 : Fin 2) * 10000 + a.val; omega
  | ⟨1, _⟩ => show win0_0.index t (1 : Fin 2) * 131 + 1 * b.val = b.val; omega

/-- Window 1: the weight matrix's block is the whole matrix. -/
theorem blk0_1 (c : Dev nD) (t : Fin cfg0.N) (k : Fin 131) (q : Fin 64) :
    (iblk0 (F := Ideal) V c 1 t : FVec Ideal S131x64 .f32) (ix2 k q) = (V c main_arg2 : FVec Ideal S131x64 .f32) (ix2 k q) := by
  obtain ⟨e0, e1, -, -, -, -, -, -, -, -, -, -, -, -⟩ := idx_small0 t
  show V c main_arg2 (((cfg0.win 1).blk t).view.emb (ix2 k q)) = V c main_arg2 (ix2 k q)
  refine congrArg _ (funext fun ax => Fin.ext ?_)
  match ax with
  | ⟨0, _⟩ => show win0_1.index t (0 : Fin 2) * 131 + 1 * k.val = k.val; omega
  | ⟨1, _⟩ => show win0_1.index t (1 : Fin 2) * 64 + 1 * q.val = q.val; omega

/-- Window 2: the bias row's block is the whole row. -/
theorem blk0_2 (c : Dev nD) (t : Fin cfg0.N) (q : Fin 64) :
    (iblk0 (F := Ideal) V c 2 t : FVec Ideal S1x64 .f32) (ix2 (0 : Fin 1) q) = (V c main_v27 : FVec Ideal S1x64 .f32) (ix2 (0 : Fin 1) q) := by
  obtain ⟨-, -, e0, e1, -, -, -, -, -, -, -, -, -, -⟩ := idx_small0 t
  show V c main_v27 (((cfg0.win 2).blk t).view.emb (ix2 (0 : Fin 1) q)) = V c main_v27 (ix2 (0 : Fin 1) q)
  refine congrArg _ (funext fun ax => Fin.ext ?_)
  match ax with
  | ⟨0, _⟩ => show win0_2.index t (0 : Fin 2) * 1 + 1 * 0 = 0; omega
  | ⟨1, _⟩ => show win0_2.index t (1 : Fin 2) * 64 + 1 * q.val = q.val; omega

/-- Window 3: the weight matrix's block is the whole matrix. -/
theorem blk0_3 (c : Dev nD) (t : Fin cfg0.N) (k : Fin 64) (q : Fin 32) :
    (iblk0 (F := Ideal) V c 3 t : FVec Ideal S64x32 .f32) (ix2 k q) = (V c main_arg4 : FVec Ideal S64x32 .f32) (ix2 k q) := by
  obtain ⟨-, -, -, -, e0, e1, -, -, -, -, -, -, -, -⟩ := idx_small0 t
  show V c main_arg4 (((cfg0.win 3).blk t).view.emb (ix2 k q)) = V c main_arg4 (ix2 k q)
  refine congrArg _ (funext fun ax => Fin.ext ?_)
  match ax with
  | ⟨0, _⟩ => show win0_3.index t (0 : Fin 2) * 64 + 1 * k.val = k.val; omega
  | ⟨1, _⟩ => show win0_3.index t (1 : Fin 2) * 32 + 1 * q.val = q.val; omega

/-- Window 4: the bias row's block is the whole row. -/
theorem blk0_4 (c : Dev nD) (t : Fin cfg0.N) (q : Fin 32) :
    (iblk0 (F := Ideal) V c 4 t : FVec Ideal S1x32 .f32) (ix2 (0 : Fin 1) q) = (V c main_v28 : FVec Ideal S1x32 .f32) (ix2 (0 : Fin 1) q) := by
  obtain ⟨-, -, -, -, -, -, e0, e1, -, -, -, -, -, -⟩ := idx_small0 t
  show V c main_v28 (((cfg0.win 4).blk t).view.emb (ix2 (0 : Fin 1) q)) = V c main_v28 (ix2 (0 : Fin 1) q)
  refine congrArg _ (funext fun ax => Fin.ext ?_)
  match ax with
  | ⟨0, _⟩ => show win0_4.index t (0 : Fin 2) * 1 + 1 * 0 = 0; omega
  | ⟨1, _⟩ => show win0_4.index t (1 : Fin 2) * 32 + 1 * q.val = q.val; omega

/-- Window 5: the weight matrix's block is the whole matrix. -/
theorem blk0_5 (c : Dev nD) (t : Fin cfg0.N) (k : Fin 32) (q : Fin 16) :
    (iblk0 (F := Ideal) V c 5 t : FVec Ideal S32x16 .f32) (ix2 k q) = (V c main_arg6 : FVec Ideal S32x16 .f32) (ix2 k q) := by
  obtain ⟨-, -, -, -, -, -, -, -, e0, e1, -, -, -, -⟩ := idx_small0 t
  show V c main_arg6 (((cfg0.win 5).blk t).view.emb (ix2 k q)) = V c main_arg6 (ix2 k q)
  refine congrArg _ (funext fun ax => Fin.ext ?_)
  match ax with
  | ⟨0, _⟩ => show win0_5.index t (0 : Fin 2) * 32 + 1 * k.val = k.val; omega
  | ⟨1, _⟩ => show win0_5.index t (1 : Fin 2) * 16 + 1 * q.val = q.val; omega

/-- Window 6: the bias row's block is the whole row. -/
theorem blk0_6 (c : Dev nD) (t : Fin cfg0.N) (q : Fin 16) :
    (iblk0 (F := Ideal) V c 6 t : FVec Ideal S1x16 .f32) (ix2 (0 : Fin 1) q) = (V c main_v29 : FVec Ideal S1x16 .f32) (ix2 (0 : Fin 1) q) := by
  obtain ⟨-, -, -, -, -, -, -, -, -, -, e0, e1, -, -⟩ := idx_small0 t
  show V c main_v29 (((cfg0.win 6).blk t).view.emb (ix2 (0 : Fin 1) q)) = V c main_v29 (ix2 (0 : Fin 1) q)
  refine congrArg _ (funext fun ax => Fin.ext ?_)
  match ax with
  | ⟨0, _⟩ => show win0_6.index t (0 : Fin 2) * 1 + 1 * 0 = 0; omega
  | ⟨1, _⟩ => show win0_6.index t (1 : Fin 2) * 16 + 1 * q.val = q.val; omega

/-- Window 7: the weight matrix's block is the whole matrix. -/
theorem blk0_7 (c : Dev nD) (t : Fin cfg0.N) (k : Fin 16) (q : Fin 16) :
    (iblk0 (F := Ideal) V c 7 t : FVec Ideal S16x16 .f32) (ix2 k q) = (V c main_arg8 : FVec Ideal S16x16 .f32) (ix2 k q) := by
  obtain ⟨-, -, -, -, -, -, -, -, -, -, -, -, e0, e1⟩ := idx_small0 t
  show V c main_arg8 (((cfg0.win 7).blk t).view.emb (ix2 k q)) = V c main_arg8 (ix2 k q)
  refine congrArg _ (funext fun ax => Fin.ext ?_)
  match ax with
  | ⟨0, _⟩ => show win0_7.index t (0 : Fin 2) * 16 + 1 * k.val = k.val; omega
  | ⟨1, _⟩ => show win0_7.index t (1 : Fin 2) * 16 + 1 * q.val = q.val; omega

/-- What point `t` writes back is block `t` of the perceptron and first weight product of the whole arrays. -/
theorem flushed0_8_eq (c : Dev nD) (t : Fin cfg0.N) :
    (dat0 (F := Ideal) V c).flushed 8 t
      = ((cfg0.win 8).blk t).view.read (Elt Ideal)
          (Cert.Spec.mlp (V c main_arg0) (V c main_arg2) (V c main_v27) (V c main_arg4) (V c main_v28) (V c main_arg6)
            (V c main_v29) (V c main_arg8)) := by
  show (cfg0.win 8).cut (grid0.coords t) ((dat0 V c).after 8 t) = _
  rw [after0_8]
  unfold out0_8
  rw [View.canon_unit_zero hz0]
  simp only [View.ld_unit_zero (S := S10000x131) hz0, View.ld_unit_zero (S := S131x64) hz0,
    View.ld_unit_zero (S := S1x64) hz0, View.ld_unit_zero (S := S64x32) hz0, View.ld_unit_zero (S := S1x32) hz0,
    View.ld_unit_zero (S := S32x16) hz0, View.ld_unit_zero (S := S1x16) hz0, View.ld_unit_zero (S := S16x16) hz0]
  funext j
  show k0_pay1 (F := Ideal) (iblk0 V c 0 t) (iblk0 V c 1 t) (iblk0 V c 2 t) (iblk0 V c 3 t) (iblk0 V c 4 t)
      (iblk0 V c 5 t) (iblk0 V c 6 t) (iblk0 V c 7 t) j
    = Cert.Spec.mlp (V c main_arg0) (V c main_arg2) (V c main_v27) (V c main_arg4) (V c main_v28) (V c main_arg6)
        (V c main_v29) (V c main_arg8) (((cfg0.win 8).blk t).view.emb j)
  obtain ⟨-, -, e1, -⟩ := idx_rows0 t
  refine RowsOf.entry (mlp_rows (rows0 t) (iblk0 V c 0 t) (iblk0 V c 1 t) (iblk0 V c 2 t) (iblk0 V c 3 t)
    (iblk0 V c 4 t) (iblk0 V c 5 t) (iblk0 V c 6 t) (iblk0 V c 7 t)
    (V c main_arg0) (V c main_arg2) (V c main_v27) (V c main_arg4) (V c main_v28) (V c main_arg6) (V c main_v29)
    (V c main_arg8)
    (blk0_0 V c t) (blk0_1 V c t) (blk0_2 V c t) (blk0_3 V c t) (blk0_4 V c t) (blk0_5 V c t) (blk0_6 V c t)
    (blk0_7 V c t)) j _ ?_ ?_
  · show win0_8.index t (0 : Fin 2) * 10000 + 1 * (j 0).val = win0_8.index t (0 : Fin 2) * 10000 + (j 0).val; omega
  · show win0_8.index t (1 : Fin 2) * 16 + 1 * (j 1).val = (j 1).val; omega

/-- An index of the result array is in point `t`'s block iff each coordinate is in the block's range. -/
theorem mem_blk0_8 (t : Fin cfg0.N) (i : S100000x16.Idx) :
    i ∈ ((cfg0.win 8).blk t).view.set ↔ ∀ a : Fin 2, win0_8.index t a * S10000x16.size a ≤ (i a).val
      ∧ (i a).val < win0_8.index t a * S10000x16.size a + S10000x16.size a := by
  show i ∈ ((View.whole main_v53).slice (win0_8.rect t)).set ↔ _
  rw [View.set_slice_whole, Rect.mem_set_unit]
  exact Iff.rfl

/-- Row r of the result array is written back by the point whose block row is r / 10000. -/
theorem covered0_8 (i : S100000x16.Idx) :
    ∃ t : Fin cfg0.N, (cfg0.win 8).flush t = true ∧ i ∈ ((cfg0.win 8).blk t).view.set := by
  have hi0 : (i 0).val < 100000 := (i 0).isLt
  have hi1 : (i 1).val < 16 := (i 1).isLt
  obtain ⟨t, ht⟩ := idx_onto0 ⟨(i 0).val / 10000, by omega⟩
  have q0 : win0_8.index t (0 : Fin 2) = (i 0).val / 10000 := ht
  obtain ⟨-, -, e1, -⟩ := idx_rows0 t
  refine ⟨t, flush0_8 t, ?_⟩
  rw [mem_blk0_8]
  intro a
  match a with
  | ⟨0, _⟩ => show win0_8.index t (0 : Fin 2) * 10000 ≤ (i 0).val ∧ (i 0).val < win0_8.index t (0 : Fin 2) * 10000 + 10000; omega
  | ⟨1, _⟩ => show win0_8.index t (1 : Fin 2) * 16 ≤ (i 1).val ∧ (i 1).val < win0_8.index t (1 : Fin 2) * 16 + 16; omega

/-- The result array after the region: the perceptron and the first weight product of the node inputs, whole. -/
theorem final0 (c : Dev nD) : (dat0 (F := Ideal) V c).arrAt 8 cfg0.N
    = Cert.Spec.mlp (V c main_arg0) (V c main_arg2) (V c main_v27) (V c main_arg4) (V c main_v28) (V c main_arg6)
        (V c main_v29) (V c main_arg8) :=
  (dat0 V c).arrAt_eq_of_cover 8
    (Cert.Spec.mlp (V c main_arg0) (V c main_arg2) (V c main_v27) (V c main_arg4) (V c main_v28) (V c main_arg6)
      (V c main_v29) (V c main_arg8))
    (fun t _ => flushed0_8_eq V c t) covered0_8

end Cert.KernelIdeal.RegionVal

end
-- ==== Proof.LibStageRows.lean ====
/-
  One stage of a layered network on a block of rows, at the extended reals:

      stage A r W = tanh (A + r) · W       (entry (i, b): Σ_k tanh (A(i,k) + r(0,k)) · W(k,b))

  with the bias r held as a one-row matrix added to every row. Row i of the result depends on row i of A alone (and
  on the whole of r and W), so a tiled program that runs the stage on a block of rows of A — any selection of rows,
  given by a map `row` from the block's row numbers to the matrix's — gets that block of rows of the stage of the
  whole of A. Stated for a kernel's spelling on the block (identity reshapes, the row laid along the block's rows,
  a change of float format before the product, the product accumulated into the zero block) against the host's
  spelling on the whole matrix (the row broadcast down the rows, the plain product). Changes of float format are the
  identity on the extended reals and nothing of real arithmetic is used beyond 0 + x = x, so the statement holds at
  the infinities too. Generic in the extents.
-/
import proofs.«114803_j55138790146121_2_alg».proof.Proof.LibRowwise
import proofs.«114803_j55138790146121_2_alg».proof.Proof.LibBiasRows

noncomputable section

namespace Cert.LibStageRows

open Idealize.ShloMosaic Idealize.ShloMosaic.ValueIdx Cert.LibRowwise

variable {m M K N : Nat}

/-- The bias step on a block of rows: the block plus the row laid along its rows holds the rows of the whole matrix
    plus the row broadcast down its rows. -/
theorem bias_rows {row : Fin m → Fin M} {A : FVec Ideal ⟨2, ![m, K]⟩ .f32} {X : FVec Ideal ⟨2, ![M, K]⟩ .f32}
    (hA : RowsOf row A X) {r R : FVec Ideal ⟨2, ![1, K]⟩ .f32} (hr : ∀ q, r (ix2 (0 : Fin 1) q) = R (ix2 (0 : Fin 1) q))
    (hs : (⟨2, ![m, K]⟩ : Shape).ShapeCasts ⟨2, ![m, K]⟩) (hs' : (⟨2, ![1, K]⟩ : Shape).ShapeCasts ⟨2, ![1, K]⟩)
    (hbc : (⟨2, ![1, K]⟩ : Shape).Broadcasts ⟨2, ![m, K]⟩)
    (g : (⟨2, ![1, K]⟩ : Shape).BroadcastsInDim ⟨2, ![M, K]⟩ (![0, 1] : Fin 2 → Fin 2)) :
    RowsOf row (addf (shapeCast ⟨2, ![m, K]⟩ A hs) (broadcastTo ⟨2, ![m, K]⟩ (shapeCast ⟨2, ![1, K]⟩ r hs') hbc))
      (addf X (broadcastInDim ⟨2, ![M, K]⟩ ![0, 1] g R)) := by
  intro a b
  rw [Cert.LibBiasRows.hostBiasOnly X R g]
  exact Cert.LibBiasRows.biasOnly_rows row X R A r hA hr hs hs' hbc (ix2 a b) (ix2 (row a) b) rfl rfl

/-- The whole stage on a block of rows: tanh (block + row), narrowed, times the narrowed weights into the zero
    accumulator, is the same rows of the host's tanh (matrix + row) times the weights. The two products' dimension
    records are the plain ones. -/
theorem stage_rows {φ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ .f32} {X : FVec Ideal ⟨2, ![M, K]⟩ .f32} (hA : RowsOf row A X)
    {r R : FVec Ideal ⟨2, ![1, K]⟩ .f32} (hr : ∀ q, r (ix2 (0 : Fin 1) q) = R (ix2 (0 : Fin 1) q))
    {w W : FVec Ideal ⟨2, ![K, N]⟩ .f32} (hw : ∀ k b, w (ix2 k b) = W (ix2 k b))
    (hφ : φ.bits < FTy.f32.bits)
    (hs : (⟨2, ![m, K]⟩ : Shape).ShapeCasts ⟨2, ![m, K]⟩) (hs' : (⟨2, ![1, K]⟩ : Shape).ShapeCasts ⟨2, ![1, K]⟩)
    (hbc : (⟨2, ![1, K]⟩ : Shape).Broadcasts ⟨2, ![m, K]⟩)
    (g : (⟨2, ![1, K]⟩ : Shape).BroadcastsInDim ⟨2, ![M, K]⟩ (![0, 1] : Fin 2 → Fin 2)) :
    RowsOf row
      (matmul D prec
        (truncf φ (tanh (addf (shapeCast ⟨2, ![m, K]⟩ A hs) (broadcastTo ⟨2, ![m, K]⟩ (shapeCast ⟨2, ![1, K]⟩ r hs') hbc))) hφ)
        (truncf φ w hφ) (constant (F := Ideal) ⟨2, ![m, N]⟩ .f32 0x00000000#32))
      (Host.dotGeneral D' prec' (Host.tanh (addf X (broadcastInDim ⟨2, ![M, K]⟩ ![0, 1] g R))) W) := by
  subst hD hD'
  intro a b
  exact Cert.LibRowBlockDot.matmul_rowBlock_apply prec prec' _ W _ _ row
    (((bias_rows hA hr hs hs' hbc g).tanh).truncf hφ) hw a b

/-! ## Tiles of rows -/

/-- The zero offsets of a load or store on two axes, however the zeros are spelt. -/
theorem zero_offsets2 : (![0, 0] : Fin 2 → Nat) = fun _ => 0 := funext fun a => by fin_cases a <;> rfl

/-- Row `a` of tile number `k` of a matrix of `M` rows cut into tiles of `n` rows is row `k·n + a` of the matrix. -/
def tileRow (n M k : Nat) (h : (k + 1) * n ≤ M) (a : Fin n) : Fin M :=
  ⟨k * n + a.val, by have := a.isLt; have e : (k + 1) * n = k * n + n := by ring
                     omega⟩

theorem tileRow_val (n M k : Nat) (h : (k + 1) * n ≤ M) (a : Fin n) : (tileRow n M k h a).val = k * n + a.val := rfl

end Cert.LibStageRows

end
-- ==== Proof.Region1.lean ====
/-
  Region 1 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay1_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k1_pay1 (F := Ideal) x0 x1 x2 (ix2 a b) = Cert.Spec.stage A r W (ix2 (row a) b) := by
  unfold k1_pay1 Cert.Spec.stage
  exact Cert.LibStageRows.stage_rows _ rfl _ rfl none none h0 h1 h2 _ _ _ _ _ a b

/-- The printed index maps, decided over the ten tiles: the tile of A read and the tile of the output written are the
    same tile, at most the ninth; the bias row and the weights are read whole. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0
    ∧ win1_3.index t (0 : Fin 2) ≤ 9 :=
  (by decide +kernel : ∀ t : Fin grid1.N, _)

/-- Every one of the ten tiles of the output is written at some point. -/
theorem idx_onto1 : ∀ q : Fin 10, ∃ t : Fin cfg1.N, win1_3.index t (0 : Fin 2) = q.val :=
  (by decide +kernel : ∀ q : Fin 10, ∃ t : Fin grid1.N, win1_3.index t (0 : Fin 2) = q.val)

/-- What point `t` writes back is tile `t` of the stage of the whole arrays as the region finds them. -/
theorem flushed1_eq (c : Dev nD) (t : Fin cfg1.N) :
    (dat1 (F := Ideal) V c).flushed 3 t
      = ((cfg1.win 3).blk t).view.read (Elt Ideal) (Cert.Spec.stage (V c main_v66) (V c main_v30) (V c main_arg8)) := by
  show (cfg1.win 3).cut (grid1.coords t) ((dat1 V c).after 3 t) = _
  rw [after1_3]
  unfold out1_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts1 t
  funext j
  obtain ⟨p, q, rfl⟩ : ∃ (p : Fin 10000) (q : Fin 16), j = ix2 p q := ⟨j 0, j 1, eq_ix2 j⟩
  refine (pay1_rows (tileRow 10000 100000 (win1_3.index t (0 : Fin 2)) (by omega))
    (iblk1 V c 0 t) (iblk1 V c 1 t) (iblk1 V c 2 t) (V c main_v66) (V c main_v30) (V c main_arg8) ?_ ?_ ?_ p q).trans ?_
  · intro a b
    show V c main_v66 (((cfg1.win 0).blk t).view.emb (ix2 a b)) = V c main_v66 _
    refine congrArg _ (funext fun ax => Fin.ext ?_)
    match ax with
    | ⟨0, _⟩ => show win1_0.index t (0 : Fin 2) * 10000 + 1 * a.val = win1_3.index t (0 : Fin 2) * 10000 + a.val; omega
    | ⟨1, _⟩ => show win1_0.index t (1 : Fin 2) * 16 + 1 * b.val = b.val; omega
  · intro b
    show V c main_v30 (((cfg1.win 1).blk t).view.emb (ix2 (0 : Fin 1) b)) = V c main_v30 _
    refine congrArg _ (funext fun ax => Fin.ext ?_)
    match ax with
    | ⟨0, _⟩ => show win1_1.index t (0 : Fin 2) * 1 + 1 * 0 = 0; omega
    | ⟨1, _⟩ => show win1_1.index t (1 : Fin 2) * 16 + 1 * b.val = b.val; omega
  · intro k b
    show V c main_arg8 (((cfg1.win 2).blk t).view.emb (ix2 k b)) = V c main_arg8 _
    refine congrArg _ (funext fun ax => Fin.ext ?_)
    match ax with
    | ⟨0, _⟩ => show win1_2.index t (0 : Fin 2) * 16 + 1 * k.val = k.val; omega
    | ⟨1, _⟩ => show win1_2.index t (1 : Fin 2) * 16 + 1 * b.val = b.val; omega
  · show Cert.Spec.stage (V c main_v66) (V c main_v30) (V c main_arg8) _
      = Cert.Spec.stage (V c main_v66) (V c main_v30) (V c main_arg8) (((cfg1.win 3).blk t).view.emb (ix2 p q))
    refine congrArg _ (funext fun ax => Fin.ext ?_)
    match ax with
    | ⟨0, _⟩ => show win1_3.index t (0 : Fin 2) * 10000 + p.val = win1_3.index t (0 : Fin 2) * 10000 + 1 * p.val; omega
    | ⟨1, _⟩ => show q.val = win1_3.index t (1 : Fin 2) * 16 + 1 * q.val; omega

/-- An index of the output array is in point `t`'s tile iff each coordinate is in the tile's range on its axis. -/
theorem mem_blk1 (t : Fin cfg1.N) (i : S100000x16.Idx) :
    i ∈ ((cfg1.win 3).blk t).view.set
      ↔ ∀ a : Fin 2, win1_3.index t a * S10000x16.size a ≤ (i a).val
          ∧ (i a).val < win1_3.index t a * S10000x16.size a + S10000x16.size a := by
  show i ∈ ((View.whole main_v67).slice (win1_3.rect t)).set ↔ _
  rw [View.set_slice_whole, Rect.mem_set_unit]
  exact Iff.rfl

/-- Every index of the output array is in the tile of the point that handles its row: row r is in tile r / 10000. -/
theorem cover1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto1 ⟨(i 0).val / 10000, by omega⟩
  have q0 : win1_3.index t (0 : Fin 2) = (i 0).val / 10000 := ht
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- The output array after the region: the stage of the arrays as the region finds them. -/
theorem final1 (c : Dev nD) : (dat1 (F := Ideal) V c).arrAt 3 cfg1.N
    = Cert.Spec.stage (V c main_v66) (V c main_v30) (V c main_arg8) :=
  (dat1 (F := Ideal) V c).arrAt_eq_of_cover 3 (Cert.Spec.stage (V c main_v66) (V c main_v30) (V c main_arg8))
    (fun t _ => flushed1_eq V c t) (cover1)

end Cert.KernelIdeal.RegionVal

end
-- ==== Proof.Region2.lean ====
/-
  Region 2 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay2_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k2_pay1 (F := Ideal) x0 x1 x2 (ix2 a b) = Cert.Spec.stage A r W (ix2 (row a) b) := by
  unfold k2_pay1 Cert.Spec.stage
  exact Cert.LibStageRows.stage_rows _ rfl _ rfl none none h0 h1 h2 _ _ _ _ _ a b

/-- The printed index maps, decided over the ten tiles: the tile of A read and the tile of the output written are the
    same tile, at most the ninth; the bias row and the weights are read whole. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0
    ∧ win2_3.index t (0 : Fin 2) ≤ 9 :=
  (by decide +kernel : ∀ t : Fin grid2.N, _)

/-- Every one of the ten tiles of the output is written at some point. -/
theorem idx_onto2 : ∀ q : Fin 10, ∃ t : Fin cfg2.N, win2_3.index t (0 : Fin 2) = q.val :=
  (by decide +kernel : ∀ q : Fin 10, ∃ t : Fin grid2.N, win2_3.index t (0 : Fin 2) = q.val)

/-- What point `t` writes back is tile `t` of the stage of the whole arrays as the region finds them. -/
theorem flushed2_eq (c : Dev nD) (t : Fin cfg2.N) :
    (dat2 (F := Ideal) V c).flushed 3 t
      = ((cfg2.win 3).blk t).view.read (Elt Ideal) (Cert.Spec.stage (V c main_v80) (V c main_v30) (V c main_arg8)) := by
  show (cfg2.win 3).cut (grid2.coords t) ((dat2 V c).after 3 t) = _
  rw [after2_3]
  unfold out2_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts2 t
  funext j
  obtain ⟨p, q, rfl⟩ : ∃ (p : Fin 10000) (q : Fin 16), j = ix2 p q := ⟨j 0, j 1, eq_ix2 j⟩
  refine (pay2_rows (tileRow 10000 100000 (win2_3.index t (0 : Fin 2)) (by omega))
    (iblk2 V c 0 t) (iblk2 V c 1 t) (iblk2 V c 2 t) (V c main_v80) (V c main_v30) (V c main_arg8) ?_ ?_ ?_ p q).trans ?_
  · intro a b
    show V c main_v80 (((cfg2.win 0).blk t).view.emb (ix2 a b)) = V c main_v80 _
    refine congrArg _ (funext fun ax => Fin.ext ?_)
    match ax with
    | ⟨0, _⟩ => show win2_0.index t (0 : Fin 2) * 10000 + 1 * a.val = win2_3.index t (0 : Fin 2) * 10000 + a.val; omega
    | ⟨1, _⟩ => show win2_0.index t (1 : Fin 2) * 16 + 1 * b.val = b.val; omega
  · intro b
    show V c main_v30 (((cfg2.win 1).blk t).view.emb (ix2 (0 : Fin 1) b)) = V c main_v30 _
    refine congrArg _ (funext fun ax => Fin.ext ?_)
    match ax with
    | ⟨0, _⟩ => show win2_1.index t (0 : Fin 2) * 1 + 1 * 0 = 0; omega
    | ⟨1, _⟩ => show win2_1.index t (1 : Fin 2) * 16 + 1 * b.val = b.val; omega
  · intro k b
    show V c main_arg8 (((cfg2.win 2).blk t).view.emb (ix2 k b)) = V c main_arg8 _
    refine congrArg _ (funext fun ax => Fin.ext ?_)
    match ax with
    | ⟨0, _⟩ => show win2_2.index t (0 : Fin 2) * 16 + 1 * k.val = k.val; omega
    | ⟨1, _⟩ => show win2_2.index t (1 : Fin 2) * 16 + 1 * b.val = b.val; omega
  · show Cert.Spec.stage (V c main_v80) (V c main_v30) (V c main_arg8) _
      = Cert.Spec.stage (V c main_v80) (V c main_v30) (V c main_arg8) (((cfg2.win 3).blk t).view.emb (ix2 p q))
    refine congrArg _ (funext fun ax => Fin.ext ?_)
    match ax with
    | ⟨0, _⟩ => show win2_3.index t (0 : Fin 2) * 10000 + p.val = win2_3.index t (0 : Fin 2) * 10000 + 1 * p.val; omega
    | ⟨1, _⟩ => show q.val = win2_3.index t (1 : Fin 2) * 16 + 1 * q.val; omega

/-- An index of the output array is in point `t`'s tile iff each coordinate is in the tile's range on its axis. -/
theorem mem_blk2 (t : Fin cfg2.N) (i : S100000x16.Idx) :
    i ∈ ((cfg2.win 3).blk t).view.set
      ↔ ∀ a : Fin 2, win2_3.index t a * S10000x16.size a ≤ (i a).val
          ∧ (i a).val < win2_3.index t a * S10000x16.size a + S10000x16.size a := by
  show i ∈ ((View.whole main_v81).slice (win2_3.rect t)).set ↔ _
  rw [View.set_slice_whole, Rect.mem_set_unit]
  exact Iff.rfl

/-- Every index of the output array is in the tile of the point that handles its row: row r is in tile r / 10000. -/
theorem cover2 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ := idx_onto2 ⟨(i 0).val / 10000, by omega⟩
  have q0 : win2_3.index t (0 : Fin 2) = (i 0).val / 10000 := ht
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 16 ≤ (i 1).val ∧ (i 1).val < win2_3.index t (1 : Fin 2) * 16 + 16; omega

/-- The output array after the region: the stage of the arrays as the region finds them. -/
theorem final2 (c : Dev nD) : (dat2 (F := Ideal) V c).arrAt 3 cfg2.N
    = Cert.Spec.stage (V c main_v80) (V c main_v30) (V c main_arg8) :=
  (dat2 (F := Ideal) V c).arrAt_eq_of_cover 3 (Cert.Spec.stage (V c main_v80) (V c main_v30) (V c main_arg8))
    (fun t _ => flushed2_eq V c t) (cover2)

end Cert.KernelIdeal.RegionVal

end
-- ==== Proof.Region3.lean ====
/-
  Region 3 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay3_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k3_pay1 (F := Ideal) x0 x1 x2 (ix2 a b) = Cert.Spec.stage A r W (ix2 (row a) b) := by
  unfold k3_pay1 Cert.Spec.stage
  exact Cert.LibStageRows.stage_rows _ rfl _ rfl none none h0 h1 h2 _ _ _ _ _ a b

/-- The printed index maps, decided over the ten tiles: the tile of A read and the tile of the output written are the
    same tile, at most the ninth; the bias row and the weights are read whole. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0
    ∧ win3_3.index t (0 : Fin 2) ≤ 9 :=
  (by decide +kernel : ∀ t : Fin grid3.N, _)

/-- Every one of the ten tiles of the output is written at some point. -/
theorem idx_onto3 : ∀ q : Fin 10, ∃ t : Fin cfg3.N, win3_3.index t (0 : Fin 2) = q.val :=
  (by decide +kernel : ∀ q : Fin 10, ∃ t : Fin grid3.N, win3_3.index t (0 : Fin 2) = q.val)

/-- What point `t` writes back is tile `t` of the stage of the whole arrays as the region finds them. -/
theorem flushed3_eq (c : Dev nD) (t : Fin cfg3.N) :
    (dat3 (F := Ideal) V c).flushed 3 t
      = ((cfg3.win 3).blk t).view.read (Elt Ideal) (Cert.Spec.stage (V c main_v94) (V c main_v30) (V c main_arg8)) := by
  show (cfg3.win 3).cut (grid3.coords t) ((dat3 V c).after 3 t) = _
  rw [after3_3]
  unfold out3_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts3 t
  funext j
  obtain ⟨p, q, rfl⟩ : ∃ (p : Fin 10000) (q : Fin 16), j = ix2 p q := ⟨j 0, j 1, eq_ix2 j⟩
  refine (pay3_rows (tileRow 10000 100000 (win3_3.index t (0 : Fin 2)) (by omega))
    (iblk3 V c 0 t) (iblk3 V c 1 t) (iblk3 V c 2 t) (V c main_v94) (V c main_v30) (V c main_arg8) ?_ ?_ ?_ p q).trans ?_
  · intro a b
    show V c main_v94 (((cfg3.win 0).blk t).view.emb (ix2 a b)) = V c main_v94 _
    refine congrArg _ (funext fun ax => Fin.ext ?_)
    match ax with
    | ⟨0, _⟩ => show win3_0.index t (0 : Fin 2) * 10000 + 1 * a.val = win3_3.index t (0 : Fin 2) * 10000 + a.val; omega
    | ⟨1, _⟩ => show win3_0.index t (1 : Fin 2) * 16 + 1 * b.val = b.val; omega
  · intro b
    show V c main_v30 (((cfg3.win 1).blk t).view.emb (ix2 (0 : Fin 1) b)) = V c main_v30 _
    refine congrArg _ (funext fun ax => Fin.ext ?_)
    match ax with
    | ⟨0, _⟩ => show win3_1.index t (0 : Fin 2) * 1 + 1 * 0 = 0; omega
    | ⟨1, _⟩ => show win3_1.index t (1 : Fin 2) * 16 + 1 * b.val = b.val; omega
  · intro k b
    show V c main_arg8 (((cfg3.win 2).blk t).view.emb (ix2 k b)) = V c main_arg8 _
    refine congrArg _ (funext fun ax => Fin.ext ?_)
    match ax with
    | ⟨0, _⟩ => show win3_2.index t (0 : Fin 2) * 16 + 1 * k.val = k.val; omega
    | ⟨1, _⟩ => show win3_2.index t (1 : Fin 2) * 16 + 1 * b.val = b.val; omega
  · show Cert.Spec.stage (V c main_v94) (V c main_v30) (V c main_arg8) _
      = Cert.Spec.stage (V c main_v94) (V c main_v30) (V c main_arg8) (((cfg3.win 3).blk t).view.emb (ix2 p q))
    refine congrArg _ (funext fun ax => Fin.ext ?_)
    match ax with
    | ⟨0, _⟩ => show win3_3.index t (0 : Fin 2) * 10000 + p.val = win3_3.index t (0 : Fin 2) * 10000 + 1 * p.val; omega
    | ⟨1, _⟩ => show q.val = win3_3.index t (1 : Fin 2) * 16 + 1 * q.val; omega

/-- An index of the output array is in point `t`'s tile iff each coordinate is in the tile's range on its axis. -/
theorem mem_blk3 (t : Fin cfg3.N) (i : S100000x16.Idx) :
    i ∈ ((cfg3.win 3).blk t).view.set
      ↔ ∀ a : Fin 2, win3_3.index t a * S10000x16.size a ≤ (i a).val
          ∧ (i a).val < win3_3.index t a * S10000x16.size a + S10000x16.size a := by
  show i ∈ ((View.whole main_v95).slice (win3_3.rect t)).set ↔ _
  rw [View.set_slice_whole, Rect.mem_set_unit]
  exact Iff.rfl

/-- Every index of the output array is in the tile of the point that handles its row: row r is in tile r / 10000. -/
theorem cover3 (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  obtain ⟨t, ht⟩ := idx_onto3 ⟨(i 0).val / 10000, by omega⟩
  have q0 : win3_3.index t (0 : Fin 2) = (i 0).val / 10000 := ht
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 16 ≤ (i 1).val ∧ (i 1).val < win3_3.index t (1 : Fin 2) * 16 + 16; omega

/-- The output array after the region: the stage of the arrays as the region finds them. -/
theorem final3 (c : Dev nD) : (dat3 (F := Ideal) V c).arrAt 3 cfg3.N
    = Cert.Spec.stage (V c main_v94) (V c main_v30) (V c main_arg8) :=
  (dat3 (F := Ideal) V c).arrAt_eq_of_cover 3 (Cert.Spec.stage (V c main_v94) (V c main_v30) (V c main_arg8))
    (fun t _ => flushed3_eq V c t) (cover3)

end Cert.KernelIdeal.RegionVal

end
-- ==== Proof.Region4.lean ====
/-
  Region 4 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay4_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k4_pay1 (F := Ideal) x0 x1 x2 (ix2 a b) = Cert.Spec.stage A r W (ix2 (row a) b) := by
  unfold k4_pay1 Cert.Spec.stage
  exact Cert.LibStageRows.stage_rows _ rfl _ rfl none none h0 h1 h2 _ _ _ _ _ a b

/-- The printed index maps, decided over the ten tiles: the tile of A read and the tile of the output written are the
    same tile, at most the ninth; the bias row and the weights are read whole. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0
    ∧ win4_3.index t (0 : Fin 2) ≤ 9 :=
  (by decide +kernel : ∀ t : Fin grid4.N, _)

/-- Every one of the ten tiles of the output is written at some point. -/
theorem idx_onto4 : ∀ q : Fin 10, ∃ t : Fin cfg4.N, win4_3.index t (0 : Fin 2) = q.val :=
  (by decide +kernel : ∀ q : Fin 10, ∃ t : Fin grid4.N, win4_3.index t (0 : Fin 2) = q.val)

/-- What point `t` writes back is tile `t` of the stage of the whole arrays as the region finds them. -/
theorem flushed4_eq (c : Dev nD) (t : Fin cfg4.N) :
    (dat4 (F := Ideal) V c).flushed 3 t
      = ((cfg4.win 3).blk t).view.read (Elt Ideal) (Cert.Spec.stage (V c main_v108) (V c main_v30) (V c main_arg8)) := by
  show (cfg4.win 3).cut (grid4.coords t) ((dat4 V c).after 3 t) = _
  rw [after4_3]
  unfold out4_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts4 t
  funext j
  obtain ⟨p, q, rfl⟩ : ∃ (p : Fin 10000) (q : Fin 16), j = ix2 p q := ⟨j 0, j 1, eq_ix2 j⟩
  refine (pay4_rows (tileRow 10000 100000 (win4_3.index t (0 : Fin 2)) (by omega))
    (iblk4 V c 0 t) (iblk4 V c 1 t) (iblk4 V c 2 t) (V c main_v108) (V c main_v30) (V c main_arg8) ?_ ?_ ?_ p q).trans ?_
  · intro a b
    show V c main_v108 (((cfg4.win 0).blk t).view.emb (ix2 a b)) = V c main_v108 _
    refine congrArg _ (funext fun ax => Fin.ext ?_)
    match ax with
    | ⟨0, _⟩ => show win4_0.index t (0 : Fin 2) * 10000 + 1 * a.val = win4_3.index t (0 : Fin 2) * 10000 + a.val; omega
    | ⟨1, _⟩ => show win4_0.index t (1 : Fin 2) * 16 + 1 * b.val = b.val; omega
  · intro b
    show V c main_v30 (((cfg4.win 1).blk t).view.emb (ix2 (0 : Fin 1) b)) = V c main_v30 _
    refine congrArg _ (funext fun ax => Fin.ext ?_)
    match ax with
    | ⟨0, _⟩ => show win4_1.index t (0 : Fin 2) * 1 + 1 * 0 = 0; omega
    | ⟨1, _⟩ => show win4_1.index t (1 : Fin 2) * 16 + 1 * b.val = b.val; omega
  · intro k b
    show V c main_arg8 (((cfg4.win 2).blk t).view.emb (ix2 k b)) = V c main_arg8 _
    refine congrArg _ (funext fun ax => Fin.ext ?_)
    match ax with
    | ⟨0, _⟩ => show win4_2.index t (0 : Fin 2) * 16 + 1 * k.val = k.val; omega
    | ⟨1, _⟩ => show win4_2.index t (1 : Fin 2) * 16 + 1 * b.val = b.val; omega
  · show Cert.Spec.stage (V c main_v108) (V c main_v30) (V c main_arg8) _
      = Cert.Spec.stage (V c main_v108) (V c main_v30) (V c main_arg8) (((cfg4.win 3).blk t).view.emb (ix2 p q))
    refine congrArg _ (funext fun ax => Fin.ext ?_)
    match ax with
    | ⟨0, _⟩ => show win4_3.index t (0 : Fin 2) * 10000 + p.val = win4_3.index t (0 : Fin 2) * 10000 + 1 * p.val; omega
    | ⟨1, _⟩ => show q.val = win4_3.index t (1 : Fin 2) * 16 + 1 * q.val; omega

/-- An index of the output array is in point `t`'s tile iff each coordinate is in the tile's range on its axis. -/
theorem mem_blk4 (t : Fin cfg4.N) (i : S100000x16.Idx) :
    i ∈ ((cfg4.win 3).blk t).view.set
      ↔ ∀ a : Fin 2, win4_3.index t a * S10000x16.size a ≤ (i a).val
          ∧ (i a).val < win4_3.index t a * S10000x16.size a + S10000x16.size a := by
  show i ∈ ((View.whole main_v109).slice (win4_3.rect t)).set ↔ _
  rw [View.set_slice_whole, Rect.mem_set_unit]
  exact Iff.rfl

/-- Every index of the output array is in the tile of the point that handles its row: row r is in tile r / 10000. -/
theorem cover4 (i : S100000x16.Idx) :
    ∃ t : Fin cfg4.N, (cfg4.win 3).flush t = true ∧ i ∈ ((cfg4.win 3).blk t).view.set := by
  have hi0 : (i 0).val < 100000 := (i 0).isLt
  have hi1 : (i 1).val < 16 := (i 1).isLt
  obtain ⟨t, ht⟩ := idx_onto4 ⟨(i 0).val / 10000, by omega⟩
  have q0 : win4_3.index t (0 : Fin 2) = (i 0).val / 10000 := ht
  obtain ⟨e0, e1, e2, e3, e4, e5, e6, e7⟩ := idx_facts4 t
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 16 ≤ (i 1).val ∧ (i 1).val < win4_3.index t (1 : Fin 2) * 16 + 16; omega

/-- The output array after the region: the stage of the arrays as the region finds them. -/
theorem final4 (c : Dev nD) : (dat4 (F := Ideal) V c).arrAt 3 cfg4.N
    = Cert.Spec.stage (V c main_v108) (V c main_v30) (V c main_arg8) :=
  (dat4 (F := Ideal) V c).arrAt_eq_of_cover 3 (Cert.Spec.stage (V c main_v108) (V c main_v30) (V c main_arg8))
    (fun t _ => flushed4_eq V c t) (cover4)

end Cert.KernelIdeal.RegionVal

end
-- ==== Proof.Region5.lean ====
/-
  Region 5 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay5_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k5_pay1 (F := Ideal) x0 x1 x2 (ix2 a b) = Cert.Spec.stage A r W (ix2 (row a) b) := by
  unfold k5_pay1 Cert.Spec.stage
  -- the weights pass through a reshape to their own shape first: the identity
  exact Cert.LibStageRows.stage_rows _ rfl _ rfl none none h0 h1
    (fun k b => by rw [shapeCast_self]; exact h2 k b) _ _ _ _ _ a b

/-- The printed index maps, decided over the ten tiles: the tile of A read and the tile of the output written are the
    same tile, at most the ninth; the bias row and the weights are read whole. -/
theorem idx_facts5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0
    ∧ win5_3.index t (0 : Fin 2) ≤ 9 :=
  (by decide +kernel : ∀ t : Fin grid5.N, _)

/-- Every one of the ten tiles of the output is written at some point. -/
theorem idx_onto5 : ∀ q : Fin 10, ∃ t : Fin cfg5.N, win5_3.index t (0 : Fin 2) = q.val :=
  (by decide +kernel : ∀ q : Fin 10, ∃ t : Fin grid5.N, win5_3.index t (0 : Fin 2) = q.val)

/-- What point `t` writes back is tile `t` of the stage of the whole arrays as the region finds them. -/
theorem flushed5_eq (c : Dev nD) (t : Fin cfg5.N) :
    (dat5 (F := Ideal) V c).flushed 3 t
      = ((cfg5.win 3).blk t).view.read (Elt Ideal) (Cert.Spec.stage (V c main_v122) (V c main_v30) (V c main_v34)) := by
  show (cfg5.win 3).cut (grid5.coords t) ((dat5 V c).after 3 t) = _
  rw [after5_3]
  unfold out5_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts5 t
  funext j
  obtain ⟨p, q, rfl⟩ : ∃ (p : Fin 10000) (q : Fin 16), j = ix2 p q := ⟨j 0, j 1, eq_ix2 j⟩
  refine (pay5_rows (tileRow 10000 100000 (win5_3.index t (0 : Fin 2)) (by omega))
    (iblk5 V c 0 t) (iblk5 V c 1 t) (iblk5 V c 2 t) (V c main_v122) (V c main_v30) (V c main_v34) ?_ ?_ ?_ p q).trans ?_
  · intro a b
    show V c main_v122 (((cfg5.win 0).blk t).view.emb (ix2 a b)) = V c main_v122 _
    refine congrArg _ (funext fun ax => Fin.ext ?_)
    match ax with
    | ⟨0, _⟩ => show win5_0.index t (0 : Fin 2) * 10000 + 1 * a.val = win5_3.index t (0 : Fin 2) * 10000 + a.val; omega
    | ⟨1, _⟩ => show win5_0.index t (1 : Fin 2) * 16 + 1 * b.val = b.val; omega
  · intro b
    show V c main_v30 (((cfg5.win 1).blk t).view.emb (ix2 (0 : Fin 1) b)) = V c main_v30 _
    refine congrArg _ (funext fun ax => Fin.ext ?_)
    match ax with
    | ⟨0, _⟩ => show win5_1.index t (0 : Fin 2) * 1 + 1 * 0 = 0; omega
    | ⟨1, _⟩ => show win5_1.index t (1 : Fin 2) * 16 + 1 * b.val = b.val; omega
  · intro k b
    show V c main_v34 (((cfg5.win 2).blk t).view.emb (ix2 k b)) = V c main_v34 _
    refine congrArg _ (funext fun ax => Fin.ext ?_)
    match ax with
    | ⟨0, _⟩ => show win5_2.index t (0 : Fin 2) * 16 + 1 * k.val = k.val; omega
    | ⟨1, _⟩ => show win5_2.index t (1 : Fin 2) * 16 + 1 * b.val = b.val; omega
  · show Cert.Spec.stage (V c main_v122) (V c main_v30) (V c main_v34) _
      = Cert.Spec.stage (V c main_v122) (V c main_v30) (V c main_v34) (((cfg5.win 3).blk t).view.emb (ix2 p q))
    refine congrArg _ (funext fun ax => Fin.ext ?_)
    match ax with
    | ⟨0, _⟩ => show win5_3.index t (0 : Fin 2) * 10000 + p.val = win5_3.index t (0 : Fin 2) * 10000 + 1 * p.val; omega
    | ⟨1, _⟩ => show q.val = win5_3.index t (1 : Fin 2) * 16 + 1 * q.val; omega

/-- An index of the output array is in point `t`'s tile iff each coordinate is in the tile's range on its axis. -/
theorem mem_blk5 (t : Fin cfg5.N) (i : S100000x16.Idx) :
    i ∈ ((cfg5.win 3).blk t).view.set
      ↔ ∀ a : Fin 2, win5_3.index t a * S10000x16.size a ≤ (i a).val
          ∧ (i a).val < win5_3.index t a * S10000x16.size a + S10000x16.size a := by
  show i ∈ ((View.whole main_v123).slice (win5_3.rect t)).set ↔ _
  rw [View.set_slice_whole, Rect.mem_set_unit]
  exact Iff.rfl

/-- Every index of the output array is in the tile of the point that handles its row: row r is in tile r / 10000. -/
theorem cover5 (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  obtain ⟨t, ht⟩ := idx_onto5 ⟨(i 0).val / 10000, by omega⟩
  have q0 : win5_3.index t (0 : Fin 2) = (i 0).val / 10000 := ht
  obtain ⟨e0, e1, e2, e3, e4, e5, e6, e7⟩ := idx_facts5 t
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 16 ≤ (i 1).val ∧ (i 1).val < win5_3.index t (1 : Fin 2) * 16 + 16; omega

/-- The output array after the region: the stage of the arrays as the region finds them. -/
theorem final5 (c : Dev nD) : (dat5 (F := Ideal) V c).arrAt 3 cfg5.N
    = Cert.Spec.stage (V c main_v122) (V c main_v30) (V c main_v34) :=
  (dat5 (F := Ideal) V c).arrAt_eq_of_cover 3 (Cert.Spec.stage (V c main_v122) (V c main_v30) (V c main_v34))
    (fun t _ => flushed5_eq V c t) (cover5)

end Cert.KernelIdeal.RegionVal

end
-- ==== Proof.Region6.lean ====
/-
  Region 6 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay6_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k6_pay1 (F := Ideal) x0 x1 x2 (ix2 a b) = Cert.Spec.stage A r W (ix2 (row a) b) := by
  unfold k6_pay1 Cert.Spec.stage
  -- the weights pass through a reshape to their own shape first: the identity
  exact Cert.LibStageRows.stage_rows _ rfl _ rfl none none h0 h1
    (fun k b => by rw [shapeCast_self]; exact h2 k b) _ _ _ _ _ a b

/-- The printed index maps, decided over the ten tiles: the tile of A read and the tile of the output written are the
    same tile, at most the ninth; the bias row and the weights are read whole. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0
    ∧ win6_3.index t (0 : Fin 2) ≤ 9 :=
  (by decide +kernel : ∀ t : Fin grid6.N, _)

/-- Every one of the ten tiles of the output is written at some point. -/
theorem idx_onto6 : ∀ q : Fin 10, ∃ t : Fin cfg6.N, win6_3.index t (0 : Fin 2) = q.val :=
  (by decide +kernel : ∀ q : Fin 10, ∃ t : Fin grid6.N, win6_3.index t (0 : Fin 2) = q.val)

/-- What point `t` writes back is tile `t` of the stage of the whole arrays as the region finds them. -/
theorem flushed6_eq (c : Dev nD) (t : Fin cfg6.N) :
    (dat6 (F := Ideal) V c).flushed 3 t
      = ((cfg6.win 3).blk t).view.read (Elt Ideal) (Cert.Spec.stage (V c main_v136) (V c main_v44) (V c main_v36)) := by
  show (cfg6.win 3).cut (grid6.coords t) ((dat6 V c).after 3 t) = _
  rw [after6_3]
  unfold out6_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts6 t
  funext j
  obtain ⟨p, q, rfl⟩ : ∃ (p : Fin 10000) (q : Fin 16), j = ix2 p q := ⟨j 0, j 1, eq_ix2 j⟩
  refine (pay6_rows (tileRow 10000 100000 (win6_3.index t (0 : Fin 2)) (by omega))
    (iblk6 V c 0 t) (iblk6 V c 1 t) (iblk6 V c 2 t) (V c main_v136) (V c main_v44) (V c main_v36) ?_ ?_ ?_ p q).trans ?_
  · intro a b
    show V c main_v136 (((cfg6.win 0).blk t).view.emb (ix2 a b)) = V c main_v136 _
    refine congrArg _ (funext fun ax => Fin.ext ?_)
    match ax with
    | ⟨0, _⟩ => show win6_0.index t (0 : Fin 2) * 10000 + 1 * a.val = win6_3.index t (0 : Fin 2) * 10000 + a.val; omega
    | ⟨1, _⟩ => show win6_0.index t (1 : Fin 2) * 16 + 1 * b.val = b.val; omega
  · intro b
    show V c main_v44 (((cfg6.win 1).blk t).view.emb (ix2 (0 : Fin 1) b)) = V c main_v44 _
    refine congrArg _ (funext fun ax => Fin.ext ?_)
    match ax with
    | ⟨0, _⟩ => show win6_1.index t (0 : Fin 2) * 1 + 1 * 0 = 0; omega
    | ⟨1, _⟩ => show win6_1.index t (1 : Fin 2) * 16 + 1 * b.val = b.val; omega
  · intro k b
    show V c main_v36 (((cfg6.win 2).blk t).view.emb (ix2 k b)) = V c main_v36 _
    refine congrArg _ (funext fun ax => Fin.ext ?_)
    match ax with
    | ⟨0, _⟩ => show win6_2.index t (0 : Fin 2) * 16 + 1 * k.val = k.val; omega
    | ⟨1, _⟩ => show win6_2.index t (1 : Fin 2) * 16 + 1 * b.val = b.val; omega
  · show Cert.Spec.stage (V c main_v136) (V c main_v44) (V c main_v36) _
      = Cert.Spec.stage (V c main_v136) (V c main_v44) (V c main_v36) (((cfg6.win 3).blk t).view.emb (ix2 p q))
    refine congrArg _ (funext fun ax => Fin.ext ?_)
    match ax with
    | ⟨0, _⟩ => show win6_3.index t (0 : Fin 2) * 10000 + p.val = win6_3.index t (0 : Fin 2) * 10000 + 1 * p.val; omega
    | ⟨1, _⟩ => show q.val = win6_3.index t (1 : Fin 2) * 16 + 1 * q.val; omega

/-- An index of the output array is in point `t`'s tile iff each coordinate is in the tile's range on its axis. -/
theorem mem_blk6 (t : Fin cfg6.N) (i : S100000x16.Idx) :
    i ∈ ((cfg6.win 3).blk t).view.set
      ↔ ∀ a : Fin 2, win6_3.index t a * S10000x16.size a ≤ (i a).val
          ∧ (i a).val < win6_3.index t a * S10000x16.size a + S10000x16.size a := by
  show i ∈ ((View.whole main_v137).slice (win6_3.rect t)).set ↔ _
  rw [View.set_slice_whole, Rect.mem_set_unit]
  exact Iff.rfl

/-- Every index of the output array is in the tile of the point that handles its row: row r is in tile r / 10000. -/
theorem cover6 (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  obtain ⟨t, ht⟩ := idx_onto6 ⟨(i 0).val / 10000, by omega⟩
  have q0 : win6_3.index t (0 : Fin 2) = (i 0).val / 10000 := ht
  obtain ⟨e0, e1, e2, e3, e4, e5, e6, e7⟩ := idx_facts6 t
  refine ⟨t, flush6_3 t, ?_⟩
  rw [mem_blk6]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 16 ≤ (i 1).val ∧ (i 1).val < win6_3.index t (1 : Fin 2) * 16 + 16; omega

/-- The output array after the region: the stage of the arrays as the region finds them. -/
theorem final6 (c : Dev nD) : (dat6 (F := Ideal) V c).arrAt 3 cfg6.N
    = Cert.Spec.stage (V c main_v136) (V c main_v44) (V c main_v36) :=
  (dat6 (F := Ideal) V c).arrAt_eq_of_cover 3 (Cert.Spec.stage (V c main_v136) (V c main_v44) (V c main_v36))
    (fun t _ => flushed6_eq V c t) (cover6)

end Cert.KernelIdeal.RegionVal

end
-- ==== Proof.Region7.lean ====
/-
  Region 7 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay7_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k7_pay1 (F := Ideal) x0 x1 x2 (ix2 a b) = Cert.Spec.stage A r W (ix2 (row a) b) := by
  unfold k7_pay1 Cert.Spec.stage
  -- the weights pass through a reshape to their own shape first: the identity
  exact Cert.LibStageRows.stage_rows _ rfl _ rfl none none h0 h1
    (fun k b => by rw [shapeCast_self]; exact h2 k b) _ _ _ _ _ a b

/-- The printed index maps, decided over the ten tiles: the tile of A read and the tile of the output written are the
    same tile, at most the ninth; the bias row and the weights are read whole. -/
theorem idx_facts7 : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0
    ∧ win7_3.index t (0 : Fin 2) ≤ 9 :=
  (by decide +kernel : ∀ t : Fin grid7.N, _)

/-- Every one of the ten tiles of the output is written at some point. -/
theorem idx_onto7 : ∀ q : Fin 10, ∃ t : Fin cfg7.N, win7_3.index t (0 : Fin 2) = q.val :=
  (by decide +kernel : ∀ q : Fin 10, ∃ t : Fin grid7.N, win7_3.index t (0 : Fin 2) = q.val)

/-- What point `t` writes back is tile `t` of the stage of the whole arrays as the region finds them. -/
theorem flushed7_eq (c : Dev nD) (t : Fin cfg7.N) :
    (dat7 (F := Ideal) V c).flushed 3 t
      = ((cfg7.win 3).blk t).view.read (Elt Ideal) (Cert.Spec.stage (V c main_v150) (V c main_v46) (V c main_v38)) := by
  show (cfg7.win 3).cut (grid7.coords t) ((dat7 V c).after 3 t) = _
  rw [after7_3]
  unfold out7_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts7 t
  funext j
  obtain ⟨p, q, rfl⟩ : ∃ (p : Fin 10000) (q : Fin 16), j = ix2 p q := ⟨j 0, j 1, eq_ix2 j⟩
  refine (pay7_rows (tileRow 10000 100000 (win7_3.index t (0 : Fin 2)) (by omega))
    (iblk7 V c 0 t) (iblk7 V c 1 t) (iblk7 V c 2 t) (V c main_v150) (V c main_v46) (V c main_v38) ?_ ?_ ?_ p q).trans ?_
  · intro a b
    show V c main_v150 (((cfg7.win 0).blk t).view.emb (ix2 a b)) = V c main_v150 _
    refine congrArg _ (funext fun ax => Fin.ext ?_)
    match ax with
    | ⟨0, _⟩ => show win7_0.index t (0 : Fin 2) * 10000 + 1 * a.val = win7_3.index t (0 : Fin 2) * 10000 + a.val; omega
    | ⟨1, _⟩ => show win7_0.index t (1 : Fin 2) * 16 + 1 * b.val = b.val; omega
  · intro b
    show V c main_v46 (((cfg7.win 1).blk t).view.emb (ix2 (0 : Fin 1) b)) = V c main_v46 _
    refine congrArg _ (funext fun ax => Fin.ext ?_)
    match ax with
    | ⟨0, _⟩ => show win7_1.index t (0 : Fin 2) * 1 + 1 * 0 = 0; omega
    | ⟨1, _⟩ => show win7_1.index t (1 : Fin 2) * 16 + 1 * b.val = b.val; omega
  · intro k b
    show V c main_v38 (((cfg7.win 2).blk t).view.emb (ix2 k b)) = V c main_v38 _
    refine congrArg _ (funext fun ax => Fin.ext ?_)
    match ax with
    | ⟨0, _⟩ => show win7_2.index t (0 : Fin 2) * 16 + 1 * k.val = k.val; omega
    | ⟨1, _⟩ => show win7_2.index t (1 : Fin 2) * 16 + 1 * b.val = b.val; omega
  · show Cert.Spec.stage (V c main_v150) (V c main_v46) (V c main_v38) _
      = Cert.Spec.stage (V c main_v150) (V c main_v46) (V c main_v38) (((cfg7.win 3).blk t).view.emb (ix2 p q))
    refine congrArg _ (funext fun ax => Fin.ext ?_)
    match ax with
    | ⟨0, _⟩ => show win7_3.index t (0 : Fin 2) * 10000 + p.val = win7_3.index t (0 : Fin 2) * 10000 + 1 * p.val; omega
    | ⟨1, _⟩ => show q.val = win7_3.index t (1 : Fin 2) * 16 + 1 * q.val; omega

/-- An index of the output array is in point `t`'s tile iff each coordinate is in the tile's range on its axis. -/
theorem mem_blk7 (t : Fin cfg7.N) (i : S100000x16.Idx) :
    i ∈ ((cfg7.win 3).blk t).view.set
      ↔ ∀ a : Fin 2, win7_3.index t a * S10000x16.size a ≤ (i a).val
          ∧ (i a).val < win7_3.index t a * S10000x16.size a + S10000x16.size a := by
  show i ∈ ((View.whole main_v151).slice (win7_3.rect t)).set ↔ _
  rw [View.set_slice_whole, Rect.mem_set_unit]
  exact Iff.rfl

/-- Every index of the output array is in the tile of the point that handles its row: row r is in tile r / 10000. -/
theorem cover7 (i : S100000x16.Idx) :
    ∃ t : Fin cfg7.N, (cfg7.win 3).flush t = true ∧ i ∈ ((cfg7.win 3).blk t).view.set := by
  have hi0 : (i 0).val < 100000 := (i 0).isLt
  have hi1 : (i 1).val < 16 := (i 1).isLt
  obtain ⟨t, ht⟩ := idx_onto7 ⟨(i 0).val / 10000, by omega⟩
  have q0 : win7_3.index t (0 : Fin 2) = (i 0).val / 10000 := ht
  obtain ⟨e0, e1, e2, e3, e4, e5, e6, e7⟩ := idx_facts7 t
  refine ⟨t, flush7_3 t, ?_⟩
  rw [mem_blk7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 16 ≤ (i 1).val ∧ (i 1).val < win7_3.index t (1 : Fin 2) * 16 + 16; omega

/-- The output array after the region: the stage of the arrays as the region finds them. -/
theorem final7 (c : Dev nD) : (dat7 (F := Ideal) V c).arrAt 3 cfg7.N
    = Cert.Spec.stage (V c main_v150) (V c main_v46) (V c main_v38) :=
  (dat7 (F := Ideal) V c).arrAt_eq_of_cover 3 (Cert.Spec.stage (V c main_v150) (V c main_v46) (V c main_v38))
    (fun t _ => flushed7_eq V c t) (cover7)

end Cert.KernelIdeal.RegionVal

end
-- ==== Proof.Region8.lean ====
/-
  Region 8 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay8_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k8_pay1 (F := Ideal) x0 x1 x2 (ix2 a b) = Cert.Spec.stage A r W (ix2 (row a) b) := by
  unfold k8_pay1 Cert.Spec.stage
  -- the weights pass through a reshape to their own shape first: the identity
  exact Cert.LibStageRows.stage_rows _ rfl _ rfl none none h0 h1
    (fun k b => by rw [shapeCast_self]; exact h2 k b) _ _ _ _ _ a b

/-- The printed index maps, decided over the ten tiles: the tile of A read and the tile of the output written are the
    same tile, at most the ninth; the bias row and the weights are read whole. -/
theorem idx_facts8 : ∀ t : Fin cfg8.N, win8_0.index t (0 : Fin 2) = win8_3.index t (0 : Fin 2)
    ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0
    ∧ win8_3.index t (0 : Fin 2) ≤ 9 :=
  (by decide +kernel : ∀ t : Fin grid8.N, _)

/-- Every one of the ten tiles of the output is written at some point. -/
theorem idx_onto8 : ∀ q : Fin 10, ∃ t : Fin cfg8.N, win8_3.index t (0 : Fin 2) = q.val :=
  (by decide +kernel : ∀ q : Fin 10, ∃ t : Fin grid8.N, win8_3.index t (0 : Fin 2) = q.val)

/-- What point `t` writes back is tile `t` of the stage of the whole arrays as the region finds them. -/
theorem flushed8_eq (c : Dev nD) (t : Fin cfg8.N) :
    (dat8 (F := Ideal) V c).flushed 3 t
      = ((cfg8.win 3).blk t).view.read (Elt Ideal) (Cert.Spec.stage (V c main_v164) (V c main_v48) (V c main_v40)) := by
  show (cfg8.win 3).cut (grid8.coords t) ((dat8 V c).after 3 t) = _
  rw [after8_3]
  unfold out8_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts8 t
  funext j
  obtain ⟨p, q, rfl⟩ : ∃ (p : Fin 10000) (q : Fin 16), j = ix2 p q := ⟨j 0, j 1, eq_ix2 j⟩
  refine (pay8_rows (tileRow 10000 100000 (win8_3.index t (0 : Fin 2)) (by omega))
    (iblk8 V c 0 t) (iblk8 V c 1 t) (iblk8 V c 2 t) (V c main_v164) (V c main_v48) (V c main_v40) ?_ ?_ ?_ p q).trans ?_
  · intro a b
    show V c main_v164 (((cfg8.win 0).blk t).view.emb (ix2 a b)) = V c main_v164 _
    refine congrArg _ (funext fun ax => Fin.ext ?_)
    match ax with
    | ⟨0, _⟩ => show win8_0.index t (0 : Fin 2) * 10000 + 1 * a.val = win8_3.index t (0 : Fin 2) * 10000 + a.val; omega
    | ⟨1, _⟩ => show win8_0.index t (1 : Fin 2) * 16 + 1 * b.val = b.val; omega
  · intro b
    show V c main_v48 (((cfg8.win 1).blk t).view.emb (ix2 (0 : Fin 1) b)) = V c main_v48 _
    refine congrArg _ (funext fun ax => Fin.ext ?_)
    match ax with
    | ⟨0, _⟩ => show win8_1.index t (0 : Fin 2) * 1 + 1 * 0 = 0; omega
    | ⟨1, _⟩ => show win8_1.index t (1 : Fin 2) * 16 + 1 * b.val = b.val; omega
  · intro k b
    show V c main_v40 (((cfg8.win 2).blk t).view.emb (ix2 k b)) = V c main_v40 _
    refine congrArg _ (funext fun ax => Fin.ext ?_)
    match ax with
    | ⟨0, _⟩ => show win8_2.index t (0 : Fin 2) * 16 + 1 * k.val = k.val; omega
    | ⟨1, _⟩ => show win8_2.index t (1 : Fin 2) * 16 + 1 * b.val = b.val; omega
  · show Cert.Spec.stage (V c main_v164) (V c main_v48) (V c main_v40) _
      = Cert.Spec.stage (V c main_v164) (V c main_v48) (V c main_v40) (((cfg8.win 3).blk t).view.emb (ix2 p q))
    refine congrArg _ (funext fun ax => Fin.ext ?_)
    match ax with
    | ⟨0, _⟩ => show win8_3.index t (0 : Fin 2) * 10000 + p.val = win8_3.index t (0 : Fin 2) * 10000 + 1 * p.val; omega
    | ⟨1, _⟩ => show q.val = win8_3.index t (1 : Fin 2) * 16 + 1 * q.val; omega

/-- An index of the output array is in point `t`'s tile iff each coordinate is in the tile's range on its axis. -/
theorem mem_blk8 (t : Fin cfg8.N) (i : S100000x16.Idx) :
    i ∈ ((cfg8.win 3).blk t).view.set
      ↔ ∀ a : Fin 2, win8_3.index t a * S10000x16.size a ≤ (i a).val
          ∧ (i a).val < win8_3.index t a * S10000x16.size a + S10000x16.size a := by
  show i ∈ ((View.whole main_v165).slice (win8_3.rect t)).set ↔ _
  rw [View.set_slice_whole, Rect.mem_set_unit]
  exact Iff.rfl

/-- Every index of the output array is in the tile of the point that handles its row: row r is in tile r / 10000. -/
theorem cover8 (i : S100000x16.Idx) :
    ∃ t : Fin cfg8.N, (cfg8.win 3).flush t = true ∧ i ∈ ((cfg8.win 3).blk t).view.set := by
  have hi0 : (i 0).val < 100000 := (i 0).isLt
  have hi1 : (i 1).val < 16 := (i 1).isLt
  obtain ⟨t, ht⟩ := idx_onto8 ⟨(i 0).val / 10000, by omega⟩
  have q0 : win8_3.index t (0 : Fin 2) = (i 0).val / 10000 := ht
  obtain ⟨e0, e1, e2, e3, e4, e5, e6, e7⟩ := idx_facts8 t
  refine ⟨t, flush8_3 t, ?_⟩
  rw [mem_blk8]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 16 ≤ (i 1).val ∧ (i 1).val < win8_3.index t (1 : Fin 2) * 16 + 16; omega

/-- The output array after the region: the stage of the arrays as the region finds them. -/
theorem final8 (c : Dev nD) : (dat8 (F := Ideal) V c).arrAt 3 cfg8.N
    = Cert.Spec.stage (V c main_v164) (V c main_v48) (V c main_v40) :=
  (dat8 (F := Ideal) V c).arrAt_eq_of_cover 3 (Cert.Spec.stage (V c main_v164) (V c main_v48) (V c main_v40))
    (fun t _ => flushed8_eq V c t) (cover8)

end Cert.KernelIdeal.RegionVal

end
-- ==== Proof.Region9.lean ====
/-
  Region 9 of the kernel: one stage of the network, tanh (A + r) · W, computed tile by tile.

  The region walks over the 100000 rows of A in ten tiles of 10000 rows. At tile t it reads rows 10000·t … 10000·t + 9999
  of A, the whole bias row r and the whole weight matrix W, computes the stage on the tile, and writes the result to the
  same rows of the output. Since row i of the stage depends on row i of A alone, each tile written is that tile of the
  stage of the whole of A; the ten tiles cover every row, so the output array ends as the stage of the whole of A.
-/
import proofs.«114803_j55138790146121_2_alg».proof.Proof.Gen.KernelIdeal.Frame
import proofs.«114803_j55138790146121_2_alg».proof.Proof.Net
import proofs.«114803_j55138790146121_2_alg».proof.Proof.LibStageRows

set_option maxRecDepth 16384

noncomputable section

namespace Cert.KernelIdeal.RegionVal

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibStageRows (zero_offsets2 tileRow tileRow_val)

variable (V : (c : Dev nD) → (b : Ref sig .tc) → Buf (Elt Ideal) ((c : Thread nD τ).loc b))

/-- The body's arithmetic on a tile: if the first operand holds the rows `row` of `A` and the other two are the bias
    row and the weights entry by entry, the result at (a, b) is the stage of the whole of `A` at (`row a`, b). -/
theorem pay9_rows (row : Fin 10000 → Fin 100000)
    (x0 : Vec Ideal S10000x16 .f32) (x1 : Vec Ideal S1x16 .f32) (x2 : Vec Ideal S16x16 .f32)
    (A : Cert.Spec.M16) (r : FVec Ideal Cert.ReferenceIdeal.S1x16 .f32) (W : FVec Ideal Cert.ReferenceIdeal.S16x16 .f32)
    (h0 : ∀ a b, x0 (ix2 a b) = A (ix2 (row a) b))
    (h1 : ∀ q, x1 (ix2 (0 : Fin 1) q) = r (ix2 (0 : Fin 1) q))
    (h2 : ∀ k b, x2 (ix2 k b) = W (ix2 k b)) (a : Fin 10000) (b : Fin 16) :
    k9_pay1 (F := Ideal) x0 x1 x2 (ix2 a b) = Cert.Spec.stage A r W (ix2 (row a) b) := by
  unfold k9_pay1 Cert.Spec.stage
  -- the weights pass through a reshape to their own shape first: the identity
  exact Cert.LibStageRows.stage_rows _ rfl _ rfl none none h0 h1
    (fun k b => by rw [shapeCast_self]; exact h2 k b) _ _ _ _ _ a b

/-- The printed index maps, decided over the ten tiles: the tile of A read and the tile of the output written are the
    same tile, at most the ninth; the bias row and the weights are read whole. -/
theorem idx_facts9 : ∀ t : Fin cfg9.N, win9_0.index t (0 : Fin 2) = win9_3.index t (0 : Fin 2)
    ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (1 : Fin 2) = 0
    ∧ win9_3.index t (0 : Fin 2) ≤ 9 :=
  (by decide +kernel : ∀ t : Fin grid9.N, _)

/-- Every one of the ten tiles of the output is written at some point. -/
theorem idx_onto9 : ∀ q : Fin 10, ∃ t : Fin cfg9.N, win9_3.index t (0 : Fin 2) = q.val :=
  (by decide +kernel : ∀ q : Fin 10, ∃ t : Fin grid9.N, win9_3.index t (0 : Fin 2) = q.val)

/-- What point `t` writes back is tile `t` of the stage of the whole arrays as the region finds them. -/
theorem flushed9_eq (c : Dev nD) (t : Fin cfg9.N) :
    (dat9 (F := Ideal) V c).flushed 3 t
      = ((cfg9.win 3).blk t).view.read (Elt Ideal) (Cert.Spec.stage (V c main_v178) (V c main_v50) (V c main_v42)) := by
  show (cfg9.win 3).cut (grid9.coords t) ((dat9 V c).after 3 t) = _
  rw [after9_3]
  unfold out9_3
  rw [View.canon_unit_zero zero_offsets2]
  simp only [View.ld_unit_zero (S := S10000x16) zero_offsets2, View.ld_unit_zero (S := S1x16) zero_offsets2,
    View.ld_unit_zero (S := S16x16) zero_offsets2]
  obtain ⟨e0, e1, e2, e3, e4, e5, e6, e7⟩ := idx_facts9 t
  funext j
  obtain ⟨p, q, rfl⟩ : ∃ (p : Fin 10000) (q : Fin 16), j = ix2 p q := ⟨j 0, j 1, eq_ix2 j⟩
  refine (pay9_rows (tileRow 10000 100000 (win9_3.index t (0 : Fin 2)) (by omega))
    (iblk9 V c 0 t) (iblk9 V c 1 t) (iblk9 V c 2 t) (V c main_v178) (V c main_v50) (V c main_v42) ?_ ?_ ?_ p q).trans ?_
  · intro a b
    show V c main_v178 (((cfg9.win 0).blk t).view.emb (ix2 a b)) = V c main_v178 _
    refine congrArg _ (funext fun ax => Fin.ext ?_)
    match ax with
    | ⟨0, _⟩ => show win9_0.index t (0 : Fin 2) * 10000 + 1 * a.val = win9_3.index t (0 : Fin 2) * 10000 + a.val; omega
    | ⟨1, _⟩ => show win9_0.index t (1 : Fin 2) * 16 + 1 * b.val = b.val; omega
  · intro b
    show V c main_v50 (((cfg9.win 1).blk t).view.emb (ix2 (0 : Fin 1) b)) = V c main_v50 _
    refine congrArg _ (funext fun ax => Fin.ext ?_)
    match ax with
    | ⟨0, _⟩ => show win9_1.index t (0 : Fin 2) * 1 + 1 * 0 = 0; omega
    | ⟨1, _⟩ => show win9_1.index t (1 : Fin 2) * 16 + 1 * b.val = b.val; omega
  · intro k b
    show V c main_v42 (((cfg9.win 2).blk t).view.emb (ix2 k b)) = V c main_v42 _
    refine congrArg _ (funext fun ax => Fin.ext ?_)
    match ax with
    | ⟨0, _⟩ => show win9_2.index t (0 : Fin 2) * 16 + 1 * k.val = k.val; omega
    | ⟨1, _⟩ => show win9_2.index t (1 : Fin 2) * 16 + 1 * b.val = b.val; omega
  · show Cert.Spec.stage (V c main_v178) (V c main_v50) (V c main_v42) _
      = Cert.Spec.stage (V c main_v178) (V c main_v50) (V c main_v42) (((cfg9.win 3).blk t).view.emb (ix2 p q))
    refine congrArg _ (funext fun ax => Fin.ext ?_)
    match ax with
    | ⟨0, _⟩ => show win9_3.index t (0 : Fin 2) * 10000 + p.val = win9_3.index t (0 : Fin 2) * 10000 + 1 * p.val; omega
    | ⟨1, _⟩ => show q.val = win9_3.index t (1 : Fin 2) * 16 + 1 * q.val; omega

/-- An index of the output array is in point `t`'s tile iff each coordinate is in the tile's range on its axis. -/
theorem mem_blk9 (t : Fin cfg9.N) (i : S100000x16.Idx) :
    i ∈ ((cfg9.win 3).blk t).view.set
      ↔ ∀ a : Fin 2, win9_3.index t a * S10000x16.size a ≤ (i a).val
          ∧ (i a).val < win9_3.index t a * S10000x16.size a + S10000x16.size a := by
  show i ∈ ((View.whole main_v179).slice (win9_3.rect t)).set ↔ _
  rw [View.set_slice_whole, Rect.mem_set_unit]
  exact Iff.rfl

/-- Every index of the output array is in the tile of the point that handles its row: row r is in tile r / 10000. -/
theorem cover9 (i : S100000x16.Idx) :
    ∃ t : Fin cfg9.N, (cfg9.win 3).flush t = true ∧ i ∈ ((cfg9.win 3).blk t).view.set := by
  have hi0 : (i 0).val < 100000 := (i 0).isLt
  have hi1 : (i 1).val < 16 := (i 1).isLt
  obtain ⟨t, ht⟩ := idx_onto9 ⟨(i 0).val / 10000, by omega⟩
  have q0 : win9_3.index t (0 : Fin 2) = (i 0).val / 10000 := ht
  obtain ⟨e0, e1, e2, e3, e4, e5, e6, e7⟩ := idx_facts9 t
  refine ⟨t, flush9_3 t, ?_⟩
  rw [mem_blk9]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 16 ≤ (i 1).val ∧ (i 1).val < win9_3.index t (1 : Fin 2) * 16 + 16; omega

/-- The output array after the region: the stage of the arrays as the region finds them. -/
theorem final9 (c : Dev nD) : (dat9 (F := Ideal) V c).arrAt 3 cfg9.N
    = Cert.Spec.stage (V c main_v178) (V c main_v50) (V c main_v42) :=
  (dat9 (F := Ideal) V c).arrAt_eq_of_cover 3 (Cert.Spec.stage (V c main_v178) (V c main_v50) (V c main_v42))
    (fun t _ => flushed9_eq V c t) (cover9)

end Cert.KernelIdeal.RegionVal

end
-- ==== Proof.Region10.lean ====
/-
  The last region of the tiled program: from the last round's sums A (100000 rows of 16) and a bias row r it leaves the
  node features h = tanh (A + r) in one array and the two output columns h · Wcls + rc in another.

  The region runs over ten blocks of 10000 rows. At block t its body sees rows 10000·t … 10000·t + 9999 of A and the
  whole of r, Wcls and rc, and stores tanh (block + r) and (that, narrowed) · Wcls + rc. Both are row-wise: entry (a, b)
  of what is stored depends on row a of the block alone, so it is entry (10000·t + a, b) of the same formula applied
  to the whole of A. Each block is written back where it came from, the ten blocks tile the 100000 rows (row ρ lies in
  block ρ / 10000), and so the two arrays end holding the whole-array functions `Spec.lastH` and `Spec.lastOut`.
-/
import proofs.«114803_j55138790146121_2_alg».proof.Proof.Gen.KernelIdeal.Frame
import proofs.«114803_j55138790146121_2_alg».proof.Proof.Net
import proofs.«114803_j55138790146121_2_alg».proof.Proof.LibMlpBlock

set_option maxRecDepth 16384
noncomputable section
namespace Cert.KernelIdeal.RegionVal
open Idealize.ShloMosaic Idealize.ShloMosaic.TcCoe Idealize.SL.Sem
open Idealize.ShloMosaic.ValueIdx
open Cert.KernelIdeal Cert.KernelIdeal.Gen
open Idealize.ShloMosaic.Pipeline (Dat Cfg Window)
open Cert.LibRowwise Cert.LibMlpBlock

/-- The last node features on a block of rows: the body's first stored value, of a block holding the rows `row` of
    the sums and of the bias row, holds the same rows of tanh (sums + bias row). -/
theorem lastH_rows (row : Fin 10000 → Fin 100000) (A : FVec Ideal S10000x16 .f32) (b : FVec Ideal S1x16 .f32)
    (X : FVec Ideal S100000x16 .f32) (r : FVec Ideal S1x16 .f32)
    (hA : RowsOf (φ := .f32) (ψ := .f32) row A X) (hb : ∀ q, b (ix2 (0 : Fin 1) q) = r (ix2 (0 : Fin 1) q)) :
    RowsOf (φ := .f32) (ψ := .f32) row (k10_pay1 (F := Ideal) A b) (Cert.Spec.lastH X r) := by
  unfold k10_pay1 Cert.Spec.lastH
  exact (RowsOf.biasRow hA hb _ _ _ _).tanh

/-- The two output columns on a block of rows: the body's second stored value holds the same rows of
    tanh (sums + bias row) · weights + second bias row. -/
theorem lastOut_rows (row : Fin 10000 → Fin 100000) (A : FVec Ideal S10000x16 .f32) (b : FVec Ideal S1x16 .f32)
    (W : FVec Ideal S16x2 .f32) (bc : FVec Ideal S1x2 .f32)
    (X : FVec Ideal S100000x16 .f32) (r : FVec Ideal S1x16 .f32) (Wh : FVec Ideal S16x2 .f32) (rc : FVec Ideal S1x2 .f32)
    (hA : RowsOf (φ := .f32) (ψ := .f32) row A X) (hb : ∀ q, b (ix2 (0 : Fin 1) q) = r (ix2 (0 : Fin 1) q))
    (hW : ∀ c q, W (ix2 c q) = Wh (ix2 c q)) (hbc : ∀ q, bc (ix2 (0 : Fin 1) q) = rc (ix2 (0 : Fin 1) q)) :
    RowsOf (φ := .f32) (ψ := .f32) row (k10_pay2 (F := Ideal) A b W bc) (Cert.Spec.lastOut (Cert.Spec.lastH X r) Wh rc) := by
  unfold k10_pay2 Cert.Spec.lastOut
  exact RowsOf.denseRow _ rfl _ rfl none none ((lastH_rows row A b X r hA hb).truncf _) hW hbc _ _ _

variable (V : (c : Dev nD) → (b : Ref sig .tc) → Buf (Elt Ideal) ((c : Thread nD τ).loc b))

theorem hz10 : (![0, 0] : Fin 2 → Nat) = fun _ => 0 := funext fun a => by fin_cases a <;> rfl

/-- The printed index maps over the grid: the three row-tiled windows sit at block row = the grid point, block column
    0; the small windows at block (0, 0). -/
theorem idx_facts10 : ∀ t : Fin cfg10.N,
    win10_0.index t (0 : Fin 2) = win10_4.index t (0 : Fin 2) ∧ win10_0.index t (1 : Fin 2) = 0
    ∧ win10_5.index t (0 : Fin 2) = win10_4.index t (0 : Fin 2)
    ∧ win10_4.index t (1 : Fin 2) = 0 ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) ≤ 9 :=
  (by decide +kernel : ∀ t : Fin grid10.N, _)

/-- Every one of the ten row blocks is some point's. -/
theorem idx_onto10 : ∀ q : Fin 10, ∃ t : Fin cfg10.N, win10_4.index t (0 : Fin 2) = q.val :=
  (by decide +kernel : ∀ q : Fin 10, ∃ t : Fin grid10.N, win10_4.index t (0 : Fin 2) = q.val)

/-- The rows of the whole array that point `t`'s block holds: 10000 rows from 10000 × the block's row index. -/
def rows10 (t : Fin cfg10.N) (a : Fin 10000) : Fin 100000 :=
  ⟨win10_4.index t (0 : Fin 2) * 10000 + a.val, by
    have := (idx_facts10 t).2.2.2.2.2.2.2.2.2.2.2; have := a.isLt; omega⟩

/-- The tiled input's block at point `t` holds the rows `rows10 t` of the sums. -/
theorem blk10_0 (c : Dev nD) (t : Fin cfg10.N) :
    RowsOf (φ := .f32) (ψ := .f32) (rows10 t) (iblk10 (F := Ideal) V c 0 t) (V c main_v192) := by
  intro a b
  obtain ⟨e0, e1, -⟩ := idx_facts10 t
  show V c main_v192 (((cfg10.win 0).blk t).view.emb (ix2 a b)) = V c main_v192 (ix2 (rows10 t a) b)
  refine congrArg _ (funext fun ax => Fin.ext ?_)
  match ax with
  | ⟨0, _⟩ => show win10_0.index t (0 : Fin 2) * 10000 + 1 * a.val = win10_4.index t (0 : Fin 2) * 10000 + a.val; omega
  | ⟨1, _⟩ => show win10_0.index t (1 : Fin 2) * 16 + 1 * b.val = b.val; omega

/-- The bias row's block is the whole row. -/
theorem blk10_1 (c : Dev nD) (t : Fin cfg10.N) (q : Fin 16) :
    (iblk10 (F := Ideal) V c 1 t : FVec Ideal S1x16 .f32) (ix2 (0 : Fin 1) q) = (V c main_v52 : FVec Ideal S1x16 .f32) (ix2 (0 : Fin 1) q) := by
  obtain ⟨-, -, -, -, -, e0, e1, -⟩ := idx_facts10 t
  show V c main_v52 (((cfg10.win 1).blk t).view.emb (ix2 (0 : Fin 1) q)) = V c main_v52 (ix2 (0 : Fin 1) q)
  refine congrArg _ (funext fun ax => Fin.ext ?_)
  match ax with
  | ⟨0, _⟩ => show win10_1.index t (0 : Fin 2) * 1 + 1 * 0 = 0; omega
  | ⟨1, _⟩ => show win10_1.index t (1 : Fin 2) * 16 + 1 * q.val = q.val; omega

/-- The last weights' block is the whole matrix. -/
theorem blk10_2 (c : Dev nD) (t : Fin cfg10.N) (k : Fin 16) (q : Fin 2) :
    (iblk10 (F := Ideal) V c 2 t : FVec Ideal S16x2 .f32) (ix2 k q) = (V c main_arg12 : FVec Ideal S16x2 .f32) (ix2 k q) := by
  obtain ⟨-, -, -, -, -, -, -, e0, e1, -⟩ := idx_facts10 t
  show V c main_arg12 (((cfg10.win 2).blk t).view.emb (ix2 k q)) = V c main_arg12 (ix2 k q)
  refine congrArg _ (funext fun ax => Fin.ext ?_)
  match ax with
  | ⟨0, _⟩ => show win10_2.index t (0 : Fin 2) * 16 + 1 * k.val = k.val; omega
  | ⟨1, _⟩ => show win10_2.index t (1 : Fin 2) * 2 + 1 * q.val = q.val; omega

/-- The last bias row's block is the whole row. -/
theorem blk10_3 (c : Dev nD) (t : Fin cfg10.N) (q : Fin 2) :
    (iblk10 (F := Ideal) V c 3 t : FVec Ideal S1x2 .f32) (ix2 (0 : Fin 1) q) = (V c main_v32 : FVec Ideal S1x2 .f32) (ix2 (0 : Fin 1) q) := by
  obtain ⟨-, -, -, -, -, -, -, -, -, e0, e1, -⟩ := idx_facts10 t
  show V c main_v32 (((cfg10.win 3).blk t).view.emb (ix2 (0 : Fin 1) q)) = V c main_v32 (ix2 (0 : Fin 1) q)
  refine congrArg _ (funext fun ax => Fin.ext ?_)
  match ax with
  | ⟨0, _⟩ => show win10_3.index t (0 : Fin 2) * 1 + 1 * 0 = 0; omega
  | ⟨1, _⟩ => show win10_3.index t (1 : Fin 2) * 2 + 1 * q.val = q.val; omega

/-- What point `t` writes back to the node-feature array is block `t` of tanh (sums + bias row). -/
theorem flushed10_4_eq (c : Dev nD) (t : Fin cfg10.N) :
    (dat10 (F := Ideal) V c).flushed 4 t
      = ((cfg10.win 4).blk t).view.read (Elt Ideal) (Cert.Spec.lastH (V c main_v192) (V c main_v52)) := by
  show (cfg10.win 4).cut (grid10.coords t) ((dat10 V c).after 4 t) = _
  rw [after10_4]
  unfold out10_4
  rw [View.canon_unit_zero hz10]
  simp only [View.ld_unit_zero (S := S10000x16) hz10, View.ld_unit_zero (S := S1x16) hz10]
  funext j
  show k10_pay1 (F := Ideal) (iblk10 V c 0 t) (iblk10 V c 1 t) j
    = Cert.Spec.lastH (V c main_v192) (V c main_v52) (((cfg10.win 4).blk t).view.emb j)
  obtain ⟨-, -, -, e1, -⟩ := idx_facts10 t
  refine RowsOf.entry (lastH_rows (rows10 t) (iblk10 V c 0 t) (iblk10 V c 1 t) (V c main_v192) (V c main_v52)
    (blk10_0 V c t) (blk10_1 V c t)) j _ ?_ ?_
  · show win10_4.index t (0 : Fin 2) * 10000 + 1 * (j 0).val = win10_4.index t (0 : Fin 2) * 10000 + (j 0).val; omega
  · show win10_4.index t (1 : Fin 2) * 16 + 1 * (j 1).val = (j 1).val; omega

/-- What point `t` writes back to the output array is block `t` of the last affine map of those node features. -/
theorem flushed10_5_eq (c : Dev nD) (t : Fin cfg10.N) :
    (dat10 (F := Ideal) V c).flushed 5 t
      = ((cfg10.win 5).blk t).view.read (Elt Ideal)
          (Cert.Spec.lastOut (Cert.Spec.lastH (V c main_v192) (V c main_v52)) (V c main_arg12) (V c main_v32)) := by
  show (cfg10.win 5).cut (grid10.coords t) ((dat10 V c).after 5 t) = _
  rw [after10_5]
  unfold out10_5
  rw [View.canon_unit_zero hz10]
  simp only [View.ld_unit_zero (S := S10000x16) hz10, View.ld_unit_zero (S := S1x16) hz10,
    View.ld_unit_zero (S := S16x2) hz10, View.ld_unit_zero (S := S1x2) hz10]
  funext j
  show k10_pay2 (F := Ideal) (iblk10 V c 0 t) (iblk10 V c 1 t) (iblk10 V c 2 t) (iblk10 V c 3 t) j
    = Cert.Spec.lastOut (Cert.Spec.lastH (V c main_v192) (V c main_v52)) (V c main_arg12) (V c main_v32)
        (((cfg10.win 5).blk t).view.emb j)
  obtain ⟨-, -, e0, -, e1, -⟩ := idx_facts10 t
  refine RowsOf.entry (lastOut_rows (rows10 t) (iblk10 V c 0 t) (iblk10 V c 1 t) (iblk10 V c 2 t) (iblk10 V c 3 t)
    (V c main_v192) (V c main_v52) (V c main_arg12) (V c main_v32)
    (blk10_0 V c t) (blk10_1 V c t) (blk10_2 V c t) (blk10_3 V c t)) j _ ?_ ?_
  · show win10_5.index t (0 : Fin 2) * 10000 + 1 * (j 0).val = win10_4.index t (0 : Fin 2) * 10000 + (j 0).val; omega
  · show win10_5.index t (1 : Fin 2) * 2 + 1 * (j 1).val = (j 1).val; omega

/-- An index of the node-feature array is in point `t`'s block iff each coordinate is in the block's range. -/
theorem mem_blk10_4 (t : Fin cfg10.N) (i : S100000x16.Idx) :
    i ∈ ((cfg10.win 4).blk t).view.set ↔ ∀ a : Fin 2, win10_4.index t a * S10000x16.size a ≤ (i a).val
      ∧ (i a).val < win10_4.index t a * S10000x16.size a + S10000x16.size a := by
  show i ∈ ((View.whole main_v193_0).slice (win10_4.rect t)).set ↔ _
  rw [View.set_slice_whole, Rect.mem_set_unit]
  exact Iff.rfl

/-- An index of the output array is in point `t`'s block iff each coordinate is in the block's range. -/
theorem mem_blk10_5 (t : Fin cfg10.N) (i : S100000x2.Idx) :
    i ∈ ((cfg10.win 5).blk t).view.set ↔ ∀ a : Fin 2, win10_5.index t a * S10000x2.size a ≤ (i a).val
      ∧ (i a).val < win10_5.index t a * S10000x2.size a + S10000x2.size a := by
  show i ∈ ((View.whole main_v193_1).slice (win10_5.rect t)).set ↔ _
  rw [View.set_slice_whole, Rect.mem_set_unit]
  exact Iff.rfl

/-- Row r of the node-feature array is written back by the point whose block row is r / 10000. -/
theorem covered10_4 (i : S100000x16.Idx) :
    ∃ t : Fin cfg10.N, (cfg10.win 4).flush t = true ∧ i ∈ ((cfg10.win 4).blk t).view.set := by
  have hi0 : (i 0).val < 100000 := (i 0).isLt
  have hi1 : (i 1).val < 16 := (i 1).isLt
  obtain ⟨t, ht⟩ := idx_onto10 ⟨(i 0).val / 10000, by omega⟩
  have q0 : win10_4.index t (0 : Fin 2) = (i 0).val / 10000 := ht
  obtain ⟨-, -, -, e1, -⟩ := idx_facts10 t
  refine ⟨t, flush10_4 t, ?_⟩
  rw [mem_blk10_4]
  intro a
  match a with
  | ⟨0, _⟩ => show win10_4.index t (0 : Fin 2) * 10000 ≤ (i 0).val ∧ (i 0).val < win10_4.index t (0 : Fin 2) * 10000 + 10000; omega
  | ⟨1, _⟩ => show win10_4.index t (1 : Fin 2) * 16 ≤ (i 1).val ∧ (i 1).val < win10_4.index t (1 : Fin 2) * 16 + 16; omega

/-- Row r of the output array is written back by the point whose block row is r / 10000. -/
theorem covered10_5 (i : S100000x2.Idx) :
    ∃ t : Fin cfg10.N, (cfg10.win 5).flush t = true ∧ i ∈ ((cfg10.win 5).blk t).view.set := by
  have hi0 : (i 0).val < 100000 := (i 0).isLt
  have hi1 : (i 1).val < 2 := (i 1).isLt
  obtain ⟨t, ht⟩ := idx_onto10 ⟨(i 0).val / 10000, by omega⟩
  have q0 : win10_4.index t (0 : Fin 2) = (i 0).val / 10000 := ht
  obtain ⟨-, -, e0, -, e1, -⟩ := idx_facts10 t
  refine ⟨t, flush10_5 t, ?_⟩
  rw [mem_blk10_5]
  intro a
  match a with
  | ⟨0, _⟩ => show win10_5.index t (0 : Fin 2) * 10000 ≤ (i 0).val ∧ (i 0).val < win10_5.index t (0 : Fin 2) * 10000 + 10000; omega
  | ⟨1, _⟩ => show win10_5.index t (1 : Fin 2) * 2 ≤ (i 1).val ∧ (i 1).val < win10_5.index t (1 : Fin 2) * 2 + 2; omega

/-- The node-feature array after the region: tanh (sums + bias row), whole. -/
theorem final10_h (c : Dev nD) : (dat10 (F := Ideal) V c).arrAt 4 cfg10.N
    = Cert.Spec.lastH (V c main_v192) (V c main_v52) :=
  (dat10 V c).arrAt_eq_of_cover 4 (Cert.Spec.lastH (V c main_v192) (V c main_v52))
    (fun t _ => flushed10_4_eq V c t) covered10_4

/-- The output array after the region: the last affine map of those node features, whole. -/
theorem final10_out (c : Dev nD) : (dat10 (F := Ideal) V c).arrAt 5 cfg10.N
    = Cert.Spec.lastOut (Cert.Spec.lastH (V c main_v192) (V c main_v52)) (V c main_arg12) (V c main_v32) :=
  (dat10 V c).arrAt_eq_of_cover 5
    (Cert.Spec.lastOut (Cert.Spec.lastH (V c main_v192) (V c main_v52)) (V c main_arg12) (V c main_v32))
    (fun t _ => flushed10_5_eq V c t) covered10_5

end Cert.KernelIdeal.RegionVal

end
-- ==== Proof.RefParams.lean ====
/-
  The network's parameters as the host-only program spells them, each as a function of one argument array.

  The edge list arrives as a 2 × 3200000 table of node numbers; the network adds one loop per node, so the source and
  target of the 3300000 edges are a row of the table followed by 0, 1, …, 99999. The weight of an edge is the product of
  the inverse square roots of the in-degrees (counted over the targets) of its two ends. A bias vector enters every
  stage as a one-row matrix; the five later rounds take their 16 × 16 weights and their bias rows out of a stack.
  The node features after the last round and the two output columns are then the whole network applied to these.
-/
import proofs.«114803_j55138790146121_2_alg».proof.Proof.Net

noncomputable section

namespace Cert.RefP

open Idealize.ShloMosaic Cert.ReferenceIdeal Cert.ReferenceIdeal.Gen

/-- The source of every edge: row 0 of the table, then each node once (its own loop). -/
def src (a1 : IVec S2x3200000 32) : Cert.Spec.EdgeIdx :=
  concatenate S3300000 0 [⟨S3200000, (shapeCast _ (extractStridedSlice S1x3200000 ![0, 0] a1 slices_S2x3200000_S1x3200000_0_0) shapeCasts_S1x3200000_S3200000)⟩, ⟨S100000, (iotaInDim S100000 32 0)⟩] concatenates_S3200000_S100000_S3300000_d0

/-- The target of every edge: row 1 of the table, then each node once. -/
def dst (a1 : IVec S2x3200000 32) : Cert.Spec.EdgeIdx :=
  concatenate S3300000 0 [⟨S3200000, (shapeCast _ (extractStridedSlice S1x3200000 ![1, 0] a1 slices_S2x3200000_S1x3200000_1_0) shapeCasts_S1x3200000_S3200000)⟩, ⟨S100000, (iotaInDim S100000 32 0)⟩] concatenates_S3200000_S100000_S3300000_d0

/-- The inverse square root of every node's in-degree: ones added up along the targets, then rsqrt. -/
def invSqrtDeg (a1 : IVec S2x3200000 32) : FVec Ideal S100000 .f32 :=
  Host.rsqrt (Host.scatterAdd scatter_S100000_S3300000x1_S3300000_n_0_0_1 (broadcastInDim S100000 ![] bcast_S_S100000 (constant (F := Ideal) S_ .f32 0x00000000#32)) (broadcastInDim S3300000x1 ![0] bcast_S3300000_S3300000x1_0 (dst a1)) (broadcastInDim S3300000 ![] bcast_S_S3300000 (constant (F := Ideal) S_ .f32 0x3F800000#32)))

/-- The weight of every edge: the inverse square root of the degree at its source times that at its target (a negative
    node number wrapped by 100000). -/
def norm (a1 : IVec S2x3200000 32) : FVec Ideal S3300000 .f32 :=
  mulf (Host.gather gather_S100000_S3300000x1_S3300000_n_0_n_n_0_1_1 (invSqrtDeg a1) (broadcastInDim S3300000x1 ![0] bcast_S3300000_S3300000x1_0 (select (cmpi .slt (src a1) (broadcastInDim S3300000 ![] bcast_S_S3300000 (constantI S_ 32 0#32))) (addi (src a1) (broadcastInDim S3300000 ![] bcast_S_S3300000 (constantI S_ 32 100000#32))) (src a1)))) (Host.gather gather_S100000_S3300000x1_S3300000_n_0_n_n_0_1_1 (invSqrtDeg a1) (broadcastInDim S3300000x1 ![0] bcast_S3300000_S3300000x1_0 (select (cmpi .slt (dst a1) (broadcastInDim S3300000 ![] bcast_S_S3300000 (constantI S_ 32 0#32))) (addi (dst a1) (broadcastInDim S3300000 ![] bcast_S_S3300000 (constantI S_ 32 100000#32))) (dst a1))))

/-- A bias vector of 64 entries as a one-row matrix. -/
def row64 (b : FVec Ideal S64 .f32) : FVec Ideal S1x64 .f32 := broadcastInDim S1x64 ![1] bcast_S64_S1x64_1 b
/-- A bias vector of 32 entries as a one-row matrix. -/
def row32 (b : FVec Ideal S32 .f32) : FVec Ideal S1x32 .f32 := broadcastInDim S1x32 ![1] bcast_S32_S1x32_1 b
/-- A bias vector of 16 entries as a one-row matrix. -/
def row16 (b : FVec Ideal S16 .f32) : FVec Ideal S1x16 .f32 := broadcastInDim S1x16 ![1] bcast_S16_S1x16_1 b
/-- A bias vector of 2 entries as a one-row matrix. -/
def row2 (b : FVec Ideal S2 .f32) : FVec Ideal S1x2 .f32 := broadcastInDim S1x2 ![1] bcast_S2_S1x2_1 b

/-- Matrix 0 of the stack of five 16 × 16 weight matrices. -/
def wg0 (a10 : FVec Ideal S5x16x16 .f32) : FVec Ideal S16x16 .f32 :=
  shapeCast _ (extractStridedSlice S1x16x16 ![0, 0, 0] a10 slices_S5x16x16_S1x16x16_0_0_0) shapeCasts_S1x16x16_S16x16
/-- Matrix 1 of the stack. -/
def wg1 (a10 : FVec Ideal S5x16x16 .f32) : FVec Ideal S16x16 .f32 :=
  shapeCast _ (extractStridedSlice S1x16x16 ![1, 0, 0] a10 slices_S5x16x16_S1x16x16_1_0_0) shapeCasts_S1x16x16_S16x16
/-- Matrix 2 of the stack. -/
def wg2 (a10 : FVec Ideal S5x16x16 .f32) : FVec Ideal S16x16 .f32 :=
  shapeCast _ (extractStridedSlice S1x16x16 ![2, 0, 0] a10 slices_S5x16x16_S1x16x16_2_0_0) shapeCasts_S1x16x16_S16x16
/-- Matrix 3 of the stack. -/
def wg3 (a10 : FVec Ideal S5x16x16 .f32) : FVec Ideal S16x16 .f32 :=
  shapeCast _ (extractStridedSlice S1x16x16 ![3, 0, 0] a10 slices_S5x16x16_S1x16x16_3_0_0) shapeCasts_S1x16x16_S16x16
/-- Matrix 4 of the stack. -/
def wg4 (a10 : FVec Ideal S5x16x16 .f32) : FVec Ideal S16x16 .f32 :=
  shapeCast _ (extractStridedSlice S1x16x16 ![4, 0, 0] a10 slices_S5x16x16_S1x16x16_4_0_0) shapeCasts_S1x16x16_S16x16

/-- Row 0 of the 5 × 16 table of bias vectors, as a one-row matrix. -/
def rg0 (a11 : FVec Ideal S5x16 .f32) : FVec Ideal S1x16 .f32 :=
  row16 (shapeCast _ (extractStridedSlice S1x16 ![0, 0] a11 slices_S5x16_S1x16_0_0) shapeCasts_S1x16_S16)
/-- Row 1 of the table, as a one-row matrix. -/
def rg1 (a11 : FVec Ideal S5x16 .f32) : FVec Ideal S1x16 .f32 :=
  row16 (shapeCast _ (extractStridedSlice S1x16 ![1, 0] a11 slices_S5x16_S1x16_1_0) shapeCasts_S1x16_S16)
/-- Row 2 of the table, as a one-row matrix. -/
def rg2 (a11 : FVec Ideal S5x16 .f32) : FVec Ideal S1x16 .f32 :=
  row16 (shapeCast _ (extractStridedSlice S1x16 ![2, 0] a11 slices_S5x16_S1x16_2_0) shapeCasts_S1x16_S16)
/-- Row 3 of the table, as a one-row matrix. -/
def rg3 (a11 : FVec Ideal S5x16 .f32) : FVec Ideal S1x16 .f32 :=
  row16 (shapeCast _ (extractStridedSlice S1x16 ![3, 0] a11 slices_S5x16_S1x16_3_0) shapeCasts_S1x16_S16)
/-- Row 4 of the table, as a one-row matrix. -/
def rg4 (a11 : FVec Ideal S5x16 .f32) : FVec Ideal S1x16 .f32 :=
  row16 (shapeCast _ (extractStridedSlice S1x16 ![4, 0] a11 slices_S5x16_S1x16_4_0) shapeCasts_S1x16_S16)

/-- The node features after the last round, as a function of the program's first twelve arguments. -/
def hOf (a0 : FVec Ideal S100000x131 .f32) (a1 : IVec S2x3200000 32) (a2 : FVec Ideal S131x64 .f32)
    (a3 : FVec Ideal S64 .f32) (a4 : FVec Ideal S64x32 .f32) (a5 : FVec Ideal S32 .f32) (a6 : FVec Ideal S32x16 .f32)
    (a7 : FVec Ideal S16 .f32) (a8 : FVec Ideal S16x16 .f32) (a9 : FVec Ideal S16 .f32)
    (a10 : FVec Ideal S5x16x16 .f32) (a11 : FVec Ideal S5x16 .f32) : Cert.Spec.M16 :=
  Cert.Net.netH (src a1) (dst a1) (norm a1) a0 a2 (row64 a3) a4 (row32 a5) a6 (row16 a7) a8 (row16 a9)
    (wg0 a10) (wg1 a10) (wg2 a10) (wg3 a10) (wg4 a10) (rg0 a11) (rg1 a11) (rg2 a11) (rg3 a11) (rg4 a11)

/-- The two output columns, as a function of the program's fourteen arguments. -/
def outOf (a0 : FVec Ideal S100000x131 .f32) (a1 : IVec S2x3200000 32) (a2 : FVec Ideal S131x64 .f32)
    (a3 : FVec Ideal S64 .f32) (a4 : FVec Ideal S64x32 .f32) (a5 : FVec Ideal S32 .f32) (a6 : FVec Ideal S32x16 .f32)
    (a7 : FVec Ideal S16 .f32) (a8 : FVec Ideal S16x16 .f32) (a9 : FVec Ideal S16 .f32)
    (a10 : FVec Ideal S5x16x16 .f32) (a11 : FVec Ideal S5x16 .f32) (a12 : FVec Ideal S16x2 .f32)
    (a13 : FVec Ideal S2 .f32) : FVec Ideal S100000x2 .f32 :=
  Cert.Net.netOut (hOf a0 a1 a2 a3 a4 a5 a6 a7 a8 a9 a10 a11) a12 (row2 a13)

end Cert.RefP

end
-- ==== Proof.LibStackRows.lean ====
/-
  One row of a table of vectors, laid out as a one-row matrix in two ways.

  A table a of K rows and N columns holds K vectors. Row k as a 1×N matrix can be had by giving the table a unit middle
  axis ([K,N] → [K,1,N]), cutting plane k out of it ([1,1,N]) and dropping the leading axis ([1,N]); or by cutting row k
  out of the table ([1,N]), flattening it to a vector ([N]) and laying the vector along the columns of a one-row matrix.
  Either way the entry (0, q) of the result is a(k, q), so the two are the same matrix. Generic in K, N, k and the
  element type.
-/
import Idealize.ShloMosaic.Lib.Pipeline.Value
import Idealize.ShloMosaic.Lib.ValueIdx
import Idealize.ShloMosaic.Lib.ValueLayout

namespace Cert.LibStackRows

open Idealize.ShloMosaic Idealize.ShloMosaic.ValueIdx

variable {α : Type} {K N : Nat}

/-- Through the unit middle axis: the entry (u, q) is a(k, q). -/
theorem planeRow_apply (k : Nat) (hk : k < K) (a : (⟨2, ![K, N]⟩ : Shape).Idx → α)
    (h1 : (⟨2, ![K, N]⟩ : Shape).ShapeCasts ⟨3, ![K, 1, N]⟩)
    (h2 : (⟨3, ![K, 1, N]⟩ : Shape).Slices ![k, 0, 0] ⟨3, ![1, 1, N]⟩)
    (h3 : (⟨3, ![1, 1, N]⟩ : Shape).ShapeCasts ⟨2, ![1, N]⟩) (u : Fin 1) (q : Fin N) :
    shapeCast ⟨2, ![1, N]⟩ (extractStridedSlice ⟨3, ![1, 1, N]⟩ ![k, 0, 0] (shapeCast ⟨3, ![K, 1, N]⟩ a h1) h2) h3 (ix2 u q)
      = a (ix2 ⟨k, hk⟩ q) := by
  have hu : u.val = 0 := by omega
  rw [shapeCast_apply _ h3 (ix2 u q) (ix3 (0 : Fin 1) (0 : Fin 1) q) (by
      rw [Shape.rowMajor_val_three, Shape.rowMajor_val_two]
      show (0 * 1 + 0) * N + q.val = u.val * N + q.val
      rw [hu, Nat.zero_mul, Nat.zero_add]),
    extractStridedSlice_apply ![k, 0, 0] _ h2 (ix3 (0 : Fin 1) (0 : Fin 1) q) (ix3 (⟨k, hk⟩ : Fin K) (0 : Fin 1) q) (fun ax =>
      match ax with
      | ⟨0, _⟩ => rfl
      | ⟨1, _⟩ => rfl
      | ⟨2, _⟩ => (Nat.zero_add _).symm),
    shapeCast_apply a h1 (ix3 (⟨k, hk⟩ : Fin K) (0 : Fin 1) q) (ix2 ⟨k, hk⟩ q) (by
      rw [Shape.rowMajor_val_three, Shape.rowMajor_val_two]
      show k * N + q.val = (k * 1 + 0) * N + q.val
      rw [Nat.mul_one, Nat.add_zero])]

/-- Through the flattened row: the entry (u, q) is a(k, q). -/
theorem rowVec_apply (k : Nat) (hk : k < K) (a : (⟨2, ![K, N]⟩ : Shape).Idx → α)
    (h4 : (⟨2, ![K, N]⟩ : Shape).Slices ![k, 0] ⟨2, ![1, N]⟩)
    (h5 : (⟨2, ![1, N]⟩ : Shape).ShapeCasts ⟨1, ![N]⟩)
    (hb : (⟨1, ![N]⟩ : Shape).BroadcastsInDim ⟨2, ![1, N]⟩ (![1] : Fin 1 → Fin 2)) (u : Fin 1) (q : Fin N) :
    broadcastInDim ⟨2, ![1, N]⟩ ![1] hb (shapeCast ⟨1, ![N]⟩ (extractStridedSlice ⟨2, ![1, N]⟩ ![k, 0] a h4) h5) (ix2 u q)
      = a (ix2 ⟨k, hk⟩ q) := by
  rw [broadcastInDim_apply (![1] : Fin 1 → Fin 2) hb _ (ix2 u q) (ix1 q) (fun ax =>
      match ax with
      | ⟨0, _⟩ => by
        show q.val = if N = 1 then 0 else q.val
        split
        · have := q.isLt; omega
        · rfl),
    shapeCast_1a_a_apply,
    extractStridedSlice_apply ![k, 0] a h4 (ix2 (0 : Fin 1) q) (ix2 (⟨k, hk⟩ : Fin K) q) (fun ax =>
      match ax with
      | ⟨0, _⟩ => rfl
      | ⟨1, _⟩ => (Nat.zero_add _).symm)]

/-- The two layouts of row k are the same one-row matrix. -/
theorem planeRow_eq_rowVec (k : Nat) (hk : k < K) (a : (⟨2, ![K, N]⟩ : Shape).Idx → α)
    (h1 : (⟨2, ![K, N]⟩ : Shape).ShapeCasts ⟨3, ![K, 1, N]⟩)
    (h2 : (⟨3, ![K, 1, N]⟩ : Shape).Slices ![k, 0, 0] ⟨3, ![1, 1, N]⟩)
    (h3 : (⟨3, ![1, 1, N]⟩ : Shape).ShapeCasts ⟨2, ![1, N]⟩)
    (h4 : (⟨2, ![K, N]⟩ : Shape).Slices ![k, 0] ⟨2, ![1, N]⟩)
    (h5 : (⟨2, ![1, N]⟩ : Shape).ShapeCasts ⟨1, ![N]⟩)
    (hb : (⟨1, ![N]⟩ : Shape).BroadcastsInDim ⟨2, ![1, N]⟩ (![1] : Fin 1 → Fin 2)) :
    shapeCast ⟨2, ![1, N]⟩ (extractStridedSlice ⟨3, ![1, 1, N]⟩ ![k, 0, 0] (shapeCast ⟨3, ![K, 1, N]⟩ a h1) h2) h3
      = broadcastInDim ⟨2, ![1, N]⟩ ![1] hb (shapeCast ⟨1, ![N]⟩ (extractStridedSlice ⟨2, ![1, N]⟩ ![k, 0] a h4) h5) := by
  funext j
  obtain ⟨u, q, rfl⟩ : ∃ (u : Fin 1) (q : Fin N), j = ix2 u q := ⟨j 0, j 1, eq_ix2 j⟩
  rw [planeRow_apply k hk a h1 h2 h3 u q, rowVec_apply k hk a h4 h5 hb u q]

end Cert.LibStackRows
-- ==== Proof.KerParams.lean ====
/-
  The tiled program's parameters are the host-only program's.

  Before its first tiled region the tiled program prepares, with plain host operations, everything the network is a
  function of: the sources and targets of the 3300000 edges, the edges' weights, the bias vectors as one-row matrices,
  and the five later rounds' weight matrices and bias rows cut out of their stacks. The edge lists, the weights and the
  weight matrices it spells exactly as the host-only program does. A bias vector it reshapes to a row where the
  host-only program broadcasts it along the columns of a one-row matrix: the same row. A row of the table of bias
  vectors it takes through a unit middle axis ([5,16] → [5,1,16], plane k, → [1,16]) where the host-only program cuts
  row k, flattens it and broadcasts it: again the same row. The arrays it does not touch are the launch's.
-/
import proofs.«114803_j55138790146121_2_alg».proof.Proof.RefParams
import proofs.«114803_j55138790146121_2_alg».proof.Proof.LibBiasRows
import proofs.«114803_j55138790146121_2_alg».proof.Proof.LibStackRows
import proofs.«114803_j55138790146121_2_alg».proof.Proof.Gen.KernelIdeal.Frame

noncomputable section

namespace Cert.KerParams

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## The edges -/

set_option maxRecDepth 8192 in
set_option maxHeartbeats 2000000 in
/-- The sources of the edges. -/
theorem v3_eq : W1 m ρ c (Proc.devRef .tc main_v3) = Cert.RefP.src (m ((c : Thread nD τ).loc main_arg1)) := by
  show StableHlo.after hostOps0 (W0 m ρ c) (Proc.devRef .tc main_v3) = _
  simp only [hostOps0]
  after_results_simp
  rfl

set_option maxRecDepth 8192 in
set_option maxHeartbeats 2000000 in
/-- The targets of the edges. -/
theorem v6_eq : W1 m ρ c (Proc.devRef .tc main_v6) = Cert.RefP.dst (m ((c : Thread nD τ).loc main_arg1)) := by
  show StableHlo.after hostOps0 (W0 m ρ c) (Proc.devRef .tc main_v6) = _
  simp only [hostOps0]
  after_results_simp
  rfl

set_option maxRecDepth 8192 in
set_option maxHeartbeats 2000000 in
/-- The weights of the edges. -/
theorem v26_eq : W1 m ρ c (Proc.devRef .tc main_v26) = Cert.RefP.norm (m ((c : Thread nD τ).loc main_arg1)) := by
  show StableHlo.after hostOps0 (W0 m ρ c) (Proc.devRef .tc main_v26) = _
  simp only [hostOps0]
  after_results_simp
  rfl

/-! ## The arrays the first stretch of host operations leaves alone -/

set_option maxRecDepth 8192 in
set_option maxHeartbeats 2000000 in
theorem arg0_eq : W1 m ρ c (Proc.devRef .tc main_arg0) = m ((c : Thread nD τ).loc main_arg0) := by
  show StableHlo.after hostOps0 (W0 m ρ c) (Proc.devRef .tc main_arg0) = _
  simp only [hostOps0]
  after_results_simp

set_option maxRecDepth 8192 in
set_option maxHeartbeats 2000000 in
theorem arg2_eq : W1 m ρ c (Proc.devRef .tc main_arg2) = m ((c : Thread nD τ).loc main_arg2) := by
  show StableHlo.after hostOps0 (W0 m ρ c) (Proc.devRef .tc main_arg2) = _
  simp only [hostOps0]
  after_results_simp

set_option maxRecDepth 8192 in
set_option maxHeartbeats 2000000 in
theorem arg4_eq : W1 m ρ c (Proc.devRef .tc main_arg4) = m ((c : Thread nD τ).loc main_arg4) := by
  show StableHlo.after hostOps0 (W0 m ρ c) (Proc.devRef .tc main_arg4) = _
  simp only [hostOps0]
  after_results_simp

set_option maxRecDepth 8192 in
set_option maxHeartbeats 2000000 in
theorem arg6_eq : W1 m ρ c (Proc.devRef .tc main_arg6) = m ((c : Thread nD τ).loc main_arg6) := by
  show StableHlo.after hostOps0 (W0 m ρ c) (Proc.devRef .tc main_arg6) = _
  simp only [hostOps0]
  after_results_simp

set_option maxRecDepth 8192 in
set_option maxHeartbeats 2000000 in
theorem arg8_eq : W1 m ρ c (Proc.devRef .tc main_arg8) = m ((c : Thread nD τ).loc main_arg8) := by
  show StableHlo.after hostOps0 (W0 m ρ c) (Proc.devRef .tc main_arg8) = _
  simp only [hostOps0]
  after_results_simp

set_option maxRecDepth 8192 in
set_option maxHeartbeats 2000000 in
theorem arg12_eq : W1 m ρ c (Proc.devRef .tc main_arg12) = m ((c : Thread nD τ).loc main_arg12) := by
  show StableHlo.after hostOps0 (W0 m ρ c) (Proc.devRef .tc main_arg12) = _
  simp only [hostOps0]
  after_results_simp

/-! ## The bias vectors as rows -/

set_option maxRecDepth 8192 in
set_option maxHeartbeats 2000000 in
/-- The first layer's bias as a row. -/
theorem v27_eq : W1 m ρ c (Proc.devRef .tc main_v27) = Cert.RefP.row64 (m ((c : Thread nD τ).loc main_arg3)) := by
  show StableHlo.after hostOps0 (W0 m ρ c) (Proc.devRef .tc main_v27) = _
  simp only [hostOps0]
  after_results_simp
  exact Cert.LibBiasRows.castRow_eq _ _ _

set_option maxRecDepth 8192 in
set_option maxHeartbeats 2000000 in
/-- The second layer's bias as a row. -/
theorem v28_eq : W1 m ρ c (Proc.devRef .tc main_v28) = Cert.RefP.row32 (m ((c : Thread nD τ).loc main_arg5)) := by
  show StableHlo.after hostOps0 (W0 m ρ c) (Proc.devRef .tc main_v28) = _
  simp only [hostOps0]
  after_results_simp
  exact Cert.LibBiasRows.castRow_eq _ _ _

set_option maxRecDepth 8192 in
set_option maxHeartbeats 2000000 in
/-- The third layer's bias as a row. -/
theorem v29_eq : W1 m ρ c (Proc.devRef .tc main_v29) = Cert.RefP.row16 (m ((c : Thread nD τ).loc main_arg7)) := by
  show StableHlo.after hostOps0 (W0 m ρ c) (Proc.devRef .tc main_v29) = _
  simp only [hostOps0]
  after_results_simp
  exact Cert.LibBiasRows.castRow_eq _ _ _

set_option maxRecDepth 8192 in
set_option maxHeartbeats 2000000 in
/-- The first five rounds' bias as a row. -/
theorem v30_eq : W1 m ρ c (Proc.devRef .tc main_v30) = Cert.RefP.row16 (m ((c : Thread nD τ).loc main_arg9)) := by
  show StableHlo.after hostOps0 (W0 m ρ c) (Proc.devRef .tc main_v30) = _
  simp only [hostOps0]
  after_results_simp
  exact Cert.LibBiasRows.castRow_eq _ _ _

set_option maxRecDepth 8192 in
set_option maxHeartbeats 2000000 in
/-- The last affine map's bias as a row. -/
theorem v32_eq : W1 m ρ c (Proc.devRef .tc main_v32) = Cert.RefP.row2 (m ((c : Thread nD τ).loc main_arg13)) := by
  show StableHlo.after hostOps0 (W0 m ρ c) (Proc.devRef .tc main_v32) = _
  simp only [hostOps0]
  after_results_simp
  exact Cert.LibBiasRows.castRow_eq _ _ _

/-! ## The later rounds' weights and bias rows -/

set_option maxRecDepth 8192 in
set_option maxHeartbeats 2000000 in
/-- Matrix 0 of the stack of weight matrices. -/
theorem v34_eq : W1 m ρ c (Proc.devRef .tc main_v34) = Cert.RefP.wg0 (m ((c : Thread nD τ).loc main_arg10)) := by
  show StableHlo.after hostOps0 (W0 m ρ c) (Proc.devRef .tc main_v34) = _
  simp only [hostOps0]
  after_results_simp
  rfl

set_option maxRecDepth 8192 in
set_option maxHeartbeats 2000000 in
/-- Matrix 1 of the stack of weight matrices. -/
theorem v36_eq : W1 m ρ c (Proc.devRef .tc main_v36) = Cert.RefP.wg1 (m ((c : Thread nD τ).loc main_arg10)) := by
  show StableHlo.after hostOps0 (W0 m ρ c) (Proc.devRef .tc main_v36) = _
  simp only [hostOps0]
  after_results_simp
  rfl

set_option maxRecDepth 8192 in
set_option maxHeartbeats 2000000 in
/-- Matrix 2 of the stack of weight matrices. -/
theorem v38_eq : W1 m ρ c (Proc.devRef .tc main_v38) = Cert.RefP.wg2 (m ((c : Thread nD τ).loc main_arg10)) := by
  show StableHlo.after hostOps0 (W0 m ρ c) (Proc.devRef .tc main_v38) = _
  simp only [hostOps0]
  after_results_simp
  rfl

set_option maxRecDepth 8192 in
set_option maxHeartbeats 2000000 in
/-- Matrix 3 of the stack of weight matrices. -/
theorem v40_eq : W1 m ρ c (Proc.devRef .tc main_v40) = Cert.RefP.wg3 (m ((c : Thread nD τ).loc main_arg10)) := by
  show StableHlo.after hostOps0 (W0 m ρ c) (Proc.devRef .tc main_v40) = _
  simp only [hostOps0]
  after_results_simp
  rfl

set_option maxRecDepth 8192 in
set_option maxHeartbeats 2000000 in
/-- Matrix 4 of the stack of weight matrices. -/
theorem v42_eq : W1 m ρ c (Proc.devRef .tc main_v42) = Cert.RefP.wg4 (m ((c : Thread nD τ).loc main_arg10)) := by
  show StableHlo.after hostOps0 (W0 m ρ c) (Proc.devRef .tc main_v42) = _
  simp only [hostOps0]
  after_results_simp
  rfl

set_option maxRecDepth 8192 in
set_option maxHeartbeats 2000000 in
/-- Row 0 of the table of bias vectors, through the unit middle axis, is the host-only program's row 0. -/
theorem v44_eq : W1 m ρ c (Proc.devRef .tc main_v44) = Cert.RefP.rg0 (m ((c : Thread nD τ).loc main_arg11)) := by
  show StableHlo.after hostOps0 (W0 m ρ c) (Proc.devRef .tc main_v44) = _
  simp only [hostOps0]
  after_results_simp
  unfold Cert.RefP.rg0 Cert.RefP.row16
  exact Cert.LibStackRows.planeRow_eq_rowVec 0 (by decide) _ _ _ _ _ _ _

set_option maxRecDepth 8192 in
set_option maxHeartbeats 2000000 in
/-- Row 1 of the table of bias vectors, through the unit middle axis, is the host-only program's row 1. -/
theorem v46_eq : W1 m ρ c (Proc.devRef .tc main_v46) = Cert.RefP.rg1 (m ((c : Thread nD τ).loc main_arg11)) := by
  show StableHlo.after hostOps0 (W0 m ρ c) (Proc.devRef .tc main_v46) = _
  simp only [hostOps0]
  after_results_simp
  unfold Cert.RefP.rg1 Cert.RefP.row16
  exact Cert.LibStackRows.planeRow_eq_rowVec 1 (by decide) _ _ _ _ _ _ _

set_option maxRecDepth 8192 in
set_option maxHeartbeats 2000000 in
/-- Row 2 of the table of bias vectors, through the unit middle axis, is the host-only program's row 2. -/
theorem v48_eq : W1 m ρ c (Proc.devRef .tc main_v48) = Cert.RefP.rg2 (m ((c : Thread nD τ).loc main_arg11)) := by
  show StableHlo.after hostOps0 (W0 m ρ c) (Proc.devRef .tc main_v48) = _
  simp only [hostOps0]
  after_results_simp
  unfold Cert.RefP.rg2 Cert.RefP.row16
  exact Cert.LibStackRows.planeRow_eq_rowVec 2 (by decide) _ _ _ _ _ _ _

set_option maxRecDepth 8192 in
set_option maxHeartbeats 2000000 in
/-- Row 3 of the table of bias vectors, through the unit middle axis, is the host-only program's row 3. -/
theorem v50_eq : W1 m ρ c (Proc.devRef .tc main_v50) = Cert.RefP.rg3 (m ((c : Thread nD τ).loc main_arg11)) := by
  show StableHlo.after hostOps0 (W0 m ρ c) (Proc.devRef .tc main_v50) = _
  simp only [hostOps0]
  after_results_simp
  unfold Cert.RefP.rg3 Cert.RefP.row16
  exact Cert.LibStackRows.planeRow_eq_rowVec 3 (by decide) _ _ _ _ _ _ _

set_option maxRecDepth 8192 in
set_option maxHeartbeats 2000000 in
/-- Row 4 of the table of bias vectors, through the unit middle axis, is the host-only program's row 4. -/
theorem v52_eq : W1 m ρ c (Proc.devRef .tc main_v52) = Cert.RefP.rg4 (m ((c : Thread nD τ).loc main_arg11)) := by
  show StableHlo.after hostOps0 (W0 m ρ c) (Proc.devRef .tc main_v52) = _
  simp only [hostOps0]
  after_results_simp
  unfold Cert.RefP.rg4 Cert.RefP.row16
  exact Cert.LibStackRows.planeRow_eq_rowVec 4 (by decide) _ _ _ _ _ _ _

/-! ## All of them at once -/

/-- The network over the tiled program's prepared buffers is the network over the launch's arguments, as the host-only
    program spells its parameters. -/
theorem h_params :
    Cert.Net.netH (W1 m ρ c (Proc.devRef .tc main_v3)) (W1 m ρ c (Proc.devRef .tc main_v6)) (W1 m ρ c (Proc.devRef .tc main_v26))
        (W1 m ρ c (Proc.devRef .tc main_arg0)) (W1 m ρ c (Proc.devRef .tc main_arg2)) (W1 m ρ c (Proc.devRef .tc main_v27))
        (W1 m ρ c (Proc.devRef .tc main_arg4)) (W1 m ρ c (Proc.devRef .tc main_v28)) (W1 m ρ c (Proc.devRef .tc main_arg6))
        (W1 m ρ c (Proc.devRef .tc main_v29)) (W1 m ρ c (Proc.devRef .tc main_arg8)) (W1 m ρ c (Proc.devRef .tc main_v30))
        (W1 m ρ c (Proc.devRef .tc main_v34)) (W1 m ρ c (Proc.devRef .tc main_v36)) (W1 m ρ c (Proc.devRef .tc main_v38))
        (W1 m ρ c (Proc.devRef .tc main_v40)) (W1 m ρ c (Proc.devRef .tc main_v42)) (W1 m ρ c (Proc.devRef .tc main_v44))
        (W1 m ρ c (Proc.devRef .tc main_v46)) (W1 m ρ c (Proc.devRef .tc main_v48)) (W1 m ρ c (Proc.devRef .tc main_v50))
        (W1 m ρ c (Proc.devRef .tc main_v52))
      = Cert.RefP.hOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [v3_eq, v6_eq, v26_eq, arg0_eq, arg2_eq, v27_eq, arg4_eq, v28_eq, arg6_eq, v29_eq, arg8_eq, v30_eq,
    v34_eq, v36_eq, v38_eq, v40_eq, v42_eq, v44_eq, v46_eq, v48_eq, v50_eq, v52_eq]
  rfl

end Cert.KerParams

end
-- ==== Proof.RefSide.lean ====
/-
  The host-only program's run, read as the network.

  Every weakly fair execution of the host-only program ends with its first result holding the network's two output
  columns, its second the node features after the last round, both as functions of the launch's argument arrays, and with
  the arguments unchanged. The program's operations, composed, are the network's stages word for word: the perceptron,
  ten rounds of "gather along the sources, scale by the edge weights, add up at the targets, add the bias row, take the
  hyperbolic tangent (and, but for the last round, multiply by the next weight matrix)", and the last affine map.
-/
import proofs.«114803_j55138790146121_2_alg».proof.Proof.RefParams
import proofs.«114803_j55138790146121_2_alg».proof.Proof.Gen.ReferenceIdeal.Run

noncomputable section

namespace Cert.RefSide

open Idealize.ShloMosaic Idealize.ShloMosaic.TcCoe Idealize.SL.Sem Cert.ReferenceIdeal Cert.ReferenceIdeal.Gen

/-- The host-only program's two results are the network of the launch's arguments; the arguments are unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v244) = Cert.RefP.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v240) = Cert.RefP.hOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run _ _ _).mono (fun _ h c => ⟨(h c).1.trans (by
    unfold Cert.RefP.outOf Cert.RefP.hOf Cert.Net.netOut Cert.Net.netH
    rfl), (h c).2.1.trans (by
    unfold Cert.RefP.hOf Cert.Net.netH
    rfl), (h c).2.2⟩)
    (Cert.ReferenceIdeal.Value.run (F := Ideal) m ρ)

end Cert.RefSide

end
-- ==== Proof.lean ====
/-
  A graph network on 100000 nodes and 3300000 edges (3200000 given edges and one loop per node), computed two ways.

  Both programs first turn the edge list into source and target indices and a weight per edge (the product of the
  inverse square roots of the two end nodes' in-degrees), pass the node features through a three-layer perceptron,
  and then run ten rounds of: multiply the features by a 16×16 matrix, send each node's row along every edge scaled by
  the edge's weight, add up what arrives at each node, add a bias, take the hyperbolic tangent. A last affine map gives
  two columns; the results are those two columns and the last node features.

  The reference does all of it with whole-array host operations. The kernel program does the gathers and scatters with
  the same host operations but runs every "add the bias, take tanh, multiply by the next round's matrix" step — and the
  perceptron, and the last affine map — as a kernel over blocks of 10000 rows, with the matrix factors narrowed to a
  shorter float format first. On the extended reals a change of format is the identity and a block's matrix product into
  a zero accumulator is the exact sum, so a kernel over row blocks computes, row for row, the whole-array function of
  its inputs (Region0 … Region10); the program's segments then compose to the network's function of the parameters
  (Chain), which are the reference's parameters (KerParams: the two programs lay a bias vector out as a row in
  different ways, with the same row), and the reference's run is that same function (RefSide). No property of the
  inputs is used: every step is an equation between the same sums and the same functions of extended reals.
-/
import proofs.«114803_j55138790146121_2_alg».proof.Defs
import proofs.«114803_j55138790146121_2_alg».proof.Proof.Gen.Kernel
import proofs.«114803_j55138790146121_2_alg».proof.Proof.Gen.Kernel.Skeleton
import proofs.«114803_j55138790146121_2_alg».proof.Proof.Gen.Kernel.Launch
import proofs.«114803_j55138790146121_2_alg».proof.Proof.Gen.Kernel.Points
import proofs.«114803_j55138790146121_2_alg».proof.Proof.Gen.Kernel.Frame
import proofs.«114803_j55138790146121_2_alg».proof.Proof.Gen.KernelIdeal
import proofs.«114803_j55138790146121_2_alg».proof.Proof.Gen.KernelIdeal.Skeleton
import proofs.«114803_j55138790146121_2_alg».proof.Proof.Gen.KernelIdeal.Launch
import proofs.«114803_j55138790146121_2_alg».proof.Proof.Gen.KernelIdeal.Points
import proofs.«114803_j55138790146121_2_alg».proof.Proof.Gen.KernelIdeal.Frame
import proofs.«114803_j55138790146121_2_alg».proof.Proof.Gen.ReferenceIdeal
import proofs.«114803_j55138790146121_2_alg».proof.Proof.Gen.Pre_finite_inputs
import proofs.«114803_j55138790146121_2_alg».proof.Proof.Gen.ReferenceIdeal.Run
import proofs.«114803_j55138790146121_2_alg».proof.Proof.KRun
import proofs.«114803_j55138790146121_2_alg».proof.Proof.Chain
import proofs.«114803_j55138790146121_2_alg».proof.Proof.Region0
import proofs.«114803_j55138790146121_2_alg».proof.Proof.Region1
import proofs.«114803_j55138790146121_2_alg».proof.Proof.Region2
import proofs.«114803_j55138790146121_2_alg».proof.Proof.Region3
import proofs.«114803_j55138790146121_2_alg».proof.Proof.Region4
import proofs.«114803_j55138790146121_2_alg».proof.Proof.Region5
import proofs.«114803_j55138790146121_2_alg».proof.Proof.Region6
import proofs.«114803_j55138790146121_2_alg».proof.Proof.Region7
import proofs.«114803_j55138790146121_2_alg».proof.Proof.Region8
import proofs.«114803_j55138790146121_2_alg».proof.Proof.Region9
import proofs.«114803_j55138790146121_2_alg».proof.Proof.Region10
import proofs.«114803_j55138790146121_2_alg».proof.Proof.RefParams
import proofs.«114803_j55138790146121_2_alg».proof.Proof.KerParams
import proofs.«114803_j55138790146121_2_alg».proof.Proof.RefSide
import Idealize.ShloMosaic.Adequacy
import Idealize.ShloMosaic.Init

noncomputable section

namespace Cert.Proof

open Idealize.ShloMosaic Idealize.ShloMosaic.TcCoe Idealize.SL.Sem

/-- What each of the eleven regions leaves, gathered. -/
theorem regionFacts : Cert.KernelIdeal.Chain.RegionFacts where
  r0 := Cert.KernelIdeal.RegionVal.final0
  r1 := Cert.KernelIdeal.RegionVal.final1
  r2 := Cert.KernelIdeal.RegionVal.final2
  r3 := Cert.KernelIdeal.RegionVal.final3
  r4 := Cert.KernelIdeal.RegionVal.final4
  r5 := Cert.KernelIdeal.RegionVal.final5
  r6 := Cert.KernelIdeal.RegionVal.final6
  r7 := Cert.KernelIdeal.RegionVal.final7
  r8 := Cert.KernelIdeal.RegionVal.final8
  r9 := Cert.KernelIdeal.RegionVal.final9
  r10h := Cert.KernelIdeal.RegionVal.final10_h
  r10o := Cert.KernelIdeal.RegionVal.final10_out

variable (m : (ℓ : Loc Cert.KernelIdeal.nD Cert.KernelIdeal.τ Cert.KernelIdeal.sig) → Buf (Elt Ideal) ℓ) (ρ : Dev Cert.KernelIdeal.nD → PrngReg)

/-- The node features the kernel program returns: the network's function of the argument arrays. -/
theorem kernel_h_eq (c : Dev Cert.KernelIdeal.nD) : Cert.KernelIdeal.Gen.W22 m ρ c (Proc.devRef .tc Cert.KernelIdeal.main_v193_0) = Cert.RefP.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  (Cert.KernelIdeal.Chain.kernel_h m ρ c regionFacts).trans (Cert.KerParams.h_params m ρ c)

/-- The two output columns the kernel program returns. -/
theorem kernel_out_eq (c : Dev Cert.KernelIdeal.nD) : Cert.KernelIdeal.Gen.W22 m ρ c (Proc.devRef .tc Cert.KernelIdeal.main_v193_1) = Cert.RefP.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  rw [Cert.KernelIdeal.Chain.kernel_out m ρ c regionFacts, kernel_h_eq m ρ c, Cert.KerParams.arg12_eq m ρ c, Cert.KerParams.v32_eq m ρ c]
  rfl

/-- The kernel program's run: both results at the network's function of the arguments, the arguments unchanged. -/
theorem kernel_values : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v193_1) = Cert.RefP.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v193_0) = Cert.RefP.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run (Cert.KernelIdeal.defs (F := Ideal)) _ _).mono
    (fun r h c => ⟨(h c).1.trans (kernel_out_eq m ρ c), (h c).2.1.trans (kernel_h_eq m ρ c), (h c).2.2⟩)
    (Cert.KernelIdeal.KRun.run_results (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run (Cert.ReferenceIdeal.defs (F := Ideal)) _ _).mono (fun _ h c => (h c).2.2) (Cert.RefSide.run m ρ)

theorem preserves : Cert.preserves_Kernel_KernelIdeal := trivial

/-- Both programs end with the same two arrays: each is the network's function of argument arrays that agree. -/
theorem algebraic : Cert.algebraic_KernelIdeal_ReferenceIdeal := by
  intro m ρ m' ρ' _ hagree
  refine ⟨fun c => Cert.RefP.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), fun c => Cert.RefP.hOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), kernel_values m ρ, ?_⟩
  refine (θ_run (Cert.ReferenceIdeal.defs (F := Ideal)) _ _).mono (fun r h c => ?_) (Cert.RefSide.run m' ρ')
  obtain ⟨e0, e1, e2, e3, e4, e5, e6, e7, e8, e9, e10, e11, e12, e13⟩ := hagree c
  refine ⟨(h c).1.trans ?_, (h c).2.1.trans ?_, (h c).2.2⟩
  · rw [e0, e1, e2, e3, e4, e5, e6, e7, e8, e9, e10, e11, e12, e13]
  · rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
